-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S8192x1 : Shape := ⟨2, ![8192, 1]⟩
abbrev S512x1024 : Shape := ⟨2, ![512, 1024]⟩
abbrev S512x1 : Shape := ⟨2, ![512, 1]⟩
abbrev S512 : Shape := ⟨1, ![512]⟩
abbrev S512x512 : Shape := ⟨2, ![512, 512]⟩
abbrev S_ : Shape := ⟨0, ![]⟩

abbrev nBuf : Space → Nat
  | .hbm => 34
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1, .f32⟩
  | .hbm, ⟨3, _⟩ => ⟨S8192x1, .f32⟩
  | .hbm, ⟨4, _⟩ => ⟨S_, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1, .f32⟩
  | .local _ .vmem, ⟨5, _⟩ => ⟨S512x1, .f32⟩
  | .local _ .vmem, ⟨6, _⟩ => ⟨S512x1024, .bf16⟩
  | .local _ .vmem, ⟨7, _⟩ => ⟨S512x1, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | .local _ .vmem, ⟨14, _⟩ => ⟨S512x1024, .bf16⟩
  | .local _ .vmem, ⟨15, _⟩ => ⟨S512x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v22 : BitVec 1 := Scalar.cmpi .eq arg1 c15_i32
  let v23 : BitVec 32 := Scalar.extui v22
  let c0_i32_11 : BitVec 32 := 0#32
  let v24 : BitVec 1 := Scalar.cmpi .ne v23 c0_i32_11
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v22 : BitVec 1 := Scalar.cmpi .eq arg1 c15_i32
  let v23 : BitVec 32 := Scalar.extui v22
  let c0_i32_11 : BitVec 32 := 0#32
  let v24 : BitVec 1 := Scalar.cmpi .ne v23 c0_i32_11
  v24

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  broadcasts_S512x1_S512x1024 : S512x1.Broadcasts S512x1024
  bitsLt_bf16_f32 : FTy.bits .bf16 < FTy.bits .f32
  shapeCasts_S512x1024_S512x1024 : S512x1024.ShapeCasts S512x1024
  packedbf16_S512x1024_S512x1024_0_0 : (Rect.unit (s := S512x1024) ![0, 0] S512x1024.size inb_S512x1024_S512x1024_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  reduces_S512x512_S512 : S512x512.Reduces [1] S512
  bcast_S_S8192x1 : S_.BroadcastsInDim S8192x1 (![] : Fin 0 → Fin S8192x1.rank)
  reducesTo_S8192x1_S_d0_1 : S8192x1.ReducesTo [0, 1] S_
  h_S_ : 0 < S_.numel
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x1024.size a
  hwx1_1 : ∀ i : grid1.Coords, EltTy.bits .f32 = 32 ∨ (Rect.block (s := S8192x1024) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_cst_8 : Ref sig .tc := ⟨.hbm, 42, rfl⟩
abbrev main_v23 : Ref sig .tc := ⟨.hbm, 43, rfl⟩
abbrev main_v24 : Ref sig .tc := ⟨.hbm, 44, rfl⟩
abbrev main_cst_9 : Ref sig .tc := ⟨.hbm, 45, rfl⟩
abbrev main_v25 : Ref sig .tc := ⟨.hbm, 46, rfl⟩
abbrev main_v26 : Ref sig .tc := ⟨.hbm, 47, rfl⟩
abbrev main_cst_10 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_11 : Ref sig .tc := ⟨.hbm, 52, rfl⟩
abbrev main_v30 : Ref sig .tc := ⟨.hbm, 53, rfl⟩
abbrev main_v31 : Ref sig .tc := ⟨.hbm, 54, rfl⟩
abbrev main_cst_12 : Ref sig .tc := ⟨.hbm, 55, rfl⟩
abbrev main_v32 : Ref sig .tc := ⟨.hbm, 56, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  reducesTo_S8192x8192_S8192_d0 : S8192x8192.ReducesTo [0] S8192
  dot_S8192x1024_S8192x1024_S8192x8192_1_1_0_0_n_n_wf : DotDims.WF S8192x1024 S8192x1024 S8192x8192 [1] [1] [0] [0] [] []

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf

class Facts : Prop extends Facts₀ where

variable [Facts]
-- ==== Proof.FrameBaseB0.lean ====
/-
  Region 0 of the program: the two branch conditions of the kernel body in closed form over the grid
  (the first branch is taken exactly at the points whose second coordinate is 0, the last exactly where it
  is 15), where the output window is idle, the names of the staging and scratch memrefs, and the class
  invariant split into the kernel's two scratch buffers, the other scoped buffers and the generator register.
-/
import proofs.«132432_j45810121179238_2_alg».proof.Proof.Gen.Kernel.Launch
import proofs.«132432_j45810121179238_2_alg».proof.Proof.Gen.Kernel.Skeleton
import proofs.«132432_j45810121179238_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Frm0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The branch conditions -/

/-- The first branch (initialise the scratch buffers): the second grid coordinate is 0. -/
abbrev condFirst (i : grid0.Coords) : Prop := (Scalar.cmpi .ne (Scalar.extui (Scalar.cmpi .eq (BitVec.ofNat 32 (i 1).val) 0#32)) 0#32) = 1#1
theorem condFirst_iff : ∀ t : Fin cfg0.N, condFirst (grid0.coords t) ↔ t.val % 16 = 0 :=
  (by decide +kernel : ∀ t : Fin grid0.N, condFirst (grid0.coords t) ↔ t.val % 16 = 0)

/-- The last branch (copy the running maximum to the output block): the second grid coordinate is 15. -/
abbrev condLast (i : grid0.Coords) : Prop := k0_cond2 i = 1#1
theorem condLast_iff : ∀ t : Fin cfg0.N, condLast (grid0.coords t) ↔ t.val % 16 = 15 :=
  (by decide +kernel : ∀ t : Fin grid0.N, condLast (grid0.coords t) ↔ t.val % 16 = 15)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem idle_2 : ∀ t : Fin cfg0.N, ¬condLast (grid0.coords t) → cfg0.idle 2 (grid0.coords t) = true := by decide +kernel
theorem noFlush_2 : ∀ t : Fin cfg0.N, ¬condLast (grid0.coords t) → (cfg0.win 2).flush t = false := by decide +kernel
theorem live_2 : ∀ t : Fin cfg0.N, condLast (grid0.coords t) → cfg0.idle 2 (grid0.coords t) = false := by decide +kernel

/-! ## The memrefs the body is called with -/

abbrev ms_0 (t : Fin cfg0.N) : Memref sig .tc .vmem S512x1024 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S512x1024 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S512x1 .f32 := win0_2.stage (cfg0.slots t 2)
abbrev hs_2 (t : Fin cfg0.N) : (ms_2 t).IsWhole := hstage0_2 ((cfg0.slots t 2).cast nbuf0_2)
/-- The scratch holding the scaled rows of the first operand's block. -/
abbrev scA : Memref sig .tc .vmem S512x1024 .bf16 := Memref.whole cc0_scratch0
/-- The scratch holding the running maximum. -/
abbrev scM : Memref sig .tc .vmem S512x1 .f32 := Memref.whole cc0_scratch1
abbrev vA : View sig .tc .vmem S512x1024 .bf16 := (scA).view
abbrev vM : View sig .tc .vmem S512x1 .f32 := (scM).view
/-- One staging buffer of the output window, through which its contents are stated. -/
abbrev vO : View sig .tc .vmem S512x1 .f32 := (Memref.whole cc0_stg2_0 : Memref sig .tc .vmem S512x1 .f32).view

/-! ## The class invariant, split -/

/-- The scoped buffers that are neither this region's staging buffers nor its scratch, each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

theorem phiA_split (c : Dev nD) :
    (Pipeline.ΦA spec0 c : sProp 𝕄)
      ⊢ iprop((∃ d, owns (c : Thread nD τ) scA fullShare d) ∗ (∃ d, owns (c : Thread nD τ) scM fullShare d) ∗ others (F := F) c ∗ (∃ r, prngReg c r)) := by
  unfold Pipeline.ΦA; rw [scopedRest0_eq]; unfold others; simp only [scA, scM, owns_whole]
  iintro ⟨⟨Hs0, Hs1, Ho⟩, Hg⟩
  isplitl [Hs0]; · iexact Hs0
  isplitl [Hs1]; · iexact Hs1
  isplitl [Ho]; · iexact Ho
  iexact Hg

theorem phiA_join (c : Dev nD) :
    iprop((∃ d, owns (c : Thread nD τ) scA fullShare d) ∗ (∃ d, owns (c : Thread nD τ) scM fullShare d) ∗ others (F := F) c ∗ (∃ r, prngReg c r))
      ⊢ (Pipeline.ΦA spec0 c : sProp 𝕄) := by
  unfold Pipeline.ΦA; rw [scopedRest0_eq]; unfold others; simp only [scA, scM, owns_whole]
  iintro ⟨Hs0, Hs1, Ho, Hg⟩
  isplitr [Hg]
  · isplitl [Hs0]; · iexact Hs0
    isplitl [Hs1]; · iexact Hs1
    iexact Ho
  iexact Hg

end Cert.Kernel.Frm0

end
-- ==== Proof.FrameRunFirstB0.lean ====
/-
  Region 0, a point whose second grid coordinate is 0: the kernel body run once on whole memrefs. The first operand's
  block and the second operand's block are read and left as they were; the output block's buffer is not touched;
  the scaled-rows scratch is stored once (the first operand's rows over their clamped lengths) and the running-maximum
  scratch twice (minus infinity, then its maximum with this block's row maxima). The stores found by the run, last first,
  are the witness; the run itself is the proof that the body ends holding them.
-/
import proofs.«132432_j45810121179238_2_alg».proof.Proof.FrameBaseB0

set_option maxRecDepth 16384

noncomputable section

namespace Cert.Kernel.Frm0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S512x1024 .bf16) (harg5 : arg5.IsWhole) (arg6 : Memref sig .tc .vmem S512x1 .f32) (harg6 : arg6.IsWhole)
    (hc0 : condFirst i) (hc1 : ¬condLast i) (x0 x1 : Vec F S512x1024 .f32) :
    Σ' (LA : List (View.Piece (Elt F) S512x1024 .bf16)), { LM : List (View.Piece (Elt F) S512x1 .f32) //
      ∀ (xi : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LA)
                ∗ (∃ f, arg6.view.loc (c : Thread nD τ) ↦[arg6.view.set]{fullShare} arg6.view.writes (Elt F) f LM)) -∗ K ⟨⟩))
          ⊢ wp frame (wpE (defs₀ (F := F)) Variants.none c none) E (cc0__max_cosine_kernel i arg2 harg2 arg3 harg3 arg4 harg4 arg5 harg5 arg6 harg6) K } := by
  refine ⟨?_, ?_, fun xi E K => ?run⟩
  case run =>
    simp only [cc0__max_cosine_kernel_eq_skeleton]; unfold cc0__max_cosine_kernel_skel
    unfold owns
    iintro ⟨⟨%f0, %hf0, H0⟩, ⟨%f1, %hf1, H1⟩, ⟨%f2, %hf2, H2⟩, ⟨%dA, %fA, -, HA⟩, ⟨%dM, %fM, -, HM⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HA]; · iexists _; iexact HA
    iexists _; iexact HM

end Cert.Kernel.Frm0

end
-- ==== Proof.FrameRunMidB0.lean ====
/-
  Region 0, a point whose second grid coordinate is neither 0 nor 15: the kernel body run once on whole memrefs. Both operand
  blocks are read and left as they were; the output block's buffer is not touched; the scaled-rows scratch is read at what the
  point before left and left so; the running-maximum scratch is stored once, its maximum with this block's row maxima.
-/
import proofs.«132432_j45810121179238_2_alg».proof.Proof.FrameBaseB0

set_option maxRecDepth 16384

noncomputable section

namespace Cert.Kernel.Frm0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
noncomputable def runMid (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S512x1024 .bf16) (harg5 : arg5.IsWhole) (arg6 : Memref sig .tc .vmem S512x1 .f32) (harg6 : arg6.IsWhole)
    (hc0 : ¬condFirst i) (hc1 : ¬condLast i) (x0 x1 : Vec F S512x1024 .f32) (sA : Vec F S512x1024 .bf16) (sM : Vec F S512x1 .f32) :
    { LM : List (View.Piece (Elt F) S512x1 .f32) //
      ∀ (xi : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi
            ∗ owns (c : Thread nD τ) arg5 fullShare sA ∗ owns (c : Thread nD τ) arg6 fullShare sM
            ∗ (iprop(owns (c : Thread nD τ) arg2 fullShare x0 ∗ owns (c : Thread nD τ) arg3 fullShare x1 ∗ owns (c : Thread nD τ) arg4 fullShare xi
                ∗ owns (c : Thread nD τ) arg5 fullShare sA
                ∗ (∃ f, arg6.view.loc (c : Thread nD τ) ↦[arg6.view.set]{fullShare} arg6.view.writes (Elt F) f LM)) -∗ K ⟨⟩))
          ⊢ wp frame (wpE (defs₀ (F := F)) Variants.none c none) E (cc0__max_cosine_kernel i arg2 harg2 arg3 harg3 arg4 harg4 arg5 harg5 arg6 harg6) K } := by
  refine ⟨?_, fun xi E K => ?run⟩
  case run =>
    simp only [cc0__max_cosine_kernel_eq_skeleton]; unfold cc0__max_cosine_kernel_skel
    unfold owns
    iintro ⟨⟨%f0, %hf0, H0⟩, ⟨%f1, %hf1, H1⟩, ⟨%f2, %hf2, H2⟩, ⟨%fA, %hfA, HA⟩, ⟨%fM, %hfM, HM⟩, Hk⟩
    obtain rfl := harg2.eq_unread hf0; obtain rfl := harg3.eq_unread hf1; obtain rfl := harg4.eq_unread hf2
    obtain rfl := harg5.eq_unread hfA; obtain rfl := harg6.eq_unread hfM
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HA]
    · iexists _; isplitr; · ipureintro; exact harg5.read_unread _
      iexact HA
    iexists _; iexact HM

end Cert.Kernel.Frm0

end
-- ==== Proof.FrameRunLastB0.lean ====
/-
  Region 0, a point whose second grid coordinate is 15: the kernel body run once on whole memrefs. As at a middle point, and then the
  running-maximum scratch is copied whole into the output block's buffer.
-/
import proofs.«132432_j45810121179238_2_alg».proof.Proof.FrameBaseB0

set_option maxRecDepth 16384

noncomputable section

namespace Cert.Kernel.Frm0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
noncomputable def runLast (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S512x1024 .bf16) (harg5 : arg5.IsWhole) (arg6 : Memref sig .tc .vmem S512x1 .f32) (harg6 : arg6.IsWhole)
    (hc0 : ¬condFirst i) (hc1 : condLast i) (x0 x1 : Vec F S512x1024 .f32) (sA : Vec F S512x1024 .bf16) (sM : Vec F S512x1 .f32) :
    Σ' (LO : List (View.Piece (Elt F) S512x1 .f32)), { LM : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare sA ∗ owns (c : Thread nD τ) arg6 fullShare sM
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ owns (c : Thread nD τ) arg5 fullShare sA
                ∗ (∃ f, arg6.view.loc (c : Thread nD τ) ↦[arg6.view.set]{fullShare} arg6.view.writes (Elt F) f LM)) -∗ K ⟨⟩))
          ⊢ wp frame (wpE (defs₀ (F := F)) Variants.none c none) E (cc0__max_cosine_kernel i arg2 harg2 arg3 harg3 arg4 harg4 arg5 harg5 arg6 harg6) K } := by
  refine ⟨?_, ?_, fun E K => ?run⟩
  case run =>
    simp only [cc0__max_cosine_kernel_eq_skeleton]; unfold cc0__max_cosine_kernel_skel
    unfold owns
    iintro ⟨⟨%f0, %hf0, H0⟩, ⟨%f1, %hf1, H1⟩, ⟨%d2, %f2, -, H2⟩, ⟨%fA, %hfA, HA⟩, ⟨%fM, %hfM, HM⟩, Hk⟩
    obtain rfl := harg2.eq_unread hf0; obtain rfl := harg3.eq_unread hf1
    obtain rfl := harg5.eq_unread hfA; obtain rfl := harg6.eq_unread hfM
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HA]
    · iexists _; isplitr; · ipureintro; exact harg5.read_unread _
      iexact HA
    iexists _; iexact HM

end Cert.Kernel.Frm0

end
-- ==== Proof.FrameDataB0.lean ====
/-
  Region 0: what the two scratch buffers and the output block's buffer hold after the body at each grid point, the
  invariant that carries the scratch contents from one point to the next, the proof data of the pipeline over any
  contents `V` the region is entered at, and the body obligation at every point.

  After the body at point t the scaled-rows scratch holds what the first point of t's row of the grid stored, the
  running-maximum scratch what the stores of t's own body leave (they depend on what the point before left), and the
  output block's buffer is written only at the last point of a row, where it receives the running maximum.
-/
import proofs.«132432_j45810121179238_2_alg».proof.Proof.FrameRunFirstB0
import proofs.«132432_j45810121179238_2_alg».proof.Proof.FrameRunMidB0
import proofs.«132432_j45810121179238_2_alg».proof.Proof.FrameRunLastB0

set_option maxRecDepth 16384

noncomputable section

namespace Cert.Kernel.Frm0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The three kinds of points -/

theorem notLast_of_first (t : Fin cfg0.N) (h0 : t.val % 16 = 0) : ¬condLast (grid0.coords t) :=
  fun h => by have := (condLast_iff t).mp h; omega
theorem notFirst_of (t : Fin cfg0.N) (h0 : ¬t.val % 16 = 0) : ¬condFirst (grid0.coords t) :=
  fun h => h0 ((condFirst_iff t).mp h)
theorem notLast_of (t : Fin cfg0.N) (h1 : ¬t.val % 16 = 15) : ¬condLast (grid0.coords t) :=
  fun h => h1 ((condLast_iff t).mp h)

/-- The body's run at a first point of a row, on the point's memrefs and blocks. -/
def firstRun (c : Dev nD) (t : Fin cfg0.N) (h0 : t.val % 16 = 0) :=
  runFirst (F := F) c (grid0.coords t) (ms_0 t) (hs_0 t) (ms_1 t) (hs_1 t) (ms_2 t) (hs_2 t) scA (Memref.isWhole_whole _) scM (Memref.isWhole_whole _)
    ((condFirst_iff t).mpr h0) (notLast_of_first t h0) (iblk V c 0 t) (iblk V c 1 t)
/-- The body's run at a middle point, over what the point before left in the scratch buffers. -/
def midRun (c : Dev nD) (t : Fin cfg0.N) (h0 : ¬t.val % 16 = 0) (h1 : ¬t.val % 16 = 15) (sA : Vec F S512x1024 .bf16) (sM : Vec F S512x1 .f32) :=
  runMid (F := F) c (grid0.coords t) (ms_0 t) (hs_0 t) (ms_1 t) (hs_1 t) (ms_2 t) (hs_2 t) scA (Memref.isWhole_whole _) scM (Memref.isWhole_whole _)
    (notFirst_of t h0) (notLast_of t h1) (iblk V c 0 t) (iblk V c 1 t) sA sM
/-- The body's run at a last point of a row, over what the point before left in the scratch buffers. -/
def lastRun (c : Dev nD) (t : Fin cfg0.N) (h0 : ¬t.val % 16 = 0) (h1 : t.val % 16 = 15) (sA : Vec F S512x1024 .bf16) (sM : Vec F S512x1 .f32) :=
  runLast (F := F) c (grid0.coords t) (ms_0 t) (hs_0 t) (ms_1 t) (hs_1 t) (ms_2 t) (hs_2 t) scA (Memref.isWhole_whole _) scM (Memref.isWhole_whole _)
    (notFirst_of t h0) ((condLast_iff t).mpr h1) (iblk V c 0 t) (iblk V c 1 t) sA sM

/-! ## The stores cover the buffers -/

theorem coverA_first (c : Dev nD) (t : Fin cfg0.N) (h0 : t.val % 16 = 0) (y : S512x1024.Idx) :
    ∃ pc ∈ (firstRun V c t h0).1, y ∈ pc.1.set :=
  View.cover_of_wholeMem _ (by unfold firstRun; sl_whole_mem) y
theorem coverM_first (c : Dev nD) (t : Fin cfg0.N) (h0 : t.val % 16 = 0) (y : S512x1.Idx) :
    ∃ pc ∈ (firstRun V c t h0).2.1, y ∈ pc.1.set :=
  View.cover_of_wholeMem _ (by unfold firstRun; sl_whole_mem) y
theorem coverM_mid (c : Dev nD) (t : Fin cfg0.N) (h0 : ¬t.val % 16 = 0) (h1 : ¬t.val % 16 = 15) (sA : Vec F S512x1024 .bf16) (sM : Vec F S512x1 .f32) (y : S512x1.Idx) :
    ∃ pc ∈ (midRun V c t h0 h1 sA sM).1, y ∈ pc.1.set :=
  View.cover_of_wholeMem _ (by unfold midRun; sl_whole_mem) y
theorem coverO_last (c : Dev nD) (t : Fin cfg0.N) (h0 : ¬t.val % 16 = 0) (h1 : t.val % 16 = 15) (sA : Vec F S512x1024 .bf16) (sM : Vec F S512x1 .f32) (y : S512x1.Idx) :
    ∃ pc ∈ (lastRun V c t h0 h1 sA sM).1, y ∈ pc.1.set :=
  View.cover_of_wholeMem _ (by unfold lastRun; sl_whole_mem) y
theorem coverM_last (c : Dev nD) (t : Fin cfg0.N) (h0 : ¬t.val % 16 = 0) (h1 : t.val % 16 = 15) (sA : Vec F S512x1024 .bf16) (sM : Vec F S512x1 .f32) (y : S512x1.Idx) :
    ∃ pc ∈ (lastRun V c t h0 h1 sA sM).2.1, y ∈ pc.1.set :=
  View.cover_of_wholeMem _ (by unfold lastRun; sl_whole_mem) y

/-! ## What the buffers hold after each point -/

/-- The output block's buffer, the scaled-rows scratch and the running-maximum scratch. -/
abbrev St (F : FTy → Type) : Type := Vec F S512x1 .f32 × Vec F S512x1024 .bf16 × Vec F S512x1 .f32

/-- Contents nothing consults (the output buffer where the window is idle; the scratch before the first point). -/
def junkSt : St F := (vO.read (Elt F) vO.junk, vA.read (Elt F) vA.junk, vM.read (Elt F) vM.junk)

/-- One point: from what the point before left to what this point leaves. -/
def stepAt (c : Dev nD) (t : Fin cfg0.N) (prev : St F) : St F :=
  if h0 : t.val % 16 = 0 then
    (vO.read (Elt F) vO.junk, vA.read (Elt F) (vA.writes (Elt F) vA.junk (firstRun V c t h0).1),
      vM.read (Elt F) (vM.writes (Elt F) vM.junk (firstRun V c t h0).2.1))
  else if h1 : t.val % 16 = 15 then
    (vO.read (Elt F) (vO.writes (Elt F) vO.junk (lastRun V c t h0 h1 prev.2.1 prev.2.2).1), prev.2.1,
      vM.read (Elt F) (vM.writes (Elt F) vM.junk (lastRun V c t h0 h1 prev.2.1 prev.2.2).2.1))
  else
    (vO.read (Elt F) vO.junk, prev.2.1, vM.read (Elt F) (vM.writes (Elt F) vM.junk (midRun V c t h0 h1 prev.2.1 prev.2.2).1))

theorem stepAt_first (c : Dev nD) (t : Fin cfg0.N) (prev : St F) (h0 : t.val % 16 = 0) :
    stepAt V c t prev = (vO.read (Elt F) vO.junk, vA.read (Elt F) (vA.writes (Elt F) vA.junk (firstRun V c t h0).1),
      vM.read (Elt F) (vM.writes (Elt F) vM.junk (firstRun V c t h0).2.1)) := dif_pos h0
theorem stepAt_last (c : Dev nD) (t : Fin cfg0.N) (prev : St F) (h0 : ¬t.val % 16 = 0) (h1 : t.val % 16 = 15) :
    stepAt V c t prev = (vO.read (Elt F) (vO.writes (Elt F) vO.junk (lastRun V c t h0 h1 prev.2.1 prev.2.2).1), prev.2.1,
      vM.read (Elt F) (vM.writes (Elt F) vM.junk (lastRun V c t h0 h1 prev.2.1 prev.2.2).2.1)) := (dif_neg h0).trans (dif_pos h1)
theorem stepAt_mid (c : Dev nD) (t : Fin cfg0.N) (prev : St F) (h0 : ¬t.val % 16 = 0) (h1 : ¬t.val % 16 = 15) :
    stepAt V c t prev = (vO.read (Elt F) vO.junk, prev.2.1, vM.read (Elt F) (vM.writes (Elt F) vM.junk (midRun V c t h0 h1 prev.2.1 prev.2.2).1)) :=
  (dif_neg h0).trans (dif_neg h1)

/-- The contents after the body at position `n`. -/
def outsAt (c : Dev nD) : (n : ℕ) → n < cfg0.N → St F
  | 0, hn => stepAt V c ⟨0, hn⟩ junkSt
  | n + 1, hn => stepAt V c ⟨n + 1, hn⟩ (outsAt c n (Nat.lt_of_succ_lt hn))

/-- What the point before position `n` left. -/
def prevAt (c : Dev nD) : (n : ℕ) → n < cfg0.N → St F
  | 0, _ => junkSt
  | n + 1, hn => outsAt V c n (Nat.lt_of_succ_lt hn)

theorem outsAt_eq (c : Dev nD) (t : Fin cfg0.N) : outsAt V c t.val t.isLt = stepAt V c t (prevAt V c t.val t.isLt) := by
  obtain ⟨n, hn⟩ := t
  cases n with
  | zero => rfl
  | succ n => rfl

theorem prevAt_pos (c : Dev nD) (n : ℕ) (hn : n < cfg0.N) (hz : n ≠ 0) :
    prevAt V c n hn = outsAt V c (n - 1) (by omega) := by
  cases n with
  | zero => exact absurd rfl hz
  | succ n => rfl

/-! ## The invariant -/

/-- Before the first point the class invariant (every scratch at anything); before any other point the two scratch buffers at
    what the point before left, the other scoped buffers at anything, the generator register at some state. -/
def PhiS (c : Dev nD) : (n : ℕ) → n ≤ cfg0.N → sProp 𝕄
  | 0, _ => Pipeline.ΦA spec0 c
  | n + 1, hn => iprop(owns (c : Thread nD τ) scA fullShare (outsAt V c n hn).2.1 ∗ owns (c : Thread nD τ) scM fullShare (outsAt V c n hn).2.2
      ∗ others (F := F) c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scA fullShare (outsAt V c n hn).2.1 ∗ owns (c : Thread nD τ) scM fullShare (outsAt V c n hn).2.2
      ∗ others (F := F) c ∗ (∃ r, prngReg c r)) := rfl

theorem PhiS_pos (c : Dev nD) (n : ℕ) (h : n ≤ cfg0.N) (hz : n ≠ 0) :
    PhiS V c n h = iprop(owns (c : Thread nD τ) scA fullShare (outsAt V c (n - 1) (by omega)).2.1 ∗ owns (c : Thread nD τ) scM fullShare (outsAt V c (n - 1) (by omega)).2.2
      ∗ others (F := F) c ∗ (∃ r, prngReg c r)) := by
  cases n with
  | zero => exact absurd rfl hz
  | succ n => rfl

/-! ## The pipeline's proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

end Cert.Kernel.Frm0

end
-- ==== Proof.FrameBodyB0.lean ====
/-
  Region 0: the body obligation. At every grid point the body, called on the point's staging memrefs with the invariant's
  scratch buffers, runs to the end and hands back each input block as it found it, the output block's buffer either untouched
  (where the window is idle) or at the running maximum (at the last point of a row), and the scratch buffers at this point's
  contents — the three kinds of points one by one.
-/
import proofs.«132432_j45810121179238_2_alg».proof.Proof.FrameDataB0

set_option maxRecDepth 16384

noncomputable section

namespace Cert.Kernel.Frm0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

theorem leaves_0 (c : Dev nD) (t : Fin cfg0.N) :
    (dat V c).leavesExact 0 t = owns (c : Thread nD τ) (ms_0 t) fullShare (iblk V c 0 t) := by
  rw [show (dat V c).leavesExact 0 t = owns (c : Thread nD τ) (ms_0 t) fullShare ((dat V c).after 0 t) from by
    unfold Dat.leavesExact; rw [live_0 t], after_0]
theorem leaves_1 (c : Dev nD) (t : Fin cfg0.N) :
    (dat V c).leavesExact 1 t = owns (c : Thread nD τ) (ms_1 t) fullShare (iblk V c 1 t) := by
  rw [show (dat V c).leavesExact 1 t = owns (c : Thread nD τ) (ms_1 t) fullShare ((dat V c).after 1 t) from by
    unfold Dat.leavesExact; rw [live_1 t], after_1]

set_option maxHeartbeats 4800000 in
/-- A first point of a row. -/
theorem sound_first (c : Dev nD) (t : Fin cfg0.N) (h0 : t.val % 16 = 0) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [leaves_0, leaves_1]
  rw [Dat.leavesExact_idle (dat V c) 2 t (idle_2 t (notLast_of_first t h0)) (noFlush_2 t (notLast_of_first t h0))]
  rw [outsAt_eq V c t, stepAt_first V c t _ h0]
  dsimp only
  by_cases hz : t.val = 0
  · rw [Phi_castSucc V c t, PhiS_zero V c _ _ hz]
    iintro ⟨HΦ, Ho, ⟨%d0, H0⟩, ⟨%d1, H1⟩, ⟨%d2, H2⟩⟩
    ihave HΦ' := (phiA_split (F := F) c) $$ HΦ
    icases HΦ' with ⟨HA, HM, Hoth, Hg⟩
    iapply ((firstRun V c t h0).2.2 _ Set.univ _)
    isplitl [H0]; · iexact H0
    isplitl [H1]; · iexact H1
    isplitl [H2]; · iexact H2
    isplitl [HA]; · iexact HA
    isplitl [HM]; · iexact HM
    iintro ⟨H0, H1, H2, ⟨%eA, HA⟩, ⟨%eM, HM⟩⟩
    isplitl [HA HM Hoth Hg]
    · isplitl [HA]
      · unfold owns; iexists _; isplitr
        swap; · iexact HA
        ipureintro; exact View.read_writes_of_cover _ _ _ _ _ (coverA_first V c t h0)
      isplitl [HM]
      · unfold owns; iexists _; isplitr
        swap; · iexact HM
        ipureintro; exact View.read_writes_of_cover _ _ _ _ _ (coverM_first V c t h0)
      isplitl [Hoth]; · iexact Hoth
      iexact Hg
    isplitl [Ho]; · iexact Ho
    isplitl [H0]; · iexact H0
    isplitl [H1]; · iexact H1
    iexists _; iexact H2
  · rw [Phi_castSucc V c t, PhiS_pos V c _ _ hz]
    iintro ⟨⟨HA, HM, Hoth, Hg⟩, Ho, ⟨%d0, H0⟩, ⟨%d1, H1⟩, ⟨%d2, H2⟩⟩
    iapply ((firstRun V c t h0).2.2 _ Set.univ _)
    isplitl [H0]; · iexact H0
    isplitl [H1]; · iexact H1
    isplitl [H2]; · iexact H2
    isplitl [HA]; · iexists _; iexact HA
    isplitl [HM]; · iexists _; iexact HM
    iintro ⟨H0, H1, H2, ⟨%eA, HA⟩, ⟨%eM, HM⟩⟩
    isplitl [HA HM Hoth Hg]
    · isplitl [HA]
      · unfold owns; iexists _; isplitr
        swap; · iexact HA
        ipureintro; exact View.read_writes_of_cover _ _ _ _ _ (coverA_first V c t h0)
      isplitl [HM]
      · unfold owns; iexists _; isplitr
        swap; · iexact HM
        ipureintro; exact View.read_writes_of_cover _ _ _ _ _ (coverM_first V c t h0)
      isplitl [Hoth]; · iexact Hoth
      iexact Hg
    isplitl [Ho]; · iexact Ho
    isplitl [H0]; · iexact H0
    isplitl [H1]; · iexact H1
    iexists _; iexact H2

set_option maxHeartbeats 4800000 in
/-- A middle point of a row. -/
theorem sound_mid (c : Dev nD) (t : Fin cfg0.N) (h0 : ¬t.val % 16 = 0) (h1 : ¬t.val % 16 = 15) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [leaves_0, leaves_1]
  rw [Dat.leavesExact_idle (dat V c) 2 t (idle_2 t (notLast_of t h1)) (noFlush_2 t (notLast_of t h1))]
  rw [outsAt_eq V c t, stepAt_mid V c t _ h0 h1]
  dsimp only
  have hz : t.val ≠ 0 := fun h => h0 (by rw [h])
  rw [Phi_castSucc V c t, PhiS_pos V c _ _ hz, prevAt_pos V c _ _ hz]
  iintro ⟨⟨HA, HM, Hoth, Hg⟩, Ho, ⟨%d0, H0⟩, ⟨%d1, H1⟩, ⟨%d2, H2⟩⟩
  iapply ((midRun V c t h0 h1 _ _).2 _ Set.univ _)
  isplitl [H0]; · iexact H0
  isplitl [H1]; · iexact H1
  isplitl [H2]; · iexact H2
  isplitl [HA]; · iexact HA
  isplitl [HM]; · iexact HM
  iintro ⟨H0, H1, H2, HA, ⟨%eM, HM⟩⟩
  isplitl [HA HM Hoth Hg]
  · isplitl [HA]; · iexact HA
    isplitl [HM]
    · unfold owns; iexists _; isplitr
      swap; · iexact HM
      ipureintro; exact View.read_writes_of_cover _ _ _ _ _ (coverM_mid V c t h0 h1 _ _)
    isplitl [Hoth]; · iexact Hoth
    iexact Hg
  isplitl [Ho]; · iexact Ho
  isplitl [H0]; · iexact H0
  isplitl [H1]; · iexact H1
  iexists _; iexact H2

set_option maxHeartbeats 4800000 in
/-- A last point of a row. -/
theorem sound_last (c : Dev nD) (t : Fin cfg0.N) (h0 : ¬t.val % 16 = 0) (h1 : t.val % 16 = 15) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [leaves_0, leaves_1]
  rw [show (dat V c).leavesExact 2 t = owns (c : Thread nD τ) (ms_2 t) fullShare ((dat V c).after 2 t) from by
    unfold Dat.leavesExact; rw [live_2 t ((condLast_iff t).mpr h1)], after_2]
  rw [outsAt_eq V c t, stepAt_last V c t _ h0 h1]
  dsimp only
  have hz : t.val ≠ 0 := fun h => h0 (by rw [h])
  rw [Phi_castSucc V c t, PhiS_pos V c _ _ hz, prevAt_pos V c _ _ hz]
  iintro ⟨⟨HA, HM, Hoth, Hg⟩, Ho, ⟨%d0, H0⟩, ⟨%d1, H1⟩, ⟨%d2, H2⟩⟩
  iapply ((lastRun V c t h0 h1 _ _).2.2 Set.univ _)
  isplitl [H0]; · iexact H0
  isplitl [H1]; · iexact H1
  isplitl [H2]; · iexists _; iexact H2
  isplitl [HA]; · iexact HA
  isplitl [HM]; · iexact HM
  iintro ⟨H0, H1, ⟨%e2, H2⟩, HA, ⟨%eM, HM⟩⟩
  isplitl [HA HM Hoth Hg]
  · isplitl [HA]; · iexact HA
    isplitl [HM]
    · unfold owns; iexists _; isplitr
      swap; · iexact HM
      ipureintro; exact View.read_writes_of_cover _ _ _ _ _ (coverM_last V c t h0 h1 _ _)
    isplitl [Hoth]; · iexact Hoth
    iexact Hg
  isplitl [Ho]; · iexact Ho
  isplitl [H0]; · iexact H0
  isplitl [H1]; · iexact H1
  unfold owns; iexists _; isplitr
  swap; · iexact H2
  ipureintro; exact View.read_writes_of_cover _ _ _ _ _ (coverO_last V c t h0 h1 _ _)

/-- The body at any point. -/
theorem sound_body (c : Dev nD) (t : Fin cfg0.N) :
    bodyPre V c t ⊢ wp frame (wpE (defs₀ (F := F)) Variants.none c none) Set.univ (bodyAt0 t) (fun _ => bodyPost V c t) := by
  by_cases h0 : t.val % 16 = 0
  · exact sound_first V c t h0
  · by_cases h1 : t.val % 16 = 15
    · exact sound_last V c t h0 h1
    · exact sound_mid V c t h0 h1

/-- The library's body obligation, at every point. -/
theorem body_obligation (c : Dev nD) : BodyObligation (dat (F := F) V c) (defs₀ (F := F)) Variants.none () Set.univ := fun t => by
  rw [bigSep_W0, bigSep_W0]
  exact sound_body V c t

/-- The scratch contents forgotten. -/
theorem forget_scratch (c : Dev nD) (a : Vec F S512x1024 .bf16) (b : Vec F S512x1 .f32) :
    (iprop(owns (c : Thread nD τ) scA fullShare a ∗ owns (c : Thread nD τ) scM fullShare b ∗ others (F := F) c ∗ (∃ r, prngReg c r)) : sProp 𝕄)
      ⊢ iprop((∃ d, owns (c : Thread nD τ) scA fullShare d) ∗ (∃ d, owns (c : Thread nD τ) scM fullShare d) ∗ others (F := F) c ∗ (∃ r, prngReg c r)) := by
  iintro ⟨HA, HM, Hoth, Hg⟩
  isplitl [HA]; · iexists _; iexact HA
  isplitl [HM]; · iexists _; iexact HM
  isplitl [Hoth]; · iexact Hoth
  iexact Hg

/-- What the launch hands the region is the invariant before the first point. -/
theorem phi_in (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the scratch contents are forgotten. -/
theorem phi_out (c : Dev nD) : (dat V c).Φ (Fin.last cfg0.N) ⊢ Pipeline.ΦA spec0 c := by
  have hne : (Fin.last cfg0.N).val ≠ 0 := by rw [Fin.val_last]; have : cfg0.N = 256 := N_0; omega
  rw [show (dat V c).Φ (Fin.last cfg0.N) = PhiS V c (Fin.last cfg0.N).val (Nat.le_of_lt_succ (Fin.last cfg0.N).isLt) from rfl,
    PhiS_pos V c _ _ hne]
  exact (forget_scratch c _ _).trans (phiA_join (F := F) c)

end Cert.Kernel.Frm0

end
-- ==== Proof.FrameBaseB1.lean ====
/-
  Region 1 of the program: the two branch conditions of the kernel body in closed form over the grid
  (the first branch is taken exactly at the points whose second coordinate is 0, the last exactly where it
  is 15), where the output window is idle, the names of the staging and scratch memrefs, and the class
  invariant split into the kernel's two scratch buffers, the other scoped buffers and the generator register.
-/
import proofs.«132432_j45810121179238_2_alg».proof.Proof.Gen.Kernel.Launch
import proofs.«132432_j45810121179238_2_alg».proof.Proof.Gen.Kernel.Skeleton
import proofs.«132432_j45810121179238_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Frm1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The branch conditions -/

/-- The first branch (initialise the scratch buffers): the second grid coordinate is 0. -/
abbrev condFirst (i : grid1.Coords) : Prop := (Scalar.cmpi .ne (Scalar.extui (Scalar.cmpi .eq (BitVec.ofNat 32 (i 1).val) 0#32)) 0#32) = 1#1
theorem condFirst_iff : ∀ t : Fin cfg1.N, condFirst (grid1.coords t) ↔ t.val % 16 = 0 :=
  (by decide +kernel : ∀ t : Fin grid1.N, condFirst (grid1.coords t) ↔ t.val % 16 = 0)

/-- The last branch (copy the running maximum to the output block): the second grid coordinate is 15. -/
abbrev condLast (i : grid1.Coords) : Prop := k1_cond2 i = 1#1
theorem condLast_iff : ∀ t : Fin cfg1.N, condLast (grid1.coords t) ↔ t.val % 16 = 15 :=
  (by decide +kernel : ∀ t : Fin grid1.N, condLast (grid1.coords t) ↔ t.val % 16 = 15)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem idle_2 : ∀ t : Fin cfg1.N, ¬condLast (grid1.coords t) → cfg1.idle 2 (grid1.coords t) = true := by decide +kernel
theorem noFlush_2 : ∀ t : Fin cfg1.N, ¬condLast (grid1.coords t) → (cfg1.win 2).flush t = false := by decide +kernel
theorem live_2 : ∀ t : Fin cfg1.N, condLast (grid1.coords t) → cfg1.idle 2 (grid1.coords t) = false := by decide +kernel

/-! ## The memrefs the body is called with -/

abbrev ms_0 (t : Fin cfg1.N) : Memref sig .tc .vmem S512x1024 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S512x1024 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S512x1 .f32 := win1_2.stage (cfg1.slots t 2)
abbrev hs_2 (t : Fin cfg1.N) : (ms_2 t).IsWhole := hstage1_2 ((cfg1.slots t 2).cast nbuf1_2)
/-- The scratch holding the scaled rows of the first operand's block. -/
abbrev scA : Memref sig .tc .vmem S512x1024 .bf16 := Memref.whole cc1_scratch0
/-- The scratch holding the running maximum. -/
abbrev scM : Memref sig .tc .vmem S512x1 .f32 := Memref.whole cc1_scratch1
abbrev vA : View sig .tc .vmem S512x1024 .bf16 := (scA).view
abbrev vM : View sig .tc .vmem S512x1 .f32 := (scM).view
/-- One staging buffer of the output window, through which its contents are stated. -/
abbrev vO : View sig .tc .vmem S512x1 .f32 := (Memref.whole cc1_stg2_0 : Memref sig .tc .vmem S512x1 .f32).view

/-! ## The class invariant, split -/

/-- The scoped buffers that are neither this region's staging buffers nor its scratch, each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

theorem phiA_split (c : Dev nD) :
    (Pipeline.ΦA spec1 c : sProp 𝕄)
      ⊢ iprop((∃ d, owns (c : Thread nD τ) scA fullShare d) ∗ (∃ d, owns (c : Thread nD τ) scM fullShare d) ∗ others (F := F) c ∗ (∃ r, prngReg c r)) := by
  unfold Pipeline.ΦA; rw [scopedRest1_eq]; unfold others; simp only [scA, scM, owns_whole]
  iintro ⟨⟨H1, H2, H3, H4, H5, H6, H7, H8, Hs0, Hs1⟩, Hg⟩
  isplitl [Hs0]; · iexact Hs0
  isplitl [Hs1]; · iexact Hs1
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

theorem phiA_join (c : Dev nD) :
    iprop((∃ d, owns (c : Thread nD τ) scA fullShare d) ∗ (∃ d, owns (c : Thread nD τ) scM fullShare d) ∗ others (F := F) c ∗ (∃ r, prngReg c r))
      ⊢ (Pipeline.ΦA spec1 c : sProp 𝕄) := by
  unfold Pipeline.ΦA; rw [scopedRest1_eq]; unfold others; simp only [scA, scM, owns_whole]
  iintro ⟨Hs0, Hs1, ⟨H1, H2, H3, H4, H5, H6, H7, H8⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hs0]; · iexact Hs0
    iexact Hs1
  iexact Hg

end Cert.Kernel.Frm1

end
-- ==== Proof.FrameRunFirstB1.lean ====
/-
  Region 1, a point whose second grid coordinate is 0: the kernel body run once on whole memrefs. The first operand's
  block and the second operand's block are read and left as they were; the output block's buffer is not touched;
  the scaled-rows scratch is stored once (the first operand's rows over their clamped lengths) and the running-maximum
  scratch twice (minus infinity, then its maximum with this block's row maxima). The stores found by the run, last first,
  are the witness; the run itself is the proof that the body ends holding them.
-/
import proofs.«132432_j45810121179238_2_alg».proof.Proof.FrameBaseB1

set_option maxRecDepth 16384

noncomputable section

namespace Cert.Kernel.Frm1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
noncomputable def runFirst (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S512x1024 .bf16) (harg5 : arg5.IsWhole) (arg6 : Memref sig .tc .vmem S512x1 .f32) (harg6 : arg6.IsWhole)
    (hc0 : condFirst i) (hc1 : ¬condLast i) (x0 x1 : Vec F S512x1024 .f32) :
    Σ' (LA : List (View.Piece (Elt F) S512x1024 .bf16)), { LM : List (View.Piece (Elt F) S512x1 .f32) //
      ∀ (xi : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LA)
                ∗ (∃ f, arg6.view.loc (c : Thread nD τ) ↦[arg6.view.set]{fullShare} arg6.view.writes (Elt F) f LM)) -∗ K ⟨⟩))
          ⊢ wp frame (wpE (defs₀ (F := F)) Variants.none c none) E (cc1__max_cosine_kernel i arg2 harg2 arg3 harg3 arg4 harg4 arg5 harg5 arg6 harg6) K } := by
  refine ⟨?_, ?_, fun xi E K => ?run⟩
  case run =>
    simp only [cc1__max_cosine_kernel_eq_skeleton]; unfold cc1__max_cosine_kernel_skel
    unfold owns
    iintro ⟨⟨%f0, %hf0, H0⟩, ⟨%f1, %hf1, H1⟩, ⟨%f2, %hf2, H2⟩, ⟨%dA, %fA, -, HA⟩, ⟨%dM, %fM, -, HM⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HA]; · iexists _; iexact HA
    iexists _; iexact HM

end Cert.Kernel.Frm1

end
-- ==== Proof.FrameRunMidB1.lean ====
/-
  Region 1, a point whose second grid coordinate is neither 0 nor 15: the kernel body run once on whole memrefs. Both operand
  blocks are read and left as they were; the output block's buffer is not touched; the scaled-rows scratch is read at what the
  point before left and left so; the running-maximum scratch is stored once, its maximum with this block's row maxima.
-/
import proofs.«132432_j45810121179238_2_alg».proof.Proof.FrameBaseB1

set_option maxRecDepth 16384

noncomputable section

namespace Cert.Kernel.Frm1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
noncomputable def runMid (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S512x1024 .bf16) (harg5 : arg5.IsWhole) (arg6 : Memref sig .tc .vmem S512x1 .f32) (harg6 : arg6.IsWhole)
    (hc0 : ¬condFirst i) (hc1 : ¬condLast i) (x0 x1 : Vec F S512x1024 .f32) (sA : Vec F S512x1024 .bf16) (sM : Vec F S512x1 .f32) :
    { LM : List (View.Piece (Elt F) S512x1 .f32) //
      ∀ (xi : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi
            ∗ owns (c : Thread nD τ) arg5 fullShare sA ∗ owns (c : Thread nD τ) arg6 fullShare sM
            ∗ (iprop(owns (c : Thread nD τ) arg2 fullShare x0 ∗ owns (c : Thread nD τ) arg3 fullShare x1 ∗ owns (c : Thread nD τ) arg4 fullShare xi
                ∗ owns (c : Thread nD τ) arg5 fullShare sA
                ∗ (∃ f, arg6.view.loc (c : Thread nD τ) ↦[arg6.view.set]{fullShare} arg6.view.writes (Elt F) f LM)) -∗ K ⟨⟩))
          ⊢ wp frame (wpE (defs₀ (F := F)) Variants.none c none) E (cc1__max_cosine_kernel i arg2 harg2 arg3 harg3 arg4 harg4 arg5 harg5 arg6 harg6) K } := by
  refine ⟨?_, fun xi E K => ?run⟩
  case run =>
    simp only [cc1__max_cosine_kernel_eq_skeleton]; unfold cc1__max_cosine_kernel_skel
    unfold owns
    iintro ⟨⟨%f0, %hf0, H0⟩, ⟨%f1, %hf1, H1⟩, ⟨%f2, %hf2, H2⟩, ⟨%fA, %hfA, HA⟩, ⟨%fM, %hfM, HM⟩, Hk⟩
    obtain rfl := harg2.eq_unread hf0; obtain rfl := harg3.eq_unread hf1; obtain rfl := harg4.eq_unread hf2
    obtain rfl := harg5.eq_unread hfA; obtain rfl := harg6.eq_unread hfM
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HA]
    · iexists _; isplitr; · ipureintro; exact harg5.read_unread _
      iexact HA
    iexists _; iexact HM

end Cert.Kernel.Frm1

end
-- ==== Proof.FrameRunLastB1.lean ====
/-
  Region 1, a point whose second grid coordinate is 15: the kernel body run once on whole memrefs. As at a middle point, and then the
  running-maximum scratch is copied whole into the output block's buffer.
-/
import proofs.«132432_j45810121179238_2_alg».proof.Proof.FrameBaseB1

set_option maxRecDepth 16384

noncomputable section

namespace Cert.Kernel.Frm1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
noncomputable def runLast (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S512x1024 .bf16) (harg5 : arg5.IsWhole) (arg6 : Memref sig .tc .vmem S512x1 .f32) (harg6 : arg6.IsWhole)
    (hc0 : ¬condFirst i) (hc1 : condLast i) (x0 x1 : Vec F S512x1024 .f32) (sA : Vec F S512x1024 .bf16) (sM : Vec F S512x1 .f32) :
    Σ' (LO : List (View.Piece (Elt F) S512x1 .f32)), { LM : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare sA ∗ owns (c : Thread nD τ) arg6 fullShare sM
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ owns (c : Thread nD τ) arg5 fullShare sA
                ∗ (∃ f, arg6.view.loc (c : Thread nD τ) ↦[arg6.view.set]{fullShare} arg6.view.writes (Elt F) f LM)) -∗ K ⟨⟩))
          ⊢ wp frame (wpE (defs₀ (F := F)) Variants.none c none) E (cc1__max_cosine_kernel i arg2 harg2 arg3 harg3 arg4 harg4 arg5 harg5 arg6 harg6) K } := by
  refine ⟨?_, ?_, fun E K => ?run⟩
  case run =>
    simp only [cc1__max_cosine_kernel_eq_skeleton]; unfold cc1__max_cosine_kernel_skel
    unfold owns
    iintro ⟨⟨%f0, %hf0, H0⟩, ⟨%f1, %hf1, H1⟩, ⟨%d2, %f2, -, H2⟩, ⟨%fA, %hfA, HA⟩, ⟨%fM, %hfM, HM⟩, Hk⟩
    obtain rfl := harg2.eq_unread hf0; obtain rfl := harg3.eq_unread hf1
    obtain rfl := harg5.eq_unread hfA; obtain rfl := harg6.eq_unread hfM
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HA]
    · iexists _; isplitr; · ipureintro; exact harg5.read_unread _
      iexact HA
    iexists _; iexact HM

end Cert.Kernel.Frm1

end
-- ==== Proof.FrameDataB1.lean ====
/-
  Region 1: what the two scratch buffers and the output block's buffer hold after the body at each grid point, the
  invariant that carries the scratch contents from one point to the next, the proof data of the pipeline over any
  contents `V` the region is entered at, and the body obligation at every point.

  After the body at point t the scaled-rows scratch holds what the first point of t's row of the grid stored, the
  running-maximum scratch what the stores of t's own body leave (they depend on what the point before left), and the
  output block's buffer is written only at the last point of a row, where it receives the running maximum.
-/
import proofs.«132432_j45810121179238_2_alg».proof.Proof.FrameRunFirstB1
import proofs.«132432_j45810121179238_2_alg».proof.Proof.FrameRunMidB1
import proofs.«132432_j45810121179238_2_alg».proof.Proof.FrameRunLastB1

set_option maxRecDepth 16384

noncomputable section

namespace Cert.Kernel.Frm1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The three kinds of points -/

theorem notLast_of_first (t : Fin cfg1.N) (h0 : t.val % 16 = 0) : ¬condLast (grid1.coords t) :=
  fun h => by have := (condLast_iff t).mp h; omega
theorem notFirst_of (t : Fin cfg1.N) (h0 : ¬t.val % 16 = 0) : ¬condFirst (grid1.coords t) :=
  fun h => h0 ((condFirst_iff t).mp h)
theorem notLast_of (t : Fin cfg1.N) (h1 : ¬t.val % 16 = 15) : ¬condLast (grid1.coords t) :=
  fun h => h1 ((condLast_iff t).mp h)

/-- The body's run at a first point of a row, on the point's memrefs and blocks. -/
def firstRun (c : Dev nD) (t : Fin cfg1.N) (h0 : t.val % 16 = 0) :=
  runFirst (F := F) c (grid1.coords t) (ms_0 t) (hs_0 t) (ms_1 t) (hs_1 t) (ms_2 t) (hs_2 t) scA (Memref.isWhole_whole _) scM (Memref.isWhole_whole _)
    ((condFirst_iff t).mpr h0) (notLast_of_first t h0) (iblk V c 0 t) (iblk V c 1 t)
/-- The body's run at a middle point, over what the point before left in the scratch buffers. -/
def midRun (c : Dev nD) (t : Fin cfg1.N) (h0 : ¬t.val % 16 = 0) (h1 : ¬t.val % 16 = 15) (sA : Vec F S512x1024 .bf16) (sM : Vec F S512x1 .f32) :=
  runMid (F := F) c (grid1.coords t) (ms_0 t) (hs_0 t) (ms_1 t) (hs_1 t) (ms_2 t) (hs_2 t) scA (Memref.isWhole_whole _) scM (Memref.isWhole_whole _)
    (notFirst_of t h0) (notLast_of t h1) (iblk V c 0 t) (iblk V c 1 t) sA sM
/-- The body's run at a last point of a row, over what the point before left in the scratch buffers. -/
def lastRun (c : Dev nD) (t : Fin cfg1.N) (h0 : ¬t.val % 16 = 0) (h1 : t.val % 16 = 15) (sA : Vec F S512x1024 .bf16) (sM : Vec F S512x1 .f32) :=
  runLast (F := F) c (grid1.coords t) (ms_0 t) (hs_0 t) (ms_1 t) (hs_1 t) (ms_2 t) (hs_2 t) scA (Memref.isWhole_whole _) scM (Memref.isWhole_whole _)
    (notFirst_of t h0) ((condLast_iff t).mpr h1) (iblk V c 0 t) (iblk V c 1 t) sA sM

/-! ## The stores cover the buffers -/

theorem coverA_first (c : Dev nD) (t : Fin cfg1.N) (h0 : t.val % 16 = 0) (y : S512x1024.Idx) :
    ∃ pc ∈ (firstRun V c t h0).1, y ∈ pc.1.set :=
  View.cover_of_wholeMem _ (by unfold firstRun; sl_whole_mem) y
theorem coverM_first (c : Dev nD) (t : Fin cfg1.N) (h0 : t.val % 16 = 0) (y : S512x1.Idx) :
    ∃ pc ∈ (firstRun V c t h0).2.1, y ∈ pc.1.set :=
  View.cover_of_wholeMem _ (by unfold firstRun; sl_whole_mem) y
theorem coverM_mid (c : Dev nD) (t : Fin cfg1.N) (h0 : ¬t.val % 16 = 0) (h1 : ¬t.val % 16 = 15) (sA : Vec F S512x1024 .bf16) (sM : Vec F S512x1 .f32) (y : S512x1.Idx) :
    ∃ pc ∈ (midRun V c t h0 h1 sA sM).1, y ∈ pc.1.set :=
  View.cover_of_wholeMem _ (by unfold midRun; sl_whole_mem) y
theorem coverO_last (c : Dev nD) (t : Fin cfg1.N) (h0 : ¬t.val % 16 = 0) (h1 : t.val % 16 = 15) (sA : Vec F S512x1024 .bf16) (sM : Vec F S512x1 .f32) (y : S512x1.Idx) :
    ∃ pc ∈ (lastRun V c t h0 h1 sA sM).1, y ∈ pc.1.set :=
  View.cover_of_wholeMem _ (by unfold lastRun; sl_whole_mem) y
theorem coverM_last (c : Dev nD) (t : Fin cfg1.N) (h0 : ¬t.val % 16 = 0) (h1 : t.val % 16 = 15) (sA : Vec F S512x1024 .bf16) (sM : Vec F S512x1 .f32) (y : S512x1.Idx) :
    ∃ pc ∈ (lastRun V c t h0 h1 sA sM).2.1, y ∈ pc.1.set :=
  View.cover_of_wholeMem _ (by unfold lastRun; sl_whole_mem) y

/-! ## What the buffers hold after each point -/

/-- The output block's buffer, the scaled-rows scratch and the running-maximum scratch. -/
abbrev St (F : FTy → Type) : Type := Vec F S512x1 .f32 × Vec F S512x1024 .bf16 × Vec F S512x1 .f32

/-- Contents nothing consults (the output buffer where the window is idle; the scratch before the first point). -/
def junkSt : St F := (vO.read (Elt F) vO.junk, vA.read (Elt F) vA.junk, vM.read (Elt F) vM.junk)

/-- One point: from what the point before left to what this point leaves. -/
def stepAt (c : Dev nD) (t : Fin cfg1.N) (prev : St F) : St F :=
  if h0 : t.val % 16 = 0 then
    (vO.read (Elt F) vO.junk, vA.read (Elt F) (vA.writes (Elt F) vA.junk (firstRun V c t h0).1),
      vM.read (Elt F) (vM.writes (Elt F) vM.junk (firstRun V c t h0).2.1))
  else if h1 : t.val % 16 = 15 then
    (vO.read (Elt F) (vO.writes (Elt F) vO.junk (lastRun V c t h0 h1 prev.2.1 prev.2.2).1), prev.2.1,
      vM.read (Elt F) (vM.writes (Elt F) vM.junk (lastRun V c t h0 h1 prev.2.1 prev.2.2).2.1))
  else
    (vO.read (Elt F) vO.junk, prev.2.1, vM.read (Elt F) (vM.writes (Elt F) vM.junk (midRun V c t h0 h1 prev.2.1 prev.2.2).1))

theorem stepAt_first (c : Dev nD) (t : Fin cfg1.N) (prev : St F) (h0 : t.val % 16 = 0) :
    stepAt V c t prev = (vO.read (Elt F) vO.junk, vA.read (Elt F) (vA.writes (Elt F) vA.junk (firstRun V c t h0).1),
      vM.read (Elt F) (vM.writes (Elt F) vM.junk (firstRun V c t h0).2.1)) := dif_pos h0
theorem stepAt_last (c : Dev nD) (t : Fin cfg1.N) (prev : St F) (h0 : ¬t.val % 16 = 0) (h1 : t.val % 16 = 15) :
    stepAt V c t prev = (vO.read (Elt F) (vO.writes (Elt F) vO.junk (lastRun V c t h0 h1 prev.2.1 prev.2.2).1), prev.2.1,
      vM.read (Elt F) (vM.writes (Elt F) vM.junk (lastRun V c t h0 h1 prev.2.1 prev.2.2).2.1)) := (dif_neg h0).trans (dif_pos h1)
theorem stepAt_mid (c : Dev nD) (t : Fin cfg1.N) (prev : St F) (h0 : ¬t.val % 16 = 0) (h1 : ¬t.val % 16 = 15) :
    stepAt V c t prev = (vO.read (Elt F) vO.junk, prev.2.1, vM.read (Elt F) (vM.writes (Elt F) vM.junk (midRun V c t h0 h1 prev.2.1 prev.2.2).1)) :=
  (dif_neg h0).trans (dif_neg h1)

/-- The contents after the body at position `n`. -/
def outsAt (c : Dev nD) : (n : ℕ) → n < cfg1.N → St F
  | 0, hn => stepAt V c ⟨0, hn⟩ junkSt
  | n + 1, hn => stepAt V c ⟨n + 1, hn⟩ (outsAt c n (Nat.lt_of_succ_lt hn))

/-- What the point before position `n` left. -/
def prevAt (c : Dev nD) : (n : ℕ) → n < cfg1.N → St F
  | 0, _ => junkSt
  | n + 1, hn => outsAt V c n (Nat.lt_of_succ_lt hn)

theorem outsAt_eq (c : Dev nD) (t : Fin cfg1.N) : outsAt V c t.val t.isLt = stepAt V c t (prevAt V c t.val t.isLt) := by
  obtain ⟨n, hn⟩ := t
  cases n with
  | zero => rfl
  | succ n => rfl

theorem prevAt_pos (c : Dev nD) (n : ℕ) (hn : n < cfg1.N) (hz : n ≠ 0) :
    prevAt V c n hn = outsAt V c (n - 1) (by omega) := by
  cases n with
  | zero => exact absurd rfl hz
  | succ n => rfl

/-! ## The invariant -/

/-- Before the first point the class invariant (every scratch at anything); before any other point the two scratch buffers at
    what the point before left, the other scoped buffers at anything, the generator register at some state. -/
def PhiS (c : Dev nD) : (n : ℕ) → n ≤ cfg1.N → sProp 𝕄
  | 0, _ => Pipeline.ΦA spec1 c
  | n + 1, hn => iprop(owns (c : Thread nD τ) scA fullShare (outsAt V c n hn).2.1 ∗ owns (c : Thread nD τ) scM fullShare (outsAt V c n hn).2.2
      ∗ others (F := F) c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scA fullShare (outsAt V c n hn).2.1 ∗ owns (c : Thread nD τ) scM fullShare (outsAt V c n hn).2.2
      ∗ others (F := F) c ∗ (∃ r, prngReg c r)) := rfl

theorem PhiS_pos (c : Dev nD) (n : ℕ) (h : n ≤ cfg1.N) (hz : n ≠ 0) :
    PhiS V c n h = iprop(owns (c : Thread nD τ) scA fullShare (outsAt V c (n - 1) (by omega)).2.1 ∗ owns (c : Thread nD τ) scM fullShare (outsAt V c (n - 1) (by omega)).2.2
      ∗ others (F := F) c ∗ (∃ r, prngReg c r)) := by
  cases n with
  | zero => exact absurd rfl hz
  | succ n => rfl

/-! ## The pipeline's proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

end Cert.Kernel.Frm1

end
-- ==== Proof.FrameBodyB1.lean ====
/-
  Region 1: the body obligation. At every grid point the body, called on the point's staging memrefs with the invariant's
  scratch buffers, runs to the end and hands back each input block as it found it, the output block's buffer either untouched
  (where the window is idle) or at the running maximum (at the last point of a row), and the scratch buffers at this point's
  contents — the three kinds of points one by one.
-/
import proofs.«132432_j45810121179238_2_alg».proof.Proof.FrameDataB1

set_option maxRecDepth 16384

noncomputable section

namespace Cert.Kernel.Frm1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

theorem leaves_0 (c : Dev nD) (t : Fin cfg1.N) :
    (dat V c).leavesExact 0 t = owns (c : Thread nD τ) (ms_0 t) fullShare (iblk V c 0 t) := by
  rw [show (dat V c).leavesExact 0 t = owns (c : Thread nD τ) (ms_0 t) fullShare ((dat V c).after 0 t) from by
    unfold Dat.leavesExact; rw [live_0 t], after_0]
theorem leaves_1 (c : Dev nD) (t : Fin cfg1.N) :
    (dat V c).leavesExact 1 t = owns (c : Thread nD τ) (ms_1 t) fullShare (iblk V c 1 t) := by
  rw [show (dat V c).leavesExact 1 t = owns (c : Thread nD τ) (ms_1 t) fullShare ((dat V c).after 1 t) from by
    unfold Dat.leavesExact; rw [live_1 t], after_1]

set_option maxHeartbeats 4800000 in
/-- A first point of a row. -/
theorem sound_first (c : Dev nD) (t : Fin cfg1.N) (h0 : t.val % 16 = 0) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [leaves_0, leaves_1]
  rw [Dat.leavesExact_idle (dat V c) 2 t (idle_2 t (notLast_of_first t h0)) (noFlush_2 t (notLast_of_first t h0))]
  rw [outsAt_eq V c t, stepAt_first V c t _ h0]
  dsimp only
  by_cases hz : t.val = 0
  · rw [Phi_castSucc V c t, PhiS_zero V c _ _ hz]
    iintro ⟨HΦ, Ho, ⟨%d0, H0⟩, ⟨%d1, H1⟩, ⟨%d2, H2⟩⟩
    ihave HΦ' := (phiA_split (F := F) c) $$ HΦ
    icases HΦ' with ⟨HA, HM, Hoth, Hg⟩
    iapply ((firstRun V c t h0).2.2 _ Set.univ _)
    isplitl [H0]; · iexact H0
    isplitl [H1]; · iexact H1
    isplitl [H2]; · iexact H2
    isplitl [HA]; · iexact HA
    isplitl [HM]; · iexact HM
    iintro ⟨H0, H1, H2, ⟨%eA, HA⟩, ⟨%eM, HM⟩⟩
    isplitl [HA HM Hoth Hg]
    · isplitl [HA]
      · unfold owns; iexists _; isplitr
        swap; · iexact HA
        ipureintro; exact View.read_writes_of_cover _ _ _ _ _ (coverA_first V c t h0)
      isplitl [HM]
      · unfold owns; iexists _; isplitr
        swap; · iexact HM
        ipureintro; exact View.read_writes_of_cover _ _ _ _ _ (coverM_first V c t h0)
      isplitl [Hoth]; · iexact Hoth
      iexact Hg
    isplitl [Ho]; · iexact Ho
    isplitl [H0]; · iexact H0
    isplitl [H1]; · iexact H1
    iexists _; iexact H2
  · rw [Phi_castSucc V c t, PhiS_pos V c _ _ hz]
    iintro ⟨⟨HA, HM, Hoth, Hg⟩, Ho, ⟨%d0, H0⟩, ⟨%d1, H1⟩, ⟨%d2, H2⟩⟩
    iapply ((firstRun V c t h0).2.2 _ Set.univ _)
    isplitl [H0]; · iexact H0
    isplitl [H1]; · iexact H1
    isplitl [H2]; · iexact H2
    isplitl [HA]; · iexists _; iexact HA
    isplitl [HM]; · iexists _; iexact HM
    iintro ⟨H0, H1, H2, ⟨%eA, HA⟩, ⟨%eM, HM⟩⟩
    isplitl [HA HM Hoth Hg]
    · isplitl [HA]
      · unfold owns; iexists _; isplitr
        swap; · iexact HA
        ipureintro; exact View.read_writes_of_cover _ _ _ _ _ (coverA_first V c t h0)
      isplitl [HM]
      · unfold owns; iexists _; isplitr
        swap; · iexact HM
        ipureintro; exact View.read_writes_of_cover _ _ _ _ _ (coverM_first V c t h0)
      isplitl [Hoth]; · iexact Hoth
      iexact Hg
    isplitl [Ho]; · iexact Ho
    isplitl [H0]; · iexact H0
    isplitl [H1]; · iexact H1
    iexists _; iexact H2

set_option maxHeartbeats 4800000 in
/-- A middle point of a row. -/
theorem sound_mid (c : Dev nD) (t : Fin cfg1.N) (h0 : ¬t.val % 16 = 0) (h1 : ¬t.val % 16 = 15) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [leaves_0, leaves_1]
  rw [Dat.leavesExact_idle (dat V c) 2 t (idle_2 t (notLast_of t h1)) (noFlush_2 t (notLast_of t h1))]
  rw [outsAt_eq V c t, stepAt_mid V c t _ h0 h1]
  dsimp only
  have hz : t.val ≠ 0 := fun h => h0 (by rw [h])
  rw [Phi_castSucc V c t, PhiS_pos V c _ _ hz, prevAt_pos V c _ _ hz]
  iintro ⟨⟨HA, HM, Hoth, Hg⟩, Ho, ⟨%d0, H0⟩, ⟨%d1, H1⟩, ⟨%d2, H2⟩⟩
  iapply ((midRun V c t h0 h1 _ _).2 _ Set.univ _)
  isplitl [H0]; · iexact H0
  isplitl [H1]; · iexact H1
  isplitl [H2]; · iexact H2
  isplitl [HA]; · iexact HA
  isplitl [HM]; · iexact HM
  iintro ⟨H0, H1, H2, HA, ⟨%eM, HM⟩⟩
  isplitl [HA HM Hoth Hg]
  · isplitl [HA]; · iexact HA
    isplitl [HM]
    · unfold owns; iexists _; isplitr
      swap; · iexact HM
      ipureintro; exact View.read_writes_of_cover _ _ _ _ _ (coverM_mid V c t h0 h1 _ _)
    isplitl [Hoth]; · iexact Hoth
    iexact Hg
  isplitl [Ho]; · iexact Ho
  isplitl [H0]; · iexact H0
  isplitl [H1]; · iexact H1
  iexists _; iexact H2

set_option maxHeartbeats 4800000 in
/-- A last point of a row. -/
theorem sound_last (c : Dev nD) (t : Fin cfg1.N) (h0 : ¬t.val % 16 = 0) (h1 : t.val % 16 = 15) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [leaves_0, leaves_1]
  rw [show (dat V c).leavesExact 2 t = owns (c : Thread nD τ) (ms_2 t) fullShare ((dat V c).after 2 t) from by
    unfold Dat.leavesExact; rw [live_2 t ((condLast_iff t).mpr h1)], after_2]
  rw [outsAt_eq V c t, stepAt_last V c t _ h0 h1]
  dsimp only
  have hz : t.val ≠ 0 := fun h => h0 (by rw [h])
  rw [Phi_castSucc V c t, PhiS_pos V c _ _ hz, prevAt_pos V c _ _ hz]
  iintro ⟨⟨HA, HM, Hoth, Hg⟩, Ho, ⟨%d0, H0⟩, ⟨%d1, H1⟩, ⟨%d2, H2⟩⟩
  iapply ((lastRun V c t h0 h1 _ _).2.2 Set.univ _)
  isplitl [H0]; · iexact H0
  isplitl [H1]; · iexact H1
  isplitl [H2]; · iexists _; iexact H2
  isplitl [HA]; · iexact HA
  isplitl [HM]; · iexact HM
  iintro ⟨H0, H1, ⟨%e2, H2⟩, HA, ⟨%eM, HM⟩⟩
  isplitl [HA HM Hoth Hg]
  · isplitl [HA]; · iexact HA
    isplitl [HM]
    · unfold owns; iexists _; isplitr
      swap; · iexact HM
      ipureintro; exact View.read_writes_of_cover _ _ _ _ _ (coverM_last V c t h0 h1 _ _)
    isplitl [Hoth]; · iexact Hoth
    iexact Hg
  isplitl [Ho]; · iexact Ho
  isplitl [H0]; · iexact H0
  isplitl [H1]; · iexact H1
  unfold owns; iexists _; isplitr
  swap; · iexact H2
  ipureintro; exact View.read_writes_of_cover _ _ _ _ _ (coverO_last V c t h0 h1 _ _)

/-- The body at any point. -/
theorem sound_body (c : Dev nD) (t : Fin cfg1.N) :
    bodyPre V c t ⊢ wp frame (wpE (defs₀ (F := F)) Variants.none c none) Set.univ (bodyAt1 t) (fun _ => bodyPost V c t) := by
  by_cases h0 : t.val % 16 = 0
  · exact sound_first V c t h0
  · by_cases h1 : t.val % 16 = 15
    · exact sound_last V c t h0 h1
    · exact sound_mid V c t h0 h1

/-- The library's body obligation, at every point. -/
theorem body_obligation (c : Dev nD) : BodyObligation (dat (F := F) V c) (defs₀ (F := F)) Variants.none () Set.univ := fun t => by
  rw [bigSep_W1, bigSep_W1]
  exact sound_body V c t

/-- The scratch contents forgotten. -/
theorem forget_scratch (c : Dev nD) (a : Vec F S512x1024 .bf16) (b : Vec F S512x1 .f32) :
    (iprop(owns (c : Thread nD τ) scA fullShare a ∗ owns (c : Thread nD τ) scM fullShare b ∗ others (F := F) c ∗ (∃ r, prngReg c r)) : sProp 𝕄)
      ⊢ iprop((∃ d, owns (c : Thread nD τ) scA fullShare d) ∗ (∃ d, owns (c : Thread nD τ) scM fullShare d) ∗ others (F := F) c ∗ (∃ r, prngReg c r)) := by
  iintro ⟨HA, HM, Hoth, Hg⟩
  isplitl [HA]; · iexists _; iexact HA
  isplitl [HM]; · iexists _; iexact HM
  isplitl [Hoth]; · iexact Hoth
  iexact Hg

/-- What the launch hands the region is the invariant before the first point. -/
theorem phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the scratch contents are forgotten. -/
theorem phi_out (c : Dev nD) : (dat V c).Φ (Fin.last cfg1.N) ⊢ Pipeline.ΦA spec1 c := by
  have hne : (Fin.last cfg1.N).val ≠ 0 := by rw [Fin.val_last]; have : cfg1.N = 256 := N_1; omega
  rw [show (dat V c).Φ (Fin.last cfg1.N) = PhiS V c (Fin.last cfg1.N).val (Nat.le_of_lt_succ (Fin.last cfg1.N).isLt) from rfl,
    PhiS_pos V c _ _ hne]
  exact (forget_scratch c _ _).trans (phiA_join (F := F) c)

end Cert.Kernel.Frm1

end
-- ==== Proof.FrameMainB.lean ====
/-
  The whole program as a run of three segments — the first kernel region, the second kernel region, the closing stretch of
  host operations — from the launch to the return: every weakly fair execution terminates without a fault, and at the end
  every unscoped buffer holds the contents obtained by folding the three segments over the launch memory: the first region
  replaces its output array by what its pipeline leaves, the second region likewise, the host stretch applies its operations.
-/
import proofs.«132432_j45810121179238_2_alg».proof.Proof.FrameBodyB0
import proofs.«132432_j45810121179238_2_alg».proof.Proof.FrameBodyB1
import proofs.«132432_j45810121179238_2_alg».proof.Proof.Gen.Kernel.Regions
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.Kernel.FrmMain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b
/-- After the first region: its arrays at what its pipeline leaves. -/
def W1 (c : Dev nD) : Valuation τ sig (Elt F) :=
  Pipeline.withArrays spec0 c (W0 m c) fun w => (Frm0.dat (V0 m) c).arrAt w cfg0.N
theorem W1_arr (c : Dev nD) (w : Fin cfg0.W) :
    W1 m c (Proc.devRef .tc (Pipeline.arrRef spec0 w)) = (Frm0.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (Frm0.dat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second region: its arrays at what its pipeline leaves. -/
def W2 (c : Dev nD) : Valuation τ sig (Elt F) :=
  Pipeline.withArrays spec1 c (W1 m c) fun w => (Frm1.dat (V1 m) c).arrAt w cfg1.N
theorem W2_arr (c : Dev nD) (w : Fin cfg1.W) :
    W2 m c (Proc.devRef .tc (Pipeline.arrRef spec1 w)) = (Frm1.dat (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (Frm1.dat (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the closing host stretch. -/
abbrev W3 : Dev nD → Valuation τ sig (Elt F) := fun c => StableHlo.after hostOps2 (W2 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Frm0.dat (V0 m) c
  | ⟨1, _⟩ => fun c => Frm1.dat (V1 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at the contents before it, left with the region's arrays at
    what the pipeline leaves and every other buffer as entered. Its arrays are split out of the unscoped buffers and put back at
    the exit contents; the generator register goes into the class invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Frm0.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have hΦ : (pdats m 0 c).Φ (Fin.last _) ⊢ (Pipeline.ΦA spec0 c : sProp 𝕄) := Frm0.phi_out (V0 m) c
    have hsplit : (Pipeline.ΦA spec0 c : sProp 𝕄) ⊢ iprop((∃ r, prngReg c r) ∗ emp ∗ Pipeline.scopedRest spec0 c) := by
      unfold Pipeline.ΦA
      iintro ⟨Hr, Hp⟩
      isplitl [Hp]; · iexact Hp
      isplitr; · iempintro
      iexact Hr
    exact hΦ.trans hsplit
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left with the region's arrays at
    what the pipeline leaves and every other buffer as entered. Its arrays are split out of the unscoped buffers and put back at
    the exit contents; the generator register goes into the class invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Frm1.body_obligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have hΦ : (pdats m 1 c).Φ (Fin.last _) ⊢ (Pipeline.ΦA spec1 c : sProp 𝕄) := Frm1.phi_out (V1 m) c
    have hsplit : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact hΦ.trans hsplit
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .region (reg1 m),
    .host (hseg hostOps2 hostOps2_sub hostOps2_fresh (W2 m)) ]
theorem main_run (c : Dev nD) : main (F := F) c = Pipeline.Seg.run (segs m) := (main_chain c).trans (by chain_rfl)

set_option backward.isDefEq.respectTransparency.types false in
/-- From any memory with zero counters every weakly fair execution of the program terminates, nothing faulting, and every final
    state has every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show (iprop(StableHlo.held (c : Thread nD τ) (Pipeline.ucRefs τ sig) (W3 m c) ∗ R c) : sProp 𝕄)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The arguments end as launched -/

theorem W3_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_writes_sub hostOps2 _ hostOps2_writes (by decide)
    _ = W1 m c (Proc.devRef .tc main_arg0) := (W2_arr m c 1).trans (((Frm1.dat (V1 m) c).arrAt_in 1 rfl _).trans (Frm1.A_eq (V1 m) c 1))
    _ = W0 m c (Proc.devRef .tc main_arg0) := (W1_arr m c 0).trans (((Frm0.dat (V0 m) c).arrAt_in 0 rfl _).trans (Frm0.A_eq (V0 m) c 0))
    _ = m ((c : Thread nD τ).loc main_arg0) := rfl

theorem W3_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_writes_sub hostOps2 _ hostOps2_writes (by decide)
    _ = W1 m c (Proc.devRef .tc main_arg1) := (W2_arr m c 0).trans (((Frm1.dat (V1 m) c).arrAt_in 0 rfl _).trans (Frm1.A_eq (V1 m) c 0))
    _ = W0 m c (Proc.devRef .tc main_arg1) := (W1_arr m c 1).trans (((Frm0.dat (V0 m) c).arrAt_in 1 rfl _).trans (Frm0.A_eq (V0 m) c 1))
    _ = m ((c : Thread nD τ).loc main_arg1) := rfl

/-- The frame: the program runs to the end and its argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_arg0 m c), (h c _ (mem_uc main_arg1 (by decide))).trans (W3_arg1 m c)⟩) (run_all m ρ)

end Cert.Kernel.FrmMain

end
-- ==== Proof.FrameBaseI0.lean ====
/-
  Region 0 of the program: the two branch conditions of the kernel body in closed form over the grid
  (the first branch is taken exactly at the points whose second coordinate is 0, the last exactly where it
  is 15), where the output window is idle, the names of the staging and scratch memrefs, and the class
  invariant split into the kernel's two scratch buffers, the other scoped buffers and the generator register.
-/
import proofs.«132432_j45810121179238_2_alg».proof.Proof.Gen.KernelIdeal.Launch
import proofs.«132432_j45810121179238_2_alg».proof.Proof.Gen.KernelIdeal.Skeleton
import proofs.«132432_j45810121179238_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Frm0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The branch conditions -/

/-- The first branch (initialise the scratch buffers): the second grid coordinate is 0. -/
abbrev condFirst (i : grid0.Coords) : Prop := (Scalar.cmpi .ne (Scalar.extui (Scalar.cmpi .eq (BitVec.ofNat 32 (i 1).val) 0#32)) 0#32) = 1#1
theorem condFirst_iff : ∀ t : Fin cfg0.N, condFirst (grid0.coords t) ↔ t.val % 16 = 0 :=
  (by decide +kernel : ∀ t : Fin grid0.N, condFirst (grid0.coords t) ↔ t.val % 16 = 0)

/-- The last branch (copy the running maximum to the output block): the second grid coordinate is 15. -/
abbrev condLast (i : grid0.Coords) : Prop := k0_cond2 i = 1#1
theorem condLast_iff : ∀ t : Fin cfg0.N, condLast (grid0.coords t) ↔ t.val % 16 = 15 :=
  (by decide +kernel : ∀ t : Fin grid0.N, condLast (grid0.coords t) ↔ t.val % 16 = 15)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem idle_2 : ∀ t : Fin cfg0.N, ¬condLast (grid0.coords t) → cfg0.idle 2 (grid0.coords t) = true := by decide +kernel
theorem noFlush_2 : ∀ t : Fin cfg0.N, ¬condLast (grid0.coords t) → (cfg0.win 2).flush t = false := by decide +kernel
theorem live_2 : ∀ t : Fin cfg0.N, condLast (grid0.coords t) → cfg0.idle 2 (grid0.coords t) = false := by decide +kernel

/-! ## The memrefs the body is called with -/

abbrev ms_0 (t : Fin cfg0.N) : Memref sig .tc .vmem S512x1024 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S512x1024 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S512x1 .f32 := win0_2.stage (cfg0.slots t 2)
abbrev hs_2 (t : Fin cfg0.N) : (ms_2 t).IsWhole := hstage0_2 ((cfg0.slots t 2).cast nbuf0_2)
/-- The scratch holding the scaled rows of the first operand's block. -/
abbrev scA : Memref sig .tc .vmem S512x1024 .bf16 := Memref.whole cc0_scratch0
/-- The scratch holding the running maximum. -/
abbrev scM : Memref sig .tc .vmem S512x1 .f32 := Memref.whole cc0_scratch1
abbrev vA : View sig .tc .vmem S512x1024 .bf16 := (scA).view
abbrev vM : View sig .tc .vmem S512x1 .f32 := (scM).view
/-- One staging buffer of the output window, through which its contents are stated. -/
abbrev vO : View sig .tc .vmem S512x1 .f32 := (Memref.whole cc0_stg2_0 : Memref sig .tc .vmem S512x1 .f32).view

/-! ## The class invariant, split -/

/-- The scoped buffers that are neither this region's staging buffers nor its scratch, each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

theorem phiA_split (c : Dev nD) :
    (Pipeline.ΦA spec0 c : sProp 𝕄)
      ⊢ iprop((∃ d, owns (c : Thread nD τ) scA fullShare d) ∗ (∃ d, owns (c : Thread nD τ) scM fullShare d) ∗ others (F := F) c ∗ (∃ r, prngReg c r)) := by
  unfold Pipeline.ΦA; rw [scopedRest0_eq]; unfold others; simp only [scA, scM, owns_whole]
  iintro ⟨⟨Hs0, Hs1, Ho⟩, Hg⟩
  isplitl [Hs0]; · iexact Hs0
  isplitl [Hs1]; · iexact Hs1
  isplitl [Ho]; · iexact Ho
  iexact Hg

theorem phiA_join (c : Dev nD) :
    iprop((∃ d, owns (c : Thread nD τ) scA fullShare d) ∗ (∃ d, owns (c : Thread nD τ) scM fullShare d) ∗ others (F := F) c ∗ (∃ r, prngReg c r))
      ⊢ (Pipeline.ΦA spec0 c : sProp 𝕄) := by
  unfold Pipeline.ΦA; rw [scopedRest0_eq]; unfold others; simp only [scA, scM, owns_whole]
  iintro ⟨Hs0, Hs1, Ho, Hg⟩
  isplitr [Hg]
  · isplitl [Hs0]; · iexact Hs0
    isplitl [Hs1]; · iexact Hs1
    iexact Ho
  iexact Hg

end Cert.KernelIdeal.Frm0

end
-- ==== Proof.FrameRunFirstI0.lean ====
/-
  Region 0, a point whose second grid coordinate is 0: the kernel body run once on whole memrefs. The first operand's
  block and the second operand's block are read and left as they were; the output block's buffer is not touched;
  the scaled-rows scratch is stored once (the first operand's rows over their clamped lengths) and the running-maximum
  scratch twice (minus infinity, then its maximum with this block's row maxima). The stores found by the run, last first,
  are the witness; the run itself is the proof that the body ends holding them.
-/
import proofs.«132432_j45810121179238_2_alg».proof.Proof.FrameBaseI0

set_option maxRecDepth 16384

noncomputable section

namespace Cert.KernelIdeal.Frm0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
noncomputable def runFirst (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S512x1024 .bf16) (harg5 : arg5.IsWhole) (arg6 : Memref sig .tc .vmem S512x1 .f32) (harg6 : arg6.IsWhole)
    (hc0 : condFirst i) (hc1 : ¬condLast i) (x0 x1 : Vec F S512x1024 .f32) :
    Σ' (LA : List (View.Piece (Elt F) S512x1024 .bf16)), { LM : List (View.Piece (Elt F) S512x1 .f32) //
      ∀ (xi : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LA)
                ∗ (∃ f, arg6.view.loc (c : Thread nD τ) ↦[arg6.view.set]{fullShare} arg6.view.writes (Elt F) f LM)) -∗ K ⟨⟩))
          ⊢ wp frame (wpE (defs₀ (F := F)) Variants.none c none) E (cc0__max_cosine_kernel i arg2 harg2 arg3 harg3 arg4 harg4 arg5 harg5 arg6 harg6) K } := by
  refine ⟨?_, ?_, fun xi E K => ?run⟩
  case run =>
    simp only [cc0__max_cosine_kernel_eq_skeleton]; unfold cc0__max_cosine_kernel_skel
    unfold owns
    iintro ⟨⟨%f0, %hf0, H0⟩, ⟨%f1, %hf1, H1⟩, ⟨%f2, %hf2, H2⟩, ⟨%dA, %fA, -, HA⟩, ⟨%dM, %fM, -, HM⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HA]; · iexists _; iexact HA
    iexists _; iexact HM

end Cert.KernelIdeal.Frm0

end
-- ==== Proof.FrameRunMidI0.lean ====
/-
  Region 0, a point whose second grid coordinate is neither 0 nor 15: the kernel body run once on whole memrefs. Both operand
  blocks are read and left as they were; the output block's buffer is not touched; the scaled-rows scratch is read at what the
  point before left and left so; the running-maximum scratch is stored once, its maximum with this block's row maxima.
-/
import proofs.«132432_j45810121179238_2_alg».proof.Proof.FrameBaseI0

set_option maxRecDepth 16384

noncomputable section

namespace Cert.KernelIdeal.Frm0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
noncomputable def runMid (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S512x1024 .bf16) (harg5 : arg5.IsWhole) (arg6 : Memref sig .tc .vmem S512x1 .f32) (harg6 : arg6.IsWhole)
    (hc0 : ¬condFirst i) (hc1 : ¬condLast i) (x0 x1 : Vec F S512x1024 .f32) (sA : Vec F S512x1024 .bf16) (sM : Vec F S512x1 .f32) :
    { LM : List (View.Piece (Elt F) S512x1 .f32) //
      ∀ (xi : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi
            ∗ owns (c : Thread nD τ) arg5 fullShare sA ∗ owns (c : Thread nD τ) arg6 fullShare sM
            ∗ (iprop(owns (c : Thread nD τ) arg2 fullShare x0 ∗ owns (c : Thread nD τ) arg3 fullShare x1 ∗ owns (c : Thread nD τ) arg4 fullShare xi
                ∗ owns (c : Thread nD τ) arg5 fullShare sA
                ∗ (∃ f, arg6.view.loc (c : Thread nD τ) ↦[arg6.view.set]{fullShare} arg6.view.writes (Elt F) f LM)) -∗ K ⟨⟩))
          ⊢ wp frame (wpE (defs₀ (F := F)) Variants.none c none) E (cc0__max_cosine_kernel i arg2 harg2 arg3 harg3 arg4 harg4 arg5 harg5 arg6 harg6) K } := by
  refine ⟨?_, fun xi E K => ?run⟩
  case run =>
    simp only [cc0__max_cosine_kernel_eq_skeleton]; unfold cc0__max_cosine_kernel_skel
    unfold owns
    iintro ⟨⟨%f0, %hf0, H0⟩, ⟨%f1, %hf1, H1⟩, ⟨%f2, %hf2, H2⟩, ⟨%fA, %hfA, HA⟩, ⟨%fM, %hfM, HM⟩, Hk⟩
    obtain rfl := harg2.eq_unread hf0; obtain rfl := harg3.eq_unread hf1; obtain rfl := harg4.eq_unread hf2
    obtain rfl := harg5.eq_unread hfA; obtain rfl := harg6.eq_unread hfM
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HA]
    · iexists _; isplitr; · ipureintro; exact harg5.read_unread _
      iexact HA
    iexists _; iexact HM

end Cert.KernelIdeal.Frm0

end
-- ==== Proof.FrameRunLastI0.lean ====
/-
  Region 0, a point whose second grid coordinate is 15: the kernel body run once on whole memrefs. As at a middle point, and then the
  running-maximum scratch is copied whole into the output block's buffer.
-/
import proofs.«132432_j45810121179238_2_alg».proof.Proof.FrameBaseI0

set_option maxRecDepth 16384

noncomputable section

namespace Cert.KernelIdeal.Frm0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
noncomputable def runLast (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S512x1024 .bf16) (harg5 : arg5.IsWhole) (arg6 : Memref sig .tc .vmem S512x1 .f32) (harg6 : arg6.IsWhole)
    (hc0 : ¬condFirst i) (hc1 : condLast i) (x0 x1 : Vec F S512x1024 .f32) (sA : Vec F S512x1024 .bf16) (sM : Vec F S512x1 .f32) :
    Σ' (LO : List (View.Piece (Elt F) S512x1 .f32)), { LM : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare sA ∗ owns (c : Thread nD τ) arg6 fullShare sM
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ owns (c : Thread nD τ) arg5 fullShare sA
                ∗ (∃ f, arg6.view.loc (c : Thread nD τ) ↦[arg6.view.set]{fullShare} arg6.view.writes (Elt F) f LM)) -∗ K ⟨⟩))
          ⊢ wp frame (wpE (defs₀ (F := F)) Variants.none c none) E (cc0__max_cosine_kernel i arg2 harg2 arg3 harg3 arg4 harg4 arg5 harg5 arg6 harg6) K } := by
  refine ⟨?_, ?_, fun E K => ?run⟩
  case run =>
    simp only [cc0__max_cosine_kernel_eq_skeleton]; unfold cc0__max_cosine_kernel_skel
    unfold owns
    iintro ⟨⟨%f0, %hf0, H0⟩, ⟨%f1, %hf1, H1⟩, ⟨%d2, %f2, -, H2⟩, ⟨%fA, %hfA, HA⟩, ⟨%fM, %hfM, HM⟩, Hk⟩
    obtain rfl := harg2.eq_unread hf0; obtain rfl := harg3.eq_unread hf1
    obtain rfl := harg5.eq_unread hfA; obtain rfl := harg6.eq_unread hfM
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HA]
    · iexists _; isplitr; · ipureintro; exact harg5.read_unread _
      iexact HA
    iexists _; iexact HM

end Cert.KernelIdeal.Frm0

end
-- ==== Proof.FrameDataI0.lean ====
/-
  Region 0: what the two scratch buffers and the output block's buffer hold after the body at each grid point, the
  invariant that carries the scratch contents from one point to the next, the proof data of the pipeline over any
  contents `V` the region is entered at, and the body obligation at every point.

  After the body at point t the scaled-rows scratch holds what the first point of t's row of the grid stored, the
  running-maximum scratch what the stores of t's own body leave (they depend on what the point before left), and the
  output block's buffer is written only at the last point of a row, where it receives the running maximum.
-/
import proofs.«132432_j45810121179238_2_alg».proof.Proof.FrameRunFirstI0
import proofs.«132432_j45810121179238_2_alg».proof.Proof.FrameRunMidI0
import proofs.«132432_j45810121179238_2_alg».proof.Proof.FrameRunLastI0

set_option maxRecDepth 16384

noncomputable section

namespace Cert.KernelIdeal.Frm0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The three kinds of points -/

theorem notLast_of_first (t : Fin cfg0.N) (h0 : t.val % 16 = 0) : ¬condLast (grid0.coords t) :=
  fun h => by have := (condLast_iff t).mp h; omega
theorem notFirst_of (t : Fin cfg0.N) (h0 : ¬t.val % 16 = 0) : ¬condFirst (grid0.coords t) :=
  fun h => h0 ((condFirst_iff t).mp h)
theorem notLast_of (t : Fin cfg0.N) (h1 : ¬t.val % 16 = 15) : ¬condLast (grid0.coords t) :=
  fun h => h1 ((condLast_iff t).mp h)

/-- The body's run at a first point of a row, on the point's memrefs and blocks. -/
def firstRun (c : Dev nD) (t : Fin cfg0.N) (h0 : t.val % 16 = 0) :=
  runFirst (F := F) c (grid0.coords t) (ms_0 t) (hs_0 t) (ms_1 t) (hs_1 t) (ms_2 t) (hs_2 t) scA (Memref.isWhole_whole _) scM (Memref.isWhole_whole _)
    ((condFirst_iff t).mpr h0) (notLast_of_first t h0) (iblk V c 0 t) (iblk V c 1 t)
/-- The body's run at a middle point, over what the point before left in the scratch buffers. -/
def midRun (c : Dev nD) (t : Fin cfg0.N) (h0 : ¬t.val % 16 = 0) (h1 : ¬t.val % 16 = 15) (sA : Vec F S512x1024 .bf16) (sM : Vec F S512x1 .f32) :=
  runMid (F := F) c (grid0.coords t) (ms_0 t) (hs_0 t) (ms_1 t) (hs_1 t) (ms_2 t) (hs_2 t) scA (Memref.isWhole_whole _) scM (Memref.isWhole_whole _)
    (notFirst_of t h0) (notLast_of t h1) (iblk V c 0 t) (iblk V c 1 t) sA sM
/-- The body's run at a last point of a row, over what the point before left in the scratch buffers. -/
def lastRun (c : Dev nD) (t : Fin cfg0.N) (h0 : ¬t.val % 16 = 0) (h1 : t.val % 16 = 15) (sA : Vec F S512x1024 .bf16) (sM : Vec F S512x1 .f32) :=
  runLast (F := F) c (grid0.coords t) (ms_0 t) (hs_0 t) (ms_1 t) (hs_1 t) (ms_2 t) (hs_2 t) scA (Memref.isWhole_whole _) scM (Memref.isWhole_whole _)
    (notFirst_of t h0) ((condLast_iff t).mpr h1) (iblk V c 0 t) (iblk V c 1 t) sA sM

/-! ## The stores cover the buffers -/

theorem coverA_first (c : Dev nD) (t : Fin cfg0.N) (h0 : t.val % 16 = 0) (y : S512x1024.Idx) :
    ∃ pc ∈ (firstRun V c t h0).1, y ∈ pc.1.set :=
  View.cover_of_wholeMem _ (by unfold firstRun; sl_whole_mem) y
theorem coverM_first (c : Dev nD) (t : Fin cfg0.N) (h0 : t.val % 16 = 0) (y : S512x1.Idx) :
    ∃ pc ∈ (firstRun V c t h0).2.1, y ∈ pc.1.set :=
  View.cover_of_wholeMem _ (by unfold firstRun; sl_whole_mem) y
theorem coverM_mid (c : Dev nD) (t : Fin cfg0.N) (h0 : ¬t.val % 16 = 0) (h1 : ¬t.val % 16 = 15) (sA : Vec F S512x1024 .bf16) (sM : Vec F S512x1 .f32) (y : S512x1.Idx) :
    ∃ pc ∈ (midRun V c t h0 h1 sA sM).1, y ∈ pc.1.set :=
  View.cover_of_wholeMem _ (by unfold midRun; sl_whole_mem) y
theorem coverO_last (c : Dev nD) (t : Fin cfg0.N) (h0 : ¬t.val % 16 = 0) (h1 : t.val % 16 = 15) (sA : Vec F S512x1024 .bf16) (sM : Vec F S512x1 .f32) (y : S512x1.Idx) :
    ∃ pc ∈ (lastRun V c t h0 h1 sA sM).1, y ∈ pc.1.set :=
  View.cover_of_wholeMem _ (by unfold lastRun; sl_whole_mem) y
theorem coverM_last (c : Dev nD) (t : Fin cfg0.N) (h0 : ¬t.val % 16 = 0) (h1 : t.val % 16 = 15) (sA : Vec F S512x1024 .bf16) (sM : Vec F S512x1 .f32) (y : S512x1.Idx) :
    ∃ pc ∈ (lastRun V c t h0 h1 sA sM).2.1, y ∈ pc.1.set :=
  View.cover_of_wholeMem _ (by unfold lastRun; sl_whole_mem) y

/-! ## What the buffers hold after each point -/

/-- The output block's buffer, the scaled-rows scratch and the running-maximum scratch. -/
abbrev St (F : FTy → Type) : Type := Vec F S512x1 .f32 × Vec F S512x1024 .bf16 × Vec F S512x1 .f32

/-- Contents nothing consults (the output buffer where the window is idle; the scratch before the first point). -/
def junkSt : St F := (vO.read (Elt F) vO.junk, vA.read (Elt F) vA.junk, vM.read (Elt F) vM.junk)

/-- One point: from what the point before left to what this point leaves. -/
def stepAt (c : Dev nD) (t : Fin cfg0.N) (prev : St F) : St F :=
  if h0 : t.val % 16 = 0 then
    (vO.read (Elt F) vO.junk, vA.read (Elt F) (vA.writes (Elt F) vA.junk (firstRun V c t h0).1),
      vM.read (Elt F) (vM.writes (Elt F) vM.junk (firstRun V c t h0).2.1))
  else if h1 : t.val % 16 = 15 then
    (vO.read (Elt F) (vO.writes (Elt F) vO.junk (lastRun V c t h0 h1 prev.2.1 prev.2.2).1), prev.2.1,
      vM.read (Elt F) (vM.writes (Elt F) vM.junk (lastRun V c t h0 h1 prev.2.1 prev.2.2).2.1))
  else
    (vO.read (Elt F) vO.junk, prev.2.1, vM.read (Elt F) (vM.writes (Elt F) vM.junk (midRun V c t h0 h1 prev.2.1 prev.2.2).1))

theorem stepAt_first (c : Dev nD) (t : Fin cfg0.N) (prev : St F) (h0 : t.val % 16 = 0) :
    stepAt V c t prev = (vO.read (Elt F) vO.junk, vA.read (Elt F) (vA.writes (Elt F) vA.junk (firstRun V c t h0).1),
      vM.read (Elt F) (vM.writes (Elt F) vM.junk (firstRun V c t h0).2.1)) := dif_pos h0
theorem stepAt_last (c : Dev nD) (t : Fin cfg0.N) (prev : St F) (h0 : ¬t.val % 16 = 0) (h1 : t.val % 16 = 15) :
    stepAt V c t prev = (vO.read (Elt F) (vO.writes (Elt F) vO.junk (lastRun V c t h0 h1 prev.2.1 prev.2.2).1), prev.2.1,
      vM.read (Elt F) (vM.writes (Elt F) vM.junk (lastRun V c t h0 h1 prev.2.1 prev.2.2).2.1)) := (dif_neg h0).trans (dif_pos h1)
theorem stepAt_mid (c : Dev nD) (t : Fin cfg0.N) (prev : St F) (h0 : ¬t.val % 16 = 0) (h1 : ¬t.val % 16 = 15) :
    stepAt V c t prev = (vO.read (Elt F) vO.junk, prev.2.1, vM.read (Elt F) (vM.writes (Elt F) vM.junk (midRun V c t h0 h1 prev.2.1 prev.2.2).1)) :=
  (dif_neg h0).trans (dif_neg h1)

/-- The contents after the body at position `n`. -/
def outsAt (c : Dev nD) : (n : ℕ) → n < cfg0.N → St F
  | 0, hn => stepAt V c ⟨0, hn⟩ junkSt
  | n + 1, hn => stepAt V c ⟨n + 1, hn⟩ (outsAt c n (Nat.lt_of_succ_lt hn))

/-- What the point before position `n` left. -/
def prevAt (c : Dev nD) : (n : ℕ) → n < cfg0.N → St F
  | 0, _ => junkSt
  | n + 1, hn => outsAt V c n (Nat.lt_of_succ_lt hn)

theorem outsAt_eq (c : Dev nD) (t : Fin cfg0.N) : outsAt V c t.val t.isLt = stepAt V c t (prevAt V c t.val t.isLt) := by
  obtain ⟨n, hn⟩ := t
  cases n with
  | zero => rfl
  | succ n => rfl

theorem prevAt_pos (c : Dev nD) (n : ℕ) (hn : n < cfg0.N) (hz : n ≠ 0) :
    prevAt V c n hn = outsAt V c (n - 1) (by omega) := by
  cases n with
  | zero => exact absurd rfl hz
  | succ n => rfl

/-! ## The invariant -/

/-- Before the first point the class invariant (every scratch at anything); before any other point the two scratch buffers at
    what the point before left, the other scoped buffers at anything, the generator register at some state. -/
def PhiS (c : Dev nD) : (n : ℕ) → n ≤ cfg0.N → sProp 𝕄
  | 0, _ => Pipeline.ΦA spec0 c
  | n + 1, hn => iprop(owns (c : Thread nD τ) scA fullShare (outsAt V c n hn).2.1 ∗ owns (c : Thread nD τ) scM fullShare (outsAt V c n hn).2.2
      ∗ others (F := F) c ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(owns (c : Thread nD τ) scA fullShare (outsAt V c n hn).2.1 ∗ owns (c : Thread nD τ) scM fullShare (outsAt V c n hn).2.2
      ∗ others (F := F) c ∗ (∃ r, prngReg c r)) := rfl

theorem PhiS_pos (c : Dev nD) (n : ℕ) (h : n ≤ cfg0.N) (hz : n ≠ 0) :
    PhiS V c n h = iprop(owns (c : Thread nD τ) scA fullShare (outsAt V c (n - 1) (by omega)).2.1 ∗ owns (c : Thread nD τ) scM fullShare (outsAt V c (n - 1) (by omega)).2.2
      ∗ others (F := F) c ∗ (∃ r, prngReg c r)) := by
  cases n with
  | zero => exact absurd rfl hz
  | succ n => rfl

/-! ## The pipeline's proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem Phi_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

end Cert.KernelIdeal.Frm0

end
-- ==== Proof.FrameBodyI0.lean ====
/-
  Region 0: the body obligation. At every grid point the body, called on the point's staging memrefs with the invariant's
  scratch buffers, runs to the end and hands back each input block as it found it, the output block's buffer either untouched
  (where the window is idle) or at the running maximum (at the last point of a row), and the scratch buffers at this point's
  contents — the three kinds of points one by one.
-/
import proofs.«132432_j45810121179238_2_alg».proof.Proof.FrameDataI0

set_option maxRecDepth 16384

noncomputable section

namespace Cert.KernelIdeal.Frm0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

theorem leaves_0 (c : Dev nD) (t : Fin cfg0.N) :
    (dat V c).leavesExact 0 t = owns (c : Thread nD τ) (ms_0 t) fullShare (iblk V c 0 t) := by
  rw [show (dat V c).leavesExact 0 t = owns (c : Thread nD τ) (ms_0 t) fullShare ((dat V c).after 0 t) from by
    unfold Dat.leavesExact; rw [live_0 t], after_0]
theorem leaves_1 (c : Dev nD) (t : Fin cfg0.N) :
    (dat V c).leavesExact 1 t = owns (c : Thread nD τ) (ms_1 t) fullShare (iblk V c 1 t) := by
  rw [show (dat V c).leavesExact 1 t = owns (c : Thread nD τ) (ms_1 t) fullShare ((dat V c).after 1 t) from by
    unfold Dat.leavesExact; rw [live_1 t], after_1]

set_option maxHeartbeats 4800000 in
/-- A first point of a row. -/
theorem sound_first (c : Dev nD) (t : Fin cfg0.N) (h0 : t.val % 16 = 0) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [leaves_0, leaves_1]
  rw [Dat.leavesExact_idle (dat V c) 2 t (idle_2 t (notLast_of_first t h0)) (noFlush_2 t (notLast_of_first t h0))]
  rw [outsAt_eq V c t, stepAt_first V c t _ h0]
  dsimp only
  by_cases hz : t.val = 0
  · rw [Phi_castSucc V c t, PhiS_zero V c _ _ hz]
    iintro ⟨HΦ, Ho, ⟨%d0, H0⟩, ⟨%d1, H1⟩, ⟨%d2, H2⟩⟩
    ihave HΦ' := (phiA_split (F := F) c) $$ HΦ
    icases HΦ' with ⟨HA, HM, Hoth, Hg⟩
    iapply ((firstRun V c t h0).2.2 _ Set.univ _)
    isplitl [H0]; · iexact H0
    isplitl [H1]; · iexact H1
    isplitl [H2]; · iexact H2
    isplitl [HA]; · iexact HA
    isplitl [HM]; · iexact HM
    iintro ⟨H0, H1, H2, ⟨%eA, HA⟩, ⟨%eM, HM⟩⟩
    isplitl [HA HM Hoth Hg]
    · isplitl [HA]
      · unfold owns; iexists _; isplitr
        swap; · iexact HA
        ipureintro; exact View.read_writes_of_cover _ _ _ _ _ (coverA_first V c t h0)
      isplitl [HM]
      · unfold owns; iexists _; isplitr
        swap; · iexact HM
        ipureintro; exact View.read_writes_of_cover _ _ _ _ _ (coverM_first V c t h0)
      isplitl [Hoth]; · iexact Hoth
      iexact Hg
    isplitl [Ho]; · iexact Ho
    isplitl [H0]; · iexact H0
    isplitl [H1]; · iexact H1
    iexists _; iexact H2
  · rw [Phi_castSucc V c t, PhiS_pos V c _ _ hz]
    iintro ⟨⟨HA, HM, Hoth, Hg⟩, Ho, ⟨%d0, H0⟩, ⟨%d1, H1⟩, ⟨%d2, H2⟩⟩
    iapply ((firstRun V c t h0).2.2 _ Set.univ _)
    isplitl [H0]; · iexact H0
    isplitl [H1]; · iexact H1
    isplitl [H2]; · iexact H2
    isplitl [HA]; · iexists _; iexact HA
    isplitl [HM]; · iexists _; iexact HM
    iintro ⟨H0, H1, H2, ⟨%eA, HA⟩, ⟨%eM, HM⟩⟩
    isplitl [HA HM Hoth Hg]
    · isplitl [HA]
      · unfold owns; iexists _; isplitr
        swap; · iexact HA
        ipureintro; exact View.read_writes_of_cover _ _ _ _ _ (coverA_first V c t h0)
      isplitl [HM]
      · unfold owns; iexists _; isplitr
        swap; · iexact HM
        ipureintro; exact View.read_writes_of_cover _ _ _ _ _ (coverM_first V c t h0)
      isplitl [Hoth]; · iexact Hoth
      iexact Hg
    isplitl [Ho]; · iexact Ho
    isplitl [H0]; · iexact H0
    isplitl [H1]; · iexact H1
    iexists _; iexact H2

set_option maxHeartbeats 4800000 in
/-- A middle point of a row. -/
theorem sound_mid (c : Dev nD) (t : Fin cfg0.N) (h0 : ¬t.val % 16 = 0) (h1 : ¬t.val % 16 = 15) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [leaves_0, leaves_1]
  rw [Dat.leavesExact_idle (dat V c) 2 t (idle_2 t (notLast_of t h1)) (noFlush_2 t (notLast_of t h1))]
  rw [outsAt_eq V c t, stepAt_mid V c t _ h0 h1]
  dsimp only
  have hz : t.val ≠ 0 := fun h => h0 (by rw [h])
  rw [Phi_castSucc V c t, PhiS_pos V c _ _ hz, prevAt_pos V c _ _ hz]
  iintro ⟨⟨HA, HM, Hoth, Hg⟩, Ho, ⟨%d0, H0⟩, ⟨%d1, H1⟩, ⟨%d2, H2⟩⟩
  iapply ((midRun V c t h0 h1 _ _).2 _ Set.univ _)
  isplitl [H0]; · iexact H0
  isplitl [H1]; · iexact H1
  isplitl [H2]; · iexact H2
  isplitl [HA]; · iexact HA
  isplitl [HM]; · iexact HM
  iintro ⟨H0, H1, H2, HA, ⟨%eM, HM⟩⟩
  isplitl [HA HM Hoth Hg]
  · isplitl [HA]; · iexact HA
    isplitl [HM]
    · unfold owns; iexists _; isplitr
      swap; · iexact HM
      ipureintro; exact View.read_writes_of_cover _ _ _ _ _ (coverM_mid V c t h0 h1 _ _)
    isplitl [Hoth]; · iexact Hoth
    iexact Hg
  isplitl [Ho]; · iexact Ho
  isplitl [H0]; · iexact H0
  isplitl [H1]; · iexact H1
  iexists _; iexact H2

set_option maxHeartbeats 4800000 in
/-- A last point of a row. -/
theorem sound_last (c : Dev nD) (t : Fin cfg0.N) (h0 : ¬t.val % 16 = 0) (h1 : t.val % 16 = 15) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [leaves_0, leaves_1]
  rw [show (dat V c).leavesExact 2 t = owns (c : Thread nD τ) (ms_2 t) fullShare ((dat V c).after 2 t) from by
    unfold Dat.leavesExact; rw [live_2 t ((condLast_iff t).mpr h1)], after_2]
  rw [outsAt_eq V c t, stepAt_last V c t _ h0 h1]
  dsimp only
  have hz : t.val ≠ 0 := fun h => h0 (by rw [h])
  rw [Phi_castSucc V c t, PhiS_pos V c _ _ hz, prevAt_pos V c _ _ hz]
  iintro ⟨⟨HA, HM, Hoth, Hg⟩, Ho, ⟨%d0, H0⟩, ⟨%d1, H1⟩, ⟨%d2, H2⟩⟩
  iapply ((lastRun V c t h0 h1 _ _).2.2 Set.univ _)
  isplitl [H0]; · iexact H0
  isplitl [H1]; · iexact H1
  isplitl [H2]; · iexists _; iexact H2
  isplitl [HA]; · iexact HA
  isplitl [HM]; · iexact HM
  iintro ⟨H0, H1, ⟨%e2, H2⟩, HA, ⟨%eM, HM⟩⟩
  isplitl [HA HM Hoth Hg]
  · isplitl [HA]; · iexact HA
    isplitl [HM]
    · unfold owns; iexists _; isplitr
      swap; · iexact HM
      ipureintro; exact View.read_writes_of_cover _ _ _ _ _ (coverM_last V c t h0 h1 _ _)
    isplitl [Hoth]; · iexact Hoth
    iexact Hg
  isplitl [Ho]; · iexact Ho
  isplitl [H0]; · iexact H0
  isplitl [H1]; · iexact H1
  unfold owns; iexists _; isplitr
  swap; · iexact H2
  ipureintro; exact View.read_writes_of_cover _ _ _ _ _ (coverO_last V c t h0 h1 _ _)

/-- The body at any point. -/
theorem sound_body (c : Dev nD) (t : Fin cfg0.N) :
    bodyPre V c t ⊢ wp frame (wpE (defs₀ (F := F)) Variants.none c none) Set.univ (bodyAt0 t) (fun _ => bodyPost V c t) := by
  by_cases h0 : t.val % 16 = 0
  · exact sound_first V c t h0
  · by_cases h1 : t.val % 16 = 15
    · exact sound_last V c t h0 h1
    · exact sound_mid V c t h0 h1

/-- The library's body obligation, at every point. -/
theorem body_obligation (c : Dev nD) : BodyObligation (dat (F := F) V c) (defs₀ (F := F)) Variants.none () Set.univ := fun t => by
  rw [bigSep_W0, bigSep_W0]
  exact sound_body V c t

/-- The scratch contents forgotten. -/
theorem forget_scratch (c : Dev nD) (a : Vec F S512x1024 .bf16) (b : Vec F S512x1 .f32) :
    (iprop(owns (c : Thread nD τ) scA fullShare a ∗ owns (c : Thread nD τ) scM fullShare b ∗ others (F := F) c ∗ (∃ r, prngReg c r)) : sProp 𝕄)
      ⊢ iprop((∃ d, owns (c : Thread nD τ) scA fullShare d) ∗ (∃ d, owns (c : Thread nD τ) scM fullShare d) ∗ others (F := F) c ∗ (∃ r, prngReg c r)) := by
  iintro ⟨HA, HM, Hoth, Hg⟩
  isplitl [HA]; · iexists _; iexact HA
  isplitl [HM]; · iexists _; iexact HM
  isplitl [Hoth]; · iexact Hoth
  iexact Hg

/-- What the launch hands the region is the invariant before the first point. -/
theorem phi_in (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the scratch contents are forgotten. -/
theorem phi_out (c : Dev nD) : (dat V c).Φ (Fin.last cfg0.N) ⊢ Pipeline.ΦA spec0 c := by
  have hne : (Fin.last cfg0.N).val ≠ 0 := by rw [Fin.val_last]; have : cfg0.N = 256 := N_0; omega
  rw [show (dat V c).Φ (Fin.last cfg0.N) = PhiS V c (Fin.last cfg0.N).val (Nat.le_of_lt_succ (Fin.last cfg0.N).isLt) from rfl,
    PhiS_pos V c _ _ hne]
  exact (forget_scratch c _ _).trans (phiA_join (F := F) c)

end Cert.KernelIdeal.Frm0

end
-- ==== Proof.FrameBaseI1.lean ====
/-
  Region 1 of the program: the two branch conditions of the kernel body in closed form over the grid
  (the first branch is taken exactly at the points whose second coordinate is 0, the last exactly where it
  is 15), where the output window is idle, the names of the staging and scratch memrefs, and the class
  invariant split into the kernel's two scratch buffers, the other scoped buffers and the generator register.
-/
import proofs.«132432_j45810121179238_2_alg».proof.Proof.Gen.KernelIdeal.Launch
import proofs.«132432_j45810121179238_2_alg».proof.Proof.Gen.KernelIdeal.Skeleton
import proofs.«132432_j45810121179238_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Frm1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The branch conditions -/

/-- The first branch (initialise the scratch buffers): the second grid coordinate is 0. -/
abbrev condFirst (i : grid1.Coords) : Prop := (Scalar.cmpi .ne (Scalar.extui (Scalar.cmpi .eq (BitVec.ofNat 32 (i 1).val) 0#32)) 0#32) = 1#1
theorem condFirst_iff : ∀ t : Fin cfg1.N, condFirst (grid1.coords t) ↔ t.val % 16 = 0 :=
  (by decide +kernel : ∀ t : Fin grid1.N, condFirst (grid1.coords t) ↔ t.val % 16 = 0)

/-- The last branch (copy the running maximum to the output block): the second grid coordinate is 15. -/
abbrev condLast (i : grid1.Coords) : Prop := k1_cond2 i = 1#1
theorem condLast_iff : ∀ t : Fin cfg1.N, condLast (grid1.coords t) ↔ t.val % 16 = 15 :=
  (by decide +kernel : ∀ t : Fin grid1.N, condLast (grid1.coords t) ↔ t.val % 16 = 15)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem idle_2 : ∀ t : Fin cfg1.N, ¬condLast (grid1.coords t) → cfg1.idle 2 (grid1.coords t) = true := by decide +kernel
theorem noFlush_2 : ∀ t : Fin cfg1.N, ¬condLast (grid1.coords t) → (cfg1.win 2).flush t = false := by decide +kernel
theorem live_2 : ∀ t : Fin cfg1.N, condLast (grid1.coords t) → cfg1.idle 2 (grid1.coords t) = false := by decide +kernel

/-! ## The memrefs the body is called with -/

abbrev ms_0 (t : Fin cfg1.N) : Memref sig .tc .vmem S512x1024 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S512x1024 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S512x1 .f32 := win1_2.stage (cfg1.slots t 2)
abbrev hs_2 (t : Fin cfg1.N) : (ms_2 t).IsWhole := hstage1_2 ((cfg1.slots t 2).cast nbuf1_2)
/-- The scratch holding the scaled rows of the first operand's block. -/
abbrev scA : Memref sig .tc .vmem S512x1024 .bf16 := Memref.whole cc1_scratch0
/-- The scratch holding the running maximum. -/
abbrev scM : Memref sig .tc .vmem S512x1 .f32 := Memref.whole cc1_scratch1
abbrev vA : View sig .tc .vmem S512x1024 .bf16 := (scA).view
abbrev vM : View sig .tc .vmem S512x1 .f32 := (scM).view
/-- One staging buffer of the output window, through which its contents are stated. -/
abbrev vO : View sig .tc .vmem S512x1 .f32 := (Memref.whole cc1_stg2_0 : Memref sig .tc .vmem S512x1 .f32).view

/-! ## The class invariant, split -/

/-- The scoped buffers that are neither this region's staging buffers nor its scratch, each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

theorem phiA_split (c : Dev nD) :
    (Pipeline.ΦA spec1 c : sProp 𝕄)
      ⊢ iprop((∃ d, owns (c : Thread nD τ) scA fullShare d) ∗ (∃ d, owns (c : Thread nD τ) scM fullShare d) ∗ others (F := F) c ∗ (∃ r, prngReg c r)) := by
  unfold Pipeline.ΦA; rw [scopedRest1_eq]; unfold others; simp only [scA, scM, owns_whole]
  iintro ⟨⟨H1, H2, H3, H4, H5, H6, H7, H8, Hs0, Hs1⟩, Hg⟩
  isplitl [Hs0]; · iexact Hs0
  isplitl [Hs1]; · iexact Hs1
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

theorem phiA_join (c : Dev nD) :
    iprop((∃ d, owns (c : Thread nD τ) scA fullShare d) ∗ (∃ d, owns (c : Thread nD τ) scM fullShare d) ∗ others (F := F) c ∗ (∃ r, prngReg c r))
      ⊢ (Pipeline.ΦA spec1 c : sProp 𝕄) := by
  unfold Pipeline.ΦA; rw [scopedRest1_eq]; unfold others; simp only [scA, scM, owns_whole]
  iintro ⟨Hs0, Hs1, ⟨H1, H2, H3, H4, H5, H6, H7, H8⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Hs0]; · iexact Hs0
    iexact Hs1
  iexact Hg

end Cert.KernelIdeal.Frm1

end
-- ==== Proof.FrameRunFirstI1.lean ====
/-
  Region 1, a point whose second grid coordinate is 0: the kernel body run once on whole memrefs. The first operand's
  block and the second operand's block are read and left as they were; the output block's buffer is not touched;
  the scaled-rows scratch is stored once (the first operand's rows over their clamped lengths) and the running-maximum
  scratch twice (minus infinity, then its maximum with this block's row maxima). The stores found by the run, last first,
  are the witness; the run itself is the proof that the body ends holding them.
-/
import proofs.«132432_j45810121179238_2_alg».proof.Proof.FrameBaseI1

set_option maxRecDepth 16384

noncomputable section

namespace Cert.KernelIdeal.Frm1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
noncomputable def runFirst (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S512x1024 .bf16) (harg5 : arg5.IsWhole) (arg6 : Memref sig .tc .vmem S512x1 .f32) (harg6 : arg6.IsWhole)
    (hc0 : condFirst i) (hc1 : ¬condLast i) (x0 x1 : Vec F S512x1024 .f32) :
    Σ' (LA : List (View.Piece (Elt F) S512x1024 .bf16)), { LM : List (View.Piece (Elt F) S512x1 .f32) //
      ∀ (xi : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi
                ∗ (∃ f, arg5.view.loc (c : Thread nD τ) ↦[arg5.view.set]{fullShare} arg5.view.writes (Elt F) f LA)
                ∗ (∃ f, arg6.view.loc (c : Thread nD τ) ↦[arg6.view.set]{fullShare} arg6.view.writes (Elt F) f LM)) -∗ K ⟨⟩))
          ⊢ wp frame (wpE (defs₀ (F := F)) Variants.none c none) E (cc1__max_cosine_kernel i arg2 harg2 arg3 harg3 arg4 harg4 arg5 harg5 arg6 harg6) K } := by
  refine ⟨?_, ?_, fun xi E K => ?run⟩
  case run =>
    simp only [cc1__max_cosine_kernel_eq_skeleton]; unfold cc1__max_cosine_kernel_skel
    unfold owns
    iintro ⟨⟨%f0, %hf0, H0⟩, ⟨%f1, %hf1, H1⟩, ⟨%f2, %hf2, H2⟩, ⟨%dA, %fA, -, HA⟩, ⟨%dM, %fM, -, HM⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HA]; · iexists _; iexact HA
    iexists _; iexact HM

end Cert.KernelIdeal.Frm1

end
-- ==== Proof.FrameRunMidI1.lean ====
/-
  Region 1, a point whose second grid coordinate is neither 0 nor 15: the kernel body run once on whole memrefs. Both operand
  blocks are read and left as they were; the output block's buffer is not touched; the scaled-rows scratch is read at what the
  point before left and left so; the running-maximum scratch is stored once, its maximum with this block's row maxima.
-/
import proofs.«132432_j45810121179238_2_alg».proof.Proof.FrameBaseI1

set_option maxRecDepth 16384

noncomputable section

namespace Cert.KernelIdeal.Frm1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
noncomputable def runMid (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S512x1024 .bf16) (harg5 : arg5.IsWhole) (arg6 : Memref sig .tc .vmem S512x1 .f32) (harg6 : arg6.IsWhole)
    (hc0 : ¬condFirst i) (hc1 : ¬condLast i) (x0 x1 : Vec F S512x1024 .f32) (sA : Vec F S512x1024 .bf16) (sM : Vec F S512x1 .f32) :
    { LM : List (View.Piece (Elt F) S512x1 .f32) //
      ∀ (xi : Vec F S512x1 .f32) (E : Set ℕ) (K : PUnit → sProp 𝕄),
        iprop(owns (c : Thread nD τ) arg2 fullShare x0 ∗ owns (c : Thread nD τ) arg3 fullShare x1 ∗ owns (c : Thread nD τ) arg4 fullShare xi
            ∗ owns (c : Thread nD τ) arg5 fullShare sA ∗ owns (c : Thread nD τ) arg6 fullShare sM
            ∗ (iprop(owns (c : Thread nD τ) arg2 fullShare x0 ∗ owns (c : Thread nD τ) arg3 fullShare x1 ∗ owns (c : Thread nD τ) arg4 fullShare xi
                ∗ owns (c : Thread nD τ) arg5 fullShare sA
                ∗ (∃ f, arg6.view.loc (c : Thread nD τ) ↦[arg6.view.set]{fullShare} arg6.view.writes (Elt F) f LM)) -∗ K ⟨⟩))
          ⊢ wp frame (wpE (defs₀ (F := F)) Variants.none c none) E (cc1__max_cosine_kernel i arg2 harg2 arg3 harg3 arg4 harg4 arg5 harg5 arg6 harg6) K } := by
  refine ⟨?_, fun xi E K => ?run⟩
  case run =>
    simp only [cc1__max_cosine_kernel_eq_skeleton]; unfold cc1__max_cosine_kernel_skel
    unfold owns
    iintro ⟨⟨%f0, %hf0, H0⟩, ⟨%f1, %hf1, H1⟩, ⟨%f2, %hf2, H2⟩, ⟨%fA, %hfA, HA⟩, ⟨%fM, %hfM, HM⟩, Hk⟩
    obtain rfl := harg2.eq_unread hf0; obtain rfl := harg3.eq_unread hf1; obtain rfl := harg4.eq_unread hf2
    obtain rfl := harg5.eq_unread hfA; obtain rfl := harg6.eq_unread hfM
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HA]
    · iexists _; isplitr; · ipureintro; exact harg5.read_unread _
      iexact HA
    iexists _; iexact HM

end Cert.KernelIdeal.Frm1

end
-- ==== Proof.FrameRunLastI1.lean ====
/-
  Region 1, a point whose second grid coordinate is 15: the kernel body run once on whole memrefs. As at a middle point, and then the
  running-maximum scratch is copied whole into the output block's buffer.
-/
import proofs.«132432_j45810121179238_2_alg».proof.Proof.FrameBaseI1

set_option maxRecDepth 16384

noncomputable section

namespace Cert.KernelIdeal.Frm1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
noncomputable def runLast (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S512x1024 .bf16) (harg5 : arg5.IsWhole) (arg6 : Memref sig .tc .vmem S512x1 .f32) (harg6 : arg6.IsWhole)
    (hc0 : ¬condFirst i) (hc1 : condLast i) (x0 x1 : Vec F S512x1024 .f32) (sA : Vec F S512x1024 .bf16) (sM : Vec F S512x1 .f32) :
    Σ' (LO : List (View.Piece (Elt F) S512x1 .f32)), { LM : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare sA ∗ owns (c : Thread nD τ) arg6 fullShare sM
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ owns (c : Thread nD τ) arg5 fullShare sA
                ∗ (∃ f, arg6.view.loc (c : Thread nD τ) ↦[arg6.view.set]{fullShare} arg6.view.writes (Elt F) f LM)) -∗ K ⟨⟩))
          ⊢ wp frame (wpE (defs₀ (F := F)) Variants.none c none) E (cc1__max_cosine_kernel i arg2 harg2 arg3 harg3 arg4 harg4 arg5 harg5 arg6 harg6) K } := by
  refine ⟨?_, ?_, fun E K => ?run⟩
  case run =>
    simp only [cc1__max_cosine_kernel_eq_skeleton]; unfold cc1__max_cosine_kernel_skel
    unfold owns
    iintro ⟨⟨%f0, %hf0, H0⟩, ⟨%f1, %hf1, H1⟩, ⟨%d2, %f2, -, H2⟩, ⟨%fA, %hfA, HA⟩, ⟨%fM, %hfM, HM⟩, Hk⟩
    obtain rfl := harg2.eq_unread hf0; obtain rfl := harg3.eq_unread hf1
    obtain rfl := harg5.eq_unread hfA; obtain rfl := harg6.eq_unread hfM
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HA]
    · iexists _; isplitr; · ipureintro; exact harg5.read_unread _
      iexact HA
    iexists _; iexact HM

end Cert.KernelIdeal.Frm1

end
-- ==== Proof.FrameDataI1.lean ====
/-
  Region 1: what the two scratch buffers and the output block's buffer hold after the body at each grid point, the
  invariant that carries the scratch contents from one point to the next, the proof data of the pipeline over any
  contents `V` the region is entered at, and the body obligation at every point.

  After the body at point t the scaled-rows scratch holds what the first point of t's row of the grid stored, the
  running-maximum scratch what the stores of t's own body leave (they depend on what the point before left), and the
  output block's buffer is written only at the last point of a row, where it receives the running maximum.
-/
import proofs.«132432_j45810121179238_2_alg».proof.Proof.FrameRunFirstI1
import proofs.«132432_j45810121179238_2_alg».proof.Proof.FrameRunMidI1
import proofs.«132432_j45810121179238_2_alg».proof.Proof.FrameRunLastI1

set_option maxRecDepth 16384

noncomputable section

namespace Cert.KernelIdeal.Frm1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The three kinds of points -/

theorem notLast_of_first (t : Fin cfg1.N) (h0 : t.val % 16 = 0) : ¬condLast (grid1.coords t) :=
  fun h => by have := (condLast_iff t).mp h; omega
theorem notFirst_of (t : Fin cfg1.N) (h0 : ¬t.val % 16 = 0) : ¬condFirst (grid1.coords t) :=
  fun h => h0 ((condFirst_iff t).mp h)
theorem notLast_of (t : Fin cfg1.N) (h1 : ¬t.val % 16 = 15) : ¬condLast (grid1.coords t) :=
  fun h => h1 ((condLast_iff t).mp h)

/-- The body's run at a first point of a row, on the point's memrefs and blocks. -/
def firstRun (c : Dev nD) (t : Fin cfg1.N) (h0 : t.val % 16 = 0) :=
  runFirst (F := F) c (grid1.coords t) (ms_0 t) (hs_0 t) (ms_1 t) (hs_1 t) (ms_2 t) (hs_2 t) scA (Memref.isWhole_whole _) scM (Memref.isWhole_whole _)
    ((condFirst_iff t).mpr h0) (notLast_of_first t h0) (iblk V c 0 t) (iblk V c 1 t)
/-- The body's run at a middle point, over what the point before left in the scratch buffers. -/
def midRun (c : Dev nD) (t : Fin cfg1.N) (h0 : ¬t.val % 16 = 0) (h1 : ¬t.val % 16 = 15) (sA : Vec F S512x1024 .bf16) (sM : Vec F S512x1 .f32) :=
  runMid (F := F) c (grid1.coords t) (ms_0 t) (hs_0 t) (ms_1 t) (hs_1 t) (ms_2 t) (hs_2 t) scA (Memref.isWhole_whole _) scM (Memref.isWhole_whole _)
    (notFirst_of t h0) (notLast_of t h1) (iblk V c 0 t) (iblk V c 1 t) sA sM
/-- The body's run at a last point of a row, over what the point before left in the scratch buffers. -/
def lastRun (c : Dev nD) (t : Fin cfg1.N) (h0 : ¬t.val % 16 = 0) (h1 : t.val % 16 = 15) (sA : Vec F S512x1024 .bf16) (sM : Vec F S512x1 .f32) :=
  runLast (F := F) c (grid1.coords t) (ms_0 t) (hs_0 t) (ms_1 t) (hs_1 t) (ms_2 t) (hs_2 t) scA (Memref.isWhole_whole _) scM (Memref.isWhole_whole _)
    (notFirst_of t h0) ((condLast_iff t).mpr h1) (iblk V c 0 t) (iblk V c 1 t) sA sM

/-! ## The stores cover the buffers -/

theorem coverA_first (c : Dev nD) (t : Fin cfg1.N) (h0 : t.val % 16 = 0) (y : S512x1024.Idx) :
    ∃ pc ∈ (firstRun V c t h0).1, y ∈ pc.1.set :=
  View.cover_of_wholeMem _ (by unfold firstRun; sl_whole_mem) y
theorem coverM_first (c : Dev nD) (t : Fin cfg1.N) (h0 : t.val % 16 = 0) (y : S512x1.Idx) :
    ∃ pc ∈ (firstRun V c t h0).2.1, y ∈ pc.1.set :=
  View.cover_of_wholeMem _ (by unfold firstRun; sl_whole_mem) y
theorem coverM_mid (c : Dev nD) (t : Fin cfg1.N) (h0 : ¬t.val % 16 = 0) (h1 : ¬t.val % 16 = 15) (sA : Vec F S512x1024 .bf16) (sM : Vec F S512x1 .f32) (y : S512x1.Idx) :
    ∃ pc ∈ (midRun V c t h0 h1 sA sM).1, y ∈ pc.1.set :=
  View.cover_of_wholeMem _ (by unfold midRun; sl_whole_mem) y
theorem coverO_last (c : Dev nD) (t : Fin cfg1.N) (h0 : ¬t.val % 16 = 0) (h1 : t.val % 16 = 15) (sA : Vec F S512x1024 .bf16) (sM : Vec F S512x1 .f32) (y : S512x1.Idx) :
    ∃ pc ∈ (lastRun V c t h0 h1 sA sM).1, y ∈ pc.1.set :=
  View.cover_of_wholeMem _ (by unfold lastRun; sl_whole_mem) y
theorem coverM_last (c : Dev nD) (t : Fin cfg1.N) (h0 : ¬t.val % 16 = 0) (h1 : t.val % 16 = 15) (sA : Vec F S512x1024 .bf16) (sM : Vec F S512x1 .f32) (y : S512x1.Idx) :
    ∃ pc ∈ (lastRun V c t h0 h1 sA sM).2.1, y ∈ pc.1.set :=
  View.cover_of_wholeMem _ (by unfold lastRun; sl_whole_mem) y

/-! ## What the buffers hold after each point -/

/-- The output block's buffer, the scaled-rows scratch and the running-maximum scratch. -/
abbrev St (F : FTy → Type) : Type := Vec F S512x1 .f32 × Vec F S512x1024 .bf16 × Vec F S512x1 .f32

/-- Contents nothing consults (the output buffer where the window is idle; the scratch before the first point). -/
def junkSt : St F := (vO.read (Elt F) vO.junk, vA.read (Elt F) vA.junk, vM.read (Elt F) vM.junk)

/-- One point: from what the point before left to what this point leaves. -/
def stepAt (c : Dev nD) (t : Fin cfg1.N) (prev : St F) : St F :=
  if h0 : t.val % 16 = 0 then
    (vO.read (Elt F) vO.junk, vA.read (Elt F) (vA.writes (Elt F) vA.junk (firstRun V c t h0).1),
      vM.read (Elt F) (vM.writes (Elt F) vM.junk (firstRun V c t h0).2.1))
  else if h1 : t.val % 16 = 15 then
    (vO.read (Elt F) (vO.writes (Elt F) vO.junk (lastRun V c t h0 h1 prev.2.1 prev.2.2).1), prev.2.1,
      vM.read (Elt F) (vM.writes (Elt F) vM.junk (lastRun V c t h0 h1 prev.2.1 prev.2.2).2.1))
  else
    (vO.read (Elt F) vO.junk, prev.2.1, vM.read (Elt F) (vM.writes (Elt F) vM.junk (midRun V c t h0 h1 prev.2.1 prev.2.2).1))

theorem stepAt_first (c : Dev nD) (t : Fin cfg1.N) (prev : St F) (h0 : t.val % 16 = 0) :
    stepAt V c t prev = (vO.read (Elt F) vO.junk, vA.read (Elt F) (vA.writes (Elt F) vA.junk (firstRun V c t h0).1),
      vM.read (Elt F) (vM.writes (Elt F) vM.junk (firstRun V c t h0).2.1)) := dif_pos h0
theorem stepAt_last (c : Dev nD) (t : Fin cfg1.N) (prev : St F) (h0 : ¬t.val % 16 = 0) (h1 : t.val % 16 = 15) :
    stepAt V c t prev = (vO.read (Elt F) (vO.writes (Elt F) vO.junk (lastRun V c t h0 h1 prev.2.1 prev.2.2).1), prev.2.1,
      vM.read (Elt F) (vM.writes (Elt F) vM.junk (lastRun V c t h0 h1 prev.2.1 prev.2.2).2.1)) := (dif_neg h0).trans (dif_pos h1)
theorem stepAt_mid (c : Dev nD) (t : Fin cfg1.N) (prev : St F) (h0 : ¬t.val % 16 = 0) (h1 : ¬t.val % 16 = 15) :
    stepAt V c t prev = (vO.read (Elt F) vO.junk, prev.2.1, vM.read (Elt F) (vM.writes (Elt F) vM.junk (midRun V c t h0 h1 prev.2.1 prev.2.2).1)) :=
  (dif_neg h0).trans (dif_neg h1)

/-- The contents after the body at position `n`. -/
def outsAt (c : Dev nD) : (n : ℕ) → n < cfg1.N → St F
  | 0, hn => stepAt V c ⟨0, hn⟩ junkSt
  | n + 1, hn => stepAt V c ⟨n + 1, hn⟩ (outsAt c n (Nat.lt_of_succ_lt hn))

/-- What the point before position `n` left. -/
def prevAt (c : Dev nD) : (n : ℕ) → n < cfg1.N → St F
  | 0, _ => junkSt
  | n + 1, hn => outsAt V c n (Nat.lt_of_succ_lt hn)

theorem outsAt_eq (c : Dev nD) (t : Fin cfg1.N) : outsAt V c t.val t.isLt = stepAt V c t (prevAt V c t.val t.isLt) := by
  obtain ⟨n, hn⟩ := t
  cases n with
  | zero => rfl
  | succ n => rfl

theorem prevAt_pos (c : Dev nD) (n : ℕ) (hn : n < cfg1.N) (hz : n ≠ 0) :
    prevAt V c n hn = outsAt V c (n - 1) (by omega) := by
  cases n with
  | zero => exact absurd rfl hz
  | succ n => rfl

/-! ## The invariant -/

/-- Before the first point the class invariant (every scratch at anything); before any other point the two scratch buffers at
    what the point before left, the other scoped buffers at anything, the generator register at some state. -/
def PhiS (c : Dev nD) : (n : ℕ) → n ≤ cfg1.N → sProp 𝕄
  | 0, _ => Pipeline.ΦA spec1 c
  | n + 1, hn => iprop(owns (c : Thread nD τ) scA fullShare (outsAt V c n hn).2.1 ∗ owns (c : Thread nD τ) scM fullShare (outsAt V c n hn).2.2
      ∗ others (F := F) c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scA fullShare (outsAt V c n hn).2.1 ∗ owns (c : Thread nD τ) scM fullShare (outsAt V c n hn).2.2
      ∗ others (F := F) c ∗ (∃ r, prngReg c r)) := rfl

theorem PhiS_pos (c : Dev nD) (n : ℕ) (h : n ≤ cfg1.N) (hz : n ≠ 0) :
    PhiS V c n h = iprop(owns (c : Thread nD τ) scA fullShare (outsAt V c (n - 1) (by omega)).2.1 ∗ owns (c : Thread nD τ) scM fullShare (outsAt V c (n - 1) (by omega)).2.2
      ∗ others (F := F) c ∗ (∃ r, prngReg c r)) := by
  cases n with
  | zero => exact absurd rfl hz
  | succ n => rfl

/-! ## The pipeline's proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

end Cert.KernelIdeal.Frm1

end
-- ==== Proof.FrameBodyI1.lean ====
/-
  Region 1: the body obligation. At every grid point the body, called on the point's staging memrefs with the invariant's
  scratch buffers, runs to the end and hands back each input block as it found it, the output block's buffer either untouched
  (where the window is idle) or at the running maximum (at the last point of a row), and the scratch buffers at this point's
  contents — the three kinds of points one by one.
-/
import proofs.«132432_j45810121179238_2_alg».proof.Proof.FrameDataI1

set_option maxRecDepth 16384

noncomputable section

namespace Cert.KernelIdeal.Frm1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

theorem leaves_0 (c : Dev nD) (t : Fin cfg1.N) :
    (dat V c).leavesExact 0 t = owns (c : Thread nD τ) (ms_0 t) fullShare (iblk V c 0 t) := by
  rw [show (dat V c).leavesExact 0 t = owns (c : Thread nD τ) (ms_0 t) fullShare ((dat V c).after 0 t) from by
    unfold Dat.leavesExact; rw [live_0 t], after_0]
theorem leaves_1 (c : Dev nD) (t : Fin cfg1.N) :
    (dat V c).leavesExact 1 t = owns (c : Thread nD τ) (ms_1 t) fullShare (iblk V c 1 t) := by
  rw [show (dat V c).leavesExact 1 t = owns (c : Thread nD τ) (ms_1 t) fullShare ((dat V c).after 1 t) from by
    unfold Dat.leavesExact; rw [live_1 t], after_1]

set_option maxHeartbeats 4800000 in
/-- A first point of a row. -/
theorem sound_first (c : Dev nD) (t : Fin cfg1.N) (h0 : t.val % 16 = 0) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [leaves_0, leaves_1]
  rw [Dat.leavesExact_idle (dat V c) 2 t (idle_2 t (notLast_of_first t h0)) (noFlush_2 t (notLast_of_first t h0))]
  rw [outsAt_eq V c t, stepAt_first V c t _ h0]
  dsimp only
  by_cases hz : t.val = 0
  · rw [Phi_castSucc V c t, PhiS_zero V c _ _ hz]
    iintro ⟨HΦ, Ho, ⟨%d0, H0⟩, ⟨%d1, H1⟩, ⟨%d2, H2⟩⟩
    ihave HΦ' := (phiA_split (F := F) c) $$ HΦ
    icases HΦ' with ⟨HA, HM, Hoth, Hg⟩
    iapply ((firstRun V c t h0).2.2 _ Set.univ _)
    isplitl [H0]; · iexact H0
    isplitl [H1]; · iexact H1
    isplitl [H2]; · iexact H2
    isplitl [HA]; · iexact HA
    isplitl [HM]; · iexact HM
    iintro ⟨H0, H1, H2, ⟨%eA, HA⟩, ⟨%eM, HM⟩⟩
    isplitl [HA HM Hoth Hg]
    · isplitl [HA]
      · unfold owns; iexists _; isplitr
        swap; · iexact HA
        ipureintro; exact View.read_writes_of_cover _ _ _ _ _ (coverA_first V c t h0)
      isplitl [HM]
      · unfold owns; iexists _; isplitr
        swap; · iexact HM
        ipureintro; exact View.read_writes_of_cover _ _ _ _ _ (coverM_first V c t h0)
      isplitl [Hoth]; · iexact Hoth
      iexact Hg
    isplitl [Ho]; · iexact Ho
    isplitl [H0]; · iexact H0
    isplitl [H1]; · iexact H1
    iexists _; iexact H2
  · rw [Phi_castSucc V c t, PhiS_pos V c _ _ hz]
    iintro ⟨⟨HA, HM, Hoth, Hg⟩, Ho, ⟨%d0, H0⟩, ⟨%d1, H1⟩, ⟨%d2, H2⟩⟩
    iapply ((firstRun V c t h0).2.2 _ Set.univ _)
    isplitl [H0]; · iexact H0
    isplitl [H1]; · iexact H1
    isplitl [H2]; · iexact H2
    isplitl [HA]; · iexists _; iexact HA
    isplitl [HM]; · iexists _; iexact HM
    iintro ⟨H0, H1, H2, ⟨%eA, HA⟩, ⟨%eM, HM⟩⟩
    isplitl [HA HM Hoth Hg]
    · isplitl [HA]
      · unfold owns; iexists _; isplitr
        swap; · iexact HA
        ipureintro; exact View.read_writes_of_cover _ _ _ _ _ (coverA_first V c t h0)
      isplitl [HM]
      · unfold owns; iexists _; isplitr
        swap; · iexact HM
        ipureintro; exact View.read_writes_of_cover _ _ _ _ _ (coverM_first V c t h0)
      isplitl [Hoth]; · iexact Hoth
      iexact Hg
    isplitl [Ho]; · iexact Ho
    isplitl [H0]; · iexact H0
    isplitl [H1]; · iexact H1
    iexists _; iexact H2

set_option maxHeartbeats 4800000 in
/-- A middle point of a row. -/
theorem sound_mid (c : Dev nD) (t : Fin cfg1.N) (h0 : ¬t.val % 16 = 0) (h1 : ¬t.val % 16 = 15) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [leaves_0, leaves_1]
  rw [Dat.leavesExact_idle (dat V c) 2 t (idle_2 t (notLast_of t h1)) (noFlush_2 t (notLast_of t h1))]
  rw [outsAt_eq V c t, stepAt_mid V c t _ h0 h1]
  dsimp only
  have hz : t.val ≠ 0 := fun h => h0 (by rw [h])
  rw [Phi_castSucc V c t, PhiS_pos V c _ _ hz, prevAt_pos V c _ _ hz]
  iintro ⟨⟨HA, HM, Hoth, Hg⟩, Ho, ⟨%d0, H0⟩, ⟨%d1, H1⟩, ⟨%d2, H2⟩⟩
  iapply ((midRun V c t h0 h1 _ _).2 _ Set.univ _)
  isplitl [H0]; · iexact H0
  isplitl [H1]; · iexact H1
  isplitl [H2]; · iexact H2
  isplitl [HA]; · iexact HA
  isplitl [HM]; · iexact HM
  iintro ⟨H0, H1, H2, HA, ⟨%eM, HM⟩⟩
  isplitl [HA HM Hoth Hg]
  · isplitl [HA]; · iexact HA
    isplitl [HM]
    · unfold owns; iexists _; isplitr
      swap; · iexact HM
      ipureintro; exact View.read_writes_of_cover _ _ _ _ _ (coverM_mid V c t h0 h1 _ _)
    isplitl [Hoth]; · iexact Hoth
    iexact Hg
  isplitl [Ho]; · iexact Ho
  isplitl [H0]; · iexact H0
  isplitl [H1]; · iexact H1
  iexists _; iexact H2

set_option maxHeartbeats 4800000 in
/-- A last point of a row. -/
theorem sound_last (c : Dev nD) (t : Fin cfg1.N) (h0 : ¬t.val % 16 = 0) (h1 : t.val % 16 = 15) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  rw [leaves_0, leaves_1]
  rw [show (dat V c).leavesExact 2 t = owns (c : Thread nD τ) (ms_2 t) fullShare ((dat V c).after 2 t) from by
    unfold Dat.leavesExact; rw [live_2 t ((condLast_iff t).mpr h1)], after_2]
  rw [outsAt_eq V c t, stepAt_last V c t _ h0 h1]
  dsimp only
  have hz : t.val ≠ 0 := fun h => h0 (by rw [h])
  rw [Phi_castSucc V c t, PhiS_pos V c _ _ hz, prevAt_pos V c _ _ hz]
  iintro ⟨⟨HA, HM, Hoth, Hg⟩, Ho, ⟨%d0, H0⟩, ⟨%d1, H1⟩, ⟨%d2, H2⟩⟩
  iapply ((lastRun V c t h0 h1 _ _).2.2 Set.univ _)
  isplitl [H0]; · iexact H0
  isplitl [H1]; · iexact H1
  isplitl [H2]; · iexists _; iexact H2
  isplitl [HA]; · iexact HA
  isplitl [HM]; · iexact HM
  iintro ⟨H0, H1, ⟨%e2, H2⟩, HA, ⟨%eM, HM⟩⟩
  isplitl [HA HM Hoth Hg]
  · isplitl [HA]; · iexact HA
    isplitl [HM]
    · unfold owns; iexists _; isplitr
      swap; · iexact HM
      ipureintro; exact View.read_writes_of_cover _ _ _ _ _ (coverM_last V c t h0 h1 _ _)
    isplitl [Hoth]; · iexact Hoth
    iexact Hg
  isplitl [Ho]; · iexact Ho
  isplitl [H0]; · iexact H0
  isplitl [H1]; · iexact H1
  unfold owns; iexists _; isplitr
  swap; · iexact H2
  ipureintro; exact View.read_writes_of_cover _ _ _ _ _ (coverO_last V c t h0 h1 _ _)

/-- The body at any point. -/
theorem sound_body (c : Dev nD) (t : Fin cfg1.N) :
    bodyPre V c t ⊢ wp frame (wpE (defs₀ (F := F)) Variants.none c none) Set.univ (bodyAt1 t) (fun _ => bodyPost V c t) := by
  by_cases h0 : t.val % 16 = 0
  · exact sound_first V c t h0
  · by_cases h1 : t.val % 16 = 15
    · exact sound_last V c t h0 h1
    · exact sound_mid V c t h0 h1

/-- The library's body obligation, at every point. -/
theorem body_obligation (c : Dev nD) : BodyObligation (dat (F := F) V c) (defs₀ (F := F)) Variants.none () Set.univ := fun t => by
  rw [bigSep_W1, bigSep_W1]
  exact sound_body V c t

/-- The scratch contents forgotten. -/
theorem forget_scratch (c : Dev nD) (a : Vec F S512x1024 .bf16) (b : Vec F S512x1 .f32) :
    (iprop(owns (c : Thread nD τ) scA fullShare a ∗ owns (c : Thread nD τ) scM fullShare b ∗ others (F := F) c ∗ (∃ r, prngReg c r)) : sProp 𝕄)
      ⊢ iprop((∃ d, owns (c : Thread nD τ) scA fullShare d) ∗ (∃ d, owns (c : Thread nD τ) scM fullShare d) ∗ others (F := F) c ∗ (∃ r, prngReg c r)) := by
  iintro ⟨HA, HM, Hoth, Hg⟩
  isplitl [HA]; · iexists _; iexact HA
  isplitl [HM]; · iexists _; iexact HM
  isplitl [Hoth]; · iexact Hoth
  iexact Hg

/-- What the launch hands the region is the invariant before the first point. -/
theorem phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the class invariant back: the scratch contents are forgotten. -/
theorem phi_out (c : Dev nD) : (dat V c).Φ (Fin.last cfg1.N) ⊢ Pipeline.ΦA spec1 c := by
  have hne : (Fin.last cfg1.N).val ≠ 0 := by rw [Fin.val_last]; have : cfg1.N = 256 := N_1; omega
  rw [show (dat V c).Φ (Fin.last cfg1.N) = PhiS V c (Fin.last cfg1.N).val (Nat.le_of_lt_succ (Fin.last cfg1.N).isLt) from rfl,
    PhiS_pos V c _ _ hne]
  exact (forget_scratch c _ _).trans (phiA_join (F := F) c)

end Cert.KernelIdeal.Frm1

end
-- ==== Proof.FrameMainI.lean ====
/-
  The whole program as a run of three segments — the first kernel region, the second kernel region, the closing stretch of
  host operations — from the launch to the return: every weakly fair execution terminates without a fault, and at the end
  every unscoped buffer holds the contents obtained by folding the three segments over the launch memory: the first region
  replaces its output array by what its pipeline leaves, the second region likewise, the host stretch applies its operations.
-/
import proofs.«132432_j45810121179238_2_alg».proof.Proof.FrameBodyI0
import proofs.«132432_j45810121179238_2_alg».proof.Proof.FrameBodyI1
import proofs.«132432_j45810121179238_2_alg».proof.Proof.Gen.KernelIdeal.Regions
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.KernelIdeal.FrmMain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m ((c : Dev nD), b)
abbrev V0 : (c : Dev nD) → (b : Ref sig .tc) → Buf (Elt F) ((c : Thread nD τ).loc b) := fun c b => W0 m c b
/-- After the first region: its arrays at what its pipeline leaves. -/
def W1 (c : Dev nD) : Valuation τ sig (Elt F) :=
  Pipeline.withArrays spec0 c (W0 m c) fun w => (Frm0.dat (V0 m) c).arrAt w cfg0.N
theorem W1_arr (c : Dev nD) (w : Fin cfg0.W) :
    W1 m c (Proc.devRef .tc (Pipeline.arrRef spec0 w)) = (Frm0.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (Frm0.dat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second region: its arrays at what its pipeline leaves. -/
def W2 (c : Dev nD) : Valuation τ sig (Elt F) :=
  Pipeline.withArrays spec1 c (W1 m c) fun w => (Frm1.dat (V1 m) c).arrAt w cfg1.N
theorem W2_arr (c : Dev nD) (w : Fin cfg1.W) :
    W2 m c (Proc.devRef .tc (Pipeline.arrRef spec1 w)) = (Frm1.dat (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (Frm1.dat (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the closing host stretch. -/
abbrev W3 : Dev nD → Valuation τ sig (Elt F) := fun c => StableHlo.after hostOps2 (W2 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Frm0.dat (V0 m) c
  | ⟨1, _⟩ => fun c => Frm1.dat (V1 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at the contents before it, left with the region's arrays at
    what the pipeline leaves and every other buffer as entered. Its arrays are split out of the unscoped buffers and put back at
    the exit contents; the generator register goes into the class invariant and comes back; nothing is owed; the kernel has no
    semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Frm0.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have hΦ : (pdats m 0 c).Φ (Fin.last _) ⊢ (Pipeline.ΦA spec0 c : sProp 𝕄) := Frm0.phi_out (V0 m) c
    have hsplit : (Pipeline.ΦA spec0 c : sProp 𝕄) ⊢ iprop((∃ r, prngReg c r) ∗ emp ∗ Pipeline.scopedRest spec0 c) := by
      unfold Pipeline.ΦA
      iintro ⟨Hr, Hp⟩
      isplitl [Hp]; · iexact Hp
      isplitr; · iempintro
      iexact Hr
    exact hΦ.trans hsplit
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left with the region's arrays at
    what the pipeline leaves and every other buffer as entered. Its arrays are split out of the unscoped buffers and put back at
    the exit contents; the generator register goes into the class invariant and comes back; nothing is owed; the kernel has no
    semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Frm1.body_obligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have hΦ : (pdats m 1 c).Φ (Fin.last _) ⊢ (Pipeline.ΦA spec1 c : sProp 𝕄) := Frm1.phi_out (V1 m) c
    have hsplit : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact hΦ.trans hsplit
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .region (reg0 m),
    .region (reg1 m),
    .host (hseg hostOps2 hostOps2_sub hostOps2_fresh (W2 m)) ]
theorem main_run (c : Dev nD) : main (F := F) c = Pipeline.Seg.run (segs m) := (main_chain c).trans (by chain_rfl)

set_option backward.isDefEq.respectTransparency.types false in
/-- From any memory with zero counters every weakly fair execution of the program terminates, nothing faulting, and every final
    state has every unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show (iprop(StableHlo.held (c : Thread nD τ) (Pipeline.ucRefs τ sig) (W3 m c) ∗ R c) : sProp 𝕄)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The arguments end as launched -/

theorem W3_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_writes_sub hostOps2 _ hostOps2_writes (by decide)
    _ = W1 m c (Proc.devRef .tc main_arg0) := (W2_arr m c 1).trans (((Frm1.dat (V1 m) c).arrAt_in 1 rfl _).trans (Frm1.A_eq (V1 m) c 1))
    _ = W0 m c (Proc.devRef .tc main_arg0) := (W1_arr m c 0).trans (((Frm0.dat (V0 m) c).arrAt_in 0 rfl _).trans (Frm0.A_eq (V0 m) c 0))
    _ = m ((c : Thread nD τ).loc main_arg0) := rfl

theorem W3_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_writes_sub hostOps2 _ hostOps2_writes (by decide)
    _ = W1 m c (Proc.devRef .tc main_arg1) := (W2_arr m c 0).trans (((Frm1.dat (V1 m) c).arrAt_in 0 rfl _).trans (Frm1.A_eq (V1 m) c 0))
    _ = W0 m c (Proc.devRef .tc main_arg1) := (W1_arr m c 1).trans (((Frm0.dat (V0 m) c).arrAt_in 1 rfl _).trans (Frm0.A_eq (V0 m) c 1))
    _ = m ((c : Thread nD τ).loc main_arg1) := rfl

/-- The frame: the program runs to the end and its argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_arg0 m c), (h c _ (mem_uc main_arg1 (by decide))).trans (W3_arg1 m c)⟩) (run_all m ρ)

end Cert.KernelIdeal.FrmMain

end
-- ==== Proof.KerPieces0.lean ====
/-
  Region 0: what the stores found by the body's runs leave, read back as the body's stored values — the scaled-rows scratch after a
  first point, the running-maximum scratch after each kind of point, and the output block's buffer after a last point.
-/
import proofs.«132432_j45810121179238_2_alg».proof.Proof.FrameDataI0
import Idealize.ShloMosaic.Lib.Pipeline.Value

set_option maxRecDepth 16384

noncomputable section

namespace Cert.KernelIdeal.Frm0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem zeroOff : (![0, 0] : Fin 2 → Nat) = fun _ => 0 := funext fun a => by fin_cases a <;> rfl

/-- After a first point the scaled-rows scratch holds the first stored value of the first operand's block. -/
theorem sA_first (c : Dev nD) (t : Fin cfg0.N) (h0 : t.val % 16 = 0) :
    vA.read (Elt F) (vA.writes (Elt F) vA.junk (firstRun V c t h0).1) = k0_pay1 (iblk V c 0 t) := by
  rw [View.read_writes_eq_canon _ _ _ (coverA_first V c t h0)]
  unfold firstRun runFirst
  dsimp only
  try sl_unfold_words
  rw [View.canon_unit_zero zeroOff]
  simp only [View.readAt_eq_ld, (hs_0 t).read_unread, View.ld_unit_zero (S := S512x1024) zeroOff]

/-- After a first point the running-maximum scratch holds the third stored value over the two just stored. -/
theorem sM_first (c : Dev nD) (t : Fin cfg0.N) (h0 : t.val % 16 = 0) :
    vM.read (Elt F) (vM.writes (Elt F) vM.junk (firstRun V c t h0).2.1) = k0_pay3 (iblk V c 1 t) (k0_pay1 (iblk V c 0 t)) (k0_pay2) := by
  rw [View.read_writes_eq_canon _ _ _ (coverM_first V c t h0)]
  unfold firstRun runFirst
  dsimp only
  try sl_unfold_words
  rw [View.canon_cons_unit_zero zeroOff]
  simp only [View.readAt_eq_ld, (hs_0 t).read_unread, (hs_1 t).read_unread, View.ld_unit_zero (S := S512x1024) zeroOff,
    View.readCov_unit_zero (S := S512x1024) _ zeroOff, View.readCov_unit_zero (S := S512x1) _ zeroOff]

/-- After a middle point the running-maximum scratch holds the third stored value over what the point before left. -/
theorem sM_mid (c : Dev nD) (t : Fin cfg0.N) (h0 : ¬t.val % 16 = 0) (h1 : ¬t.val % 16 = 15) (sA : Vec F S512x1024 .bf16) (sM : Vec F S512x1 .f32) :
    vM.read (Elt F) (vM.writes (Elt F) vM.junk (midRun V c t h0 h1 sA sM).1) = k0_pay3 (iblk V c 1 t) sA sM := by
  rw [View.read_writes_eq_canon _ _ _ (coverM_mid V c t h0 h1 sA sM)]
  unfold midRun runMid
  dsimp only
  try sl_unfold_words
  rw [View.canon_unit_zero zeroOff]
  simp only [View.readAt_eq_ld, (hs_1 t).read_unread, (Memref.isWhole_whole _).read_unread, View.ld_unit_zero (S := S512x1024) zeroOff,
    View.ld_unit_zero (S := S512x1) zeroOff]

/-- After a last point the running-maximum scratch holds the same, -/
theorem sM_last (c : Dev nD) (t : Fin cfg0.N) (h0 : ¬t.val % 16 = 0) (h1 : t.val % 16 = 15) (sA : Vec F S512x1024 .bf16) (sM : Vec F S512x1 .f32) :
    vM.read (Elt F) (vM.writes (Elt F) vM.junk (lastRun V c t h0 h1 sA sM).2.1) = k0_pay3 (iblk V c 1 t) sA sM := by
  rw [View.read_writes_eq_canon _ _ _ (coverM_last V c t h0 h1 sA sM)]
  unfold lastRun runLast
  dsimp only
  try sl_unfold_words
  rw [View.canon_unit_zero zeroOff]
  simp only [View.readAt_eq_ld, (hs_1 t).read_unread, (Memref.isWhole_whole _).read_unread, View.ld_unit_zero (S := S512x1024) zeroOff,
    View.ld_unit_zero (S := S512x1) zeroOff]

/-- and the output block's buffer a copy of it. -/
theorem out_last (c : Dev nD) (t : Fin cfg0.N) (h0 : ¬t.val % 16 = 0) (h1 : t.val % 16 = 15) (sA : Vec F S512x1024 .bf16) (sM : Vec F S512x1 .f32) :
    vO.read (Elt F) (vO.writes (Elt F) vO.junk (lastRun V c t h0 h1 sA sM).1) = k0_pay3 (iblk V c 1 t) sA sM := by
  rw [View.read_writes_eq_canon _ _ _ (coverO_last V c t h0 h1 sA sM)]
  unfold lastRun runLast
  dsimp only
  try sl_unfold_words
  rw [View.canon_unit_zero zeroOff, View.readCov_unit_zero (S := S512x1) _ zeroOff]
  simp only [View.readAt_eq_ld, (hs_1 t).read_unread, (Memref.isWhole_whole _).read_unread, View.ld_unit_zero (S := S512x1024) zeroOff,
    View.ld_unit_zero (S := S512x1) zeroOff]

end Cert.KernelIdeal.Frm0

end
-- ==== Proof.LibKeepdims.lean ====
/-
  What every row-wise reduction with kept dimensions needs, read at an index: a vector of `a` entries cast to
  a column `[a, 1]`; a column `[a, 1]` broadcast along a new second axis to `[a, b]`; and the sum and the
  maximum of the rows of an `[a, b]` matrix, at row `r`, as a sum and a fold of `max` over the `b` entries of
  that row.
-/
import Idealize.ShloMosaic.Lib.Pipeline.Value
import Idealize.ShloMosaic.Lib.ValueIdx
import Idealize.ShloMosaic.PureOps.Ideal.Laws

noncomputable section

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `r` of an `[a, b]` matrix with coordinate `k` of the reduced second axis put back is `(r, k)`. -/
theorem lift_rows {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The sum over the second axis of an `[a, b]` matrix, at row `r`, is the sum of that row's `b` entries. -/
theorem multiReduction_add_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_rows h r k)

/-- The maximum over the second axis of an `[a, b]` matrix, at row `r`, is the fold of `max` from the
    accumulator's value over that row's `b` entries. -/
theorem multiReduction_maximumf_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (fun f => Finset.fold max (Ideal.ofBits φ acc) f Finset.univ) (funext fun k => congrArg src (lift_rows h r k))

end Idealize.ShloMosaic.ValueIdx

end
-- ==== Proof.Spec.lean ====
/-
  The mathematics both programs compute, stated once over the extended reals and over no program.

  For matrices X, Y with 8192 rows of 1024 entries: every row is divided by its Euclidean length,
  clamped below by a small positive literal; the cosine of row n of X and row m of Y is the inner
  product of the two scaled rows; the best match of row n is the largest cosine over all rows m of Y;
  the score of a best match v is the log-density of a normal law of mean 1 and deviation 0.3 at v,
  spelt with the programs' own literal words (never evaluated: both sides carry the same words);
  the total is the sum of the scores over the rows of X.  The first result is the total of (ex, ey),
  the second the total of (ey, ex).
-/
import Idealize.ShloMosaic.PureOps.Ideal
import Idealize.ShloMosaic.Lib.ValueIdx

noncomputable section

namespace Cert.Spec

open Idealize.ShloMosaic

/-- The positive literal the row lengths are clamped by (the word of 1e-8). -/
def floorLen : EReal := Ideal.ofBits .f32 0x322BCC77#32

/-- The clamped Euclidean length of row `n`. -/
def rowLen (X : Fin 8192 → Fin 1024 → EReal) (n : Fin 8192) : EReal :=
  max (Ideal.sqrt (∑ k, X n k * X n k)) floorLen

/-- Row `n` scaled to unit length: entry `k`. -/
def unitRow (X : Fin 8192 → Fin 1024 → EReal) (n : Fin 8192) (k : Fin 1024) : EReal :=
  Ideal.div (X n k) (rowLen X n)

/-- The cosine of row `n` of `X` and row `m` of `Y`. -/
def cosine (X Y : Fin 8192 → Fin 1024 → EReal) (n m : Fin 8192) : EReal :=
  ∑ k, unitRow X n k * unitRow Y m k

/-- The largest cosine of row `n` of `X` against the rows of `Y`. -/
def bestMatch (X Y : Fin 8192 → Fin 1024 → EReal) (n : Fin 8192) : EReal :=
  Finset.univ.sup (cosine X Y n)

/-- The normal log-density at `v`, in the programs' literal words: z = (v - 1) / 0.3, then (-0.5 · z) · z - c. -/
def score (v : EReal) : EReal :=
  (Ideal.ofBits .f32 0xBF000000#32 * Ideal.div (v - Ideal.ofBits .f32 0x3F800000#32) (Ideal.ofBits .f32 0x3E99999A#32))
    * Ideal.div (v - Ideal.ofBits .f32 0x3F800000#32) (Ideal.ofBits .f32 0x3E99999A#32)
    - Ideal.ofBits .f32 0xBE91F003#32

/-- The sum of the scores of the best matches of the rows of `X` against `Y`. -/
def total (X Y : Fin 8192 → Fin 1024 → EReal) : EReal :=
  ∑ n, score (bestMatch X Y n)

/-- A flat [8192, 1024] array read as a matrix. -/
def mat (x : (⟨2, ![8192, 1024]⟩ : Shape).Idx → EReal) : Fin 8192 → Fin 1024 → EReal :=
  fun n k => x (ValueIdx.ix2 n k)

/-- The scalar result array holding the total of two flat arrays. -/
def result (x y : (⟨2, ![8192, 1024]⟩ : Shape).Idx → EReal) : (⟨0, ![]⟩ : Shape).Idx → EReal :=
  fun _ => total (mat x) (mat y)

end Cert.Spec

end
-- ==== Proof.KerPay.lean ====
/-
  The kernel body's three stored values read at an index, over the extended reals.

  The first store holds the first operand's block with every row divided by its clamped Euclidean length; the second is
  minus infinity everywhere; the third is, in row r, the larger of what the running-maximum scratch held and the largest inner
  product of row r of the scaled-rows scratch with a scaled row of the second operand's block.
-/
import proofs.«132432_j45810121179238_2_alg».proof.Proof.Gen.KernelIdeal.Skeleton
import proofs.«132432_j45810121179238_2_alg».proof.Proof.LibKeepdims
import proofs.«132432_j45810121179238_2_alg».proof.Proof.Spec
import Idealize.ShloMosaic.Lib.Pipeline.Value
import Idealize.ShloMosaic.Lib.ValueLayout
import Idealize.ShloMosaic.PureOps.Ideal.Laws

noncomputable section

namespace Cert.KerVal

open Idealize.ShloMosaic Idealize.ShloMosaic.ValueIdx Cert.KernelIdeal Cert.KernelIdeal.Gen

/-- The clamped Euclidean length of row `r` of a block. -/
def blkLen (x : FVec Ideal S512x1024 .f32) (r : Fin 512) : EReal :=
  max (Ideal.sqrt (∑ k : Fin 1024, x (ix2 r k) * x (ix2 r k))) Cert.Spec.floorLen

/-- Row `r` of a block scaled to unit length: entry `k`. -/
def blkUnit (x : FVec Ideal S512x1024 .f32) (r : Fin 512) (k : Fin 1024) : EReal :=
  Ideal.div (x (ix2 r k)) (blkLen x r)

/-- The largest inner product of row `r` of `sA` with a scaled row of the block `b`, from minus infinity. -/
def blkBest (b : FVec Ideal S512x1024 .f32) (sA : FVec Ideal S512x1024 .bf16) (r : Fin 512) : EReal :=
  (Finset.univ : Finset (Fin 512)).fold max (Ideal.ofBits .f32 0xFF800000#32) (fun q => ∑ k : Fin 1024, sA (ix2 r k) * blkUnit b q k)

/-- The kernel's matrix product contracts the second axis of both operands: at (i, j) the sum over k of lhs (i, k) · rhs (j, k). -/
theorem matmulNT_apply (lhs rhs : FVec Ideal S512x1024 .bf16) (i j : Fin 512) :
    FloatOps.matmul dot_S512x1024_S512x1024_S512x512_1_1_0_0_n_n none lhs rhs (constant S512x512 .f32 0x00000000#32) (ix2 i j)
      = ∑ k : Fin 1024, lhs (ix2 i k) * rhs (ix2 j k) := by
  rw [Ideal.matmul_constant_zero_apply, ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 i j) ((contrEquiv1 dot_S512x1024_S512x1024_S512x512_1_1_0_0_n_n 1024 rfl rfl).symm k) = ix2 i k :=
    funext fun a => Fin.ext (by
      match a with
      | ⟨0, _⟩ => rfl
      | ⟨1, _⟩ => exact hk)
  have er : dot_S512x1024_S512x1024_S512x512_1_1_0_0_n_n.rhsIdx (ix2 i j) ((contrEquiv1 dot_S512x1024_S512x1024_S512x512_1_1_0_0_n_n 1024 rfl rfl).symm k) = ix2 j k :=
    funext fun a => Fin.ext (by
      match a with
      | ⟨0, _⟩ => rfl
      | ⟨1, _⟩ => exact hk)
  rw [el, er]

/-- The clamped length as the kernel spells it, at row `r`. -/
theorem len_apply (x : FVec Ideal S512x1024 .f32) (r : Fin 512) (hφ : FKind.Formats FTy.f32) (hacc : (0x00000000#32 : BitVec 32) = FKind.add.neutral FTy.f32 hφ) :
    max (sqrt (shapeCast S512x1 (multiReduction (F := Ideal) .add [1] S512 (mulf x x) 0x00000000#32 reduces_S512x1024_S512 hφ hacc) shapeCasts_S512_S512x1) (ix2 r (0 : Fin 1)))
      (FloatOps.ofBits (F := Ideal) .f32 0x322BCC77#32) = blkLen x r := by
  unfold blkLen
  refine congrArg (fun z => max z _) ?_
  show Ideal.sqrt _ = Ideal.sqrt _
  refine congrArg Ideal.sqrt ?_
  refine (shapeCast_a_a1_apply _ _ r 0).trans ?_
  exact (multiReduction_add_rows_apply (mulf x x) _ reduces_S512x1024_S512 hφ hacc r).trans (Finset.sum_congr rfl fun _ _ => rfl)

/-! ## Region 0's body -/

theorem pay1_apply_0 (x : FVec Ideal S512x1024 .f32) (r : Fin 512) (k : Fin 1024) :
    k0_pay1 (F := Ideal) x (ix2 r k) = blkUnit x r k := by
  unfold k0_pay1
  simp only [shapeCast_self, truncf_apply, divf_apply, broadcastTo_a1_ab_apply, maximumf_apply, broadcast_apply]
  unfold blkUnit
  exact congrArg (Ideal.div _) (len_apply x r _ _)

theorem pay2_apply_0 (i : S512x1.Idx) : k0_pay2 (F := Ideal) i = Ideal.ofBits .f32 0xFF800000#32 := by
  unfold k0_pay2
  simp only [shapeCast_self, broadcast_apply]
  rfl

theorem pay3_apply_0 (b : FVec Ideal S512x1024 .f32) (sA : FVec Ideal S512x1024 .bf16) (sM : FVec Ideal S512x1 .f32) (r : Fin 512) (u : Fin 1) :
    k0_pay3 (F := Ideal) b sA sM (ix2 r u) = max (sM (ix2 r u)) (blkBest b sA r) := by
  unfold k0_pay3
  simp only [shapeCast_self, maximumf_apply, shapeCast_a_a1_apply]
  refine congrArg (max _) ?_
  refine (multiReduction_maximumf_rows_apply _ _ reduces_S512x512_S512 _ _ r).trans ?_
  unfold blkBest
  refine congrArg (fun f => Finset.fold max _ f Finset.univ) (funext fun q => ?_)
  refine (matmulNT_apply _ _ r q).trans ?_
  refine Finset.sum_congr rfl fun k _ => congrArg (sA (ix2 r k) * ·) ?_
  simp only [truncf_apply, divf_apply, broadcastTo_a1_ab_apply, maximumf_apply, broadcast_apply]
  unfold blkUnit
  exact congrArg (Ideal.div _) (len_apply b q _ _)

/-! ## Region 1's body -/

theorem pay1_apply_1 (x : FVec Ideal S512x1024 .f32) (r : Fin 512) (k : Fin 1024) :
    k1_pay1 (F := Ideal) x (ix2 r k) = blkUnit x r k := by
  unfold k1_pay1
  simp only [shapeCast_self, truncf_apply, divf_apply, broadcastTo_a1_ab_apply, maximumf_apply, broadcast_apply]
  unfold blkUnit
  exact congrArg (Ideal.div _) (len_apply x r _ _)

theorem pay2_apply_1 (i : S512x1.Idx) : k1_pay2 (F := Ideal) i = Ideal.ofBits .f32 0xFF800000#32 := by
  unfold k1_pay2
  simp only [shapeCast_self, broadcast_apply]
  rfl

theorem pay3_apply_1 (b : FVec Ideal S512x1024 .f32) (sA : FVec Ideal S512x1024 .bf16) (sM : FVec Ideal S512x1 .f32) (r : Fin 512) (u : Fin 1) :
    k1_pay3 (F := Ideal) b sA sM (ix2 r u) = max (sM (ix2 r u)) (blkBest b sA r) := by
  unfold k1_pay3
  simp only [shapeCast_self, maximumf_apply, shapeCast_a_a1_apply]
  refine congrArg (max _) ?_
  refine (multiReduction_maximumf_rows_apply _ _ reduces_S512x512_S512 _ _ r).trans ?_
  unfold blkBest
  refine congrArg (fun f => Finset.fold max _ f Finset.univ) (funext fun q => ?_)
  refine (matmulNT_apply _ _ r q).trans ?_
  refine Finset.sum_congr rfl fun k _ => congrArg (sA (ix2 r k) * ·) ?_
  simp only [truncf_apply, divf_apply, broadcastTo_a1_ab_apply, maximumf_apply, broadcast_apply]
  unfold blkUnit
  exact congrArg (Ideal.div _) (len_apply b q _ _)

end Cert.KerVal

end
-- ==== Proof.KerFold0.lean ====
/-
  Region 0, over the extended reals: what the scratch buffers hold after every grid point, and the array the region leaves.

  Write X for the first operand's array and Y for the second's, as matrices of 8192 rows. The grid point t = 16·i + j works on rows
  512·i … 512·i + 511 of X and rows 512·j … 512·j + 511 of Y. After it, row r of the scaled-rows scratch is row 512·i + r of X
  scaled to unit length, and entry r of the running-maximum scratch is bounded above by exactly the bounds of the cosines of that
  row of X with the first 512·(j + 1) rows of Y. At j = 15 those are all rows of Y, the entry is the best match of the row, and the
  output block receives it; the sixteen output blocks written back tile the output array.
-/
import proofs.«132432_j45810121179238_2_alg».proof.Proof.KerPieces0
import proofs.«132432_j45810121179238_2_alg».proof.Proof.KerPay
import proofs.«132432_j45810121179238_2_alg».proof.Proof.Spec
import Idealize.ShloMosaic.Lib.Pipeline.Value

set_option maxRecDepth 16384

noncomputable section

namespace Cert.KernelIdeal.Frm0

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal.Gen Cert.KerVal

variable (V : (c : Dev nD) → (b : Ref sig .tc) → Buf (Elt Ideal) ((c : Thread nD τ).loc b))

/-- The first operand's array and the second's, as matrices. -/
def matA (c : Dev nD) : Fin 8192 → Fin 1024 → EReal := Cert.Spec.mat (V c main_arg0)
def matB (c : Dev nD) : Fin 8192 → Fin 1024 → EReal := Cert.Spec.mat (V c main_arg1)

/-- The printed index maps over the grid: point t reads block t / 16 of the first operand and block t % 16 of the second, and
    its output block is block t / 16. -/
theorem idxFacts : ∀ t : Fin cfg0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0 :=
  (by decide +kernel : ∀ t : Fin grid0.N, _)

theorem negInf : Ideal.ofBits .f32 0xFF800000#32 = (⊥ : EReal) := by simp [Ideal.ofBits, Ideal.ieee]

/-- The first operand's block at point t is rows 512·(t / 16) … of X. -/
theorem iblk0_apply (c : Dev nD) (t : Fin cfg0.N) (r : Fin 512) (k : Fin 1024) (row : Fin 8192) (hrow : row.val = 512 * (t.val / 16) + r.val) :
    (iblk V c 0 t : Vec Ideal S512x1024 .f32) (ix2 r k) = matA V c row k := by
  obtain ⟨e0, e1, -⟩ := idxFacts t
  unfold iblk matA Cert.Spec.mat
  rw [View.read_apply]
  show (V c main_arg0 : S8192x1024.Idx → Elt Ideal .f32) _ = (V c main_arg0 : S8192x1024.Idx → Elt Ideal .f32) _
  congr 1
  funext a
  apply Fin.ext
  match a with
  | ⟨0, _⟩ => show win0_0.index t (0 : Fin 2) * 512 + 1 * r.val = row.val; rw [e0, hrow]; omega
  | ⟨1, _⟩ => show win0_0.index t (1 : Fin 2) * 1024 + 1 * k.val = k.val; rw [e1]; omega

/-- The second operand's block at point t is rows 512·(t % 16) … of Y. -/
theorem iblk1_apply (c : Dev nD) (t : Fin cfg0.N) (q : Fin 512) (k : Fin 1024) (row : Fin 8192) (hrow : row.val = 512 * (t.val % 16) + q.val) :
    (iblk V c 1 t : Vec Ideal S512x1024 .f32) (ix2 q k) = matB V c row k := by
  obtain ⟨-, -, e2, e3, -⟩ := idxFacts t
  unfold iblk matB Cert.Spec.mat
  rw [View.read_apply]
  show (V c main_arg1 : S8192x1024.Idx → Elt Ideal .f32) _ = (V c main_arg1 : S8192x1024.Idx → Elt Ideal .f32) _
  congr 1
  funext a
  apply Fin.ext
  match a with
  | ⟨0, _⟩ => show win0_1.index t (0 : Fin 2) * 512 + 1 * q.val = row.val; rw [e2, hrow]; omega
  | ⟨1, _⟩ => show win0_1.index t (1 : Fin 2) * 1024 + 1 * k.val = k.val; rw [e3]; omega

/-- A block's scaled row is the array's scaled row. -/
theorem unitA (c : Dev nD) (t : Fin cfg0.N) (r : Fin 512) (k : Fin 1024) (row : Fin 8192) (hrow : row.val = 512 * (t.val / 16) + r.val) :
    blkUnit (iblk V c 0 t) r k = Cert.Spec.unitRow (matA V c) row k := by
  unfold Cert.KerVal.blkUnit Cert.KerVal.blkLen Cert.Spec.unitRow Cert.Spec.rowLen
  simp only [fun k' => iblk0_apply V c t r k' row hrow]
theorem unitB (c : Dev nD) (t : Fin cfg0.N) (q : Fin 512) (k : Fin 1024) (row : Fin 8192) (hrow : row.val = 512 * (t.val % 16) + q.val) :
    blkUnit (iblk V c 1 t) q k = Cert.Spec.unitRow (matB V c) row k := by
  unfold Cert.KerVal.blkUnit Cert.KerVal.blkLen Cert.Spec.unitRow Cert.Spec.rowLen
  simp only [fun k' => iblk1_apply V c t q k' row hrow]

/-- The largest inner product against the second operand's block at point t, bounded: exactly the bounds of the cosines with
    rows 512·(t % 16) … 512·(t % 16) + 511 of Y. -/
theorem best_le (c : Dev nD) (t : Fin cfg0.N) (sAv : FVec Ideal S512x1024 .bf16) (r : Fin 512) (row : Fin 8192)
    (hsA : ∀ k : Fin 1024, sAv (ix2 r k) = Cert.Spec.unitRow (matA V c) row k) (B : EReal) :
    blkBest (iblk V c 1 t) sAv r ≤ B ↔ ∀ m : Fin 8192, 512 * (t.val % 16) ≤ m.val → m.val < 512 * (t.val % 16 + 1) →
      Cert.Spec.cosine (matA V c) (matB V c) row m ≤ B := by
  have hterm : ∀ (q : Fin 512) (m : Fin 8192), m.val = 512 * (t.val % 16) + q.val →
      (∑ k : Fin 1024, sAv (ix2 r k) * blkUnit (iblk V c 1 t) q k) = Cert.Spec.cosine (matA V c) (matB V c) row m := fun q m hm => by
    unfold Cert.Spec.cosine
    exact Finset.sum_congr rfl fun k _ => by rw [hsA k, unitB V c t q k m hm]
  unfold Cert.KerVal.blkBest
  rw [Finset.fold_max_le, negInf]
  constructor
  · rintro ⟨-, h⟩ m hlo hhi
    have hq : m.val - 512 * (t.val % 16) < 512 := by omega
    rw [← hterm ⟨m.val - 512 * (t.val % 16), hq⟩ m (by show m.val = 512 * (t.val % 16) + (m.val - 512 * (t.val % 16)); omega)]
    exact h _ (Finset.mem_univ _)
  · intro h
    refine ⟨bot_le, fun q _ => ?_⟩
    have hm : 512 * (t.val % 16) + q.val < 8192 := by have := q.isLt; omega
    rw [hterm q ⟨512 * (t.val % 16) + q.val, hm⟩ rfl]
    exact h _ (by show 512 * (t.val % 16) ≤ 512 * (t.val % 16) + q.val; omega) (by show 512 * (t.val % 16) + q.val < _; have := q.isLt; omega)

/-- What a state of the three buffers must satisfy after point `n`. -/
structure Inv (c : Dev nD) (n : ℕ) (s : St Ideal) : Prop where
  sA : ∀ (r : Fin 512) (k : Fin 1024) (row : Fin 8192), row.val = 512 * (n / 16) + r.val → s.2.1 (ix2 r k) = Cert.Spec.unitRow (matA V c) row k
  sM : ∀ (r : Fin 512) (u : Fin 1) (row : Fin 8192), row.val = 512 * (n / 16) + r.val → ∀ B : EReal,
    s.2.2 (ix2 r u) ≤ B ↔ ∀ m : Fin 8192, m.val < 512 * (n % 16 + 1) → Cert.Spec.cosine (matA V c) (matB V c) row m ≤ B
  out : n % 16 = 15 → s.1 = s.2.2

/-- The three conditions on three given contents. -/
theorem inv_of (c : Dev nD) (n : ℕ) (o : Vec Ideal S512x1 .f32) (a : Vec Ideal S512x1024 .bf16) (b : Vec Ideal S512x1 .f32)
    (hA : ∀ (r : Fin 512) (k : Fin 1024) (row : Fin 8192), row.val = 512 * (n / 16) + r.val → a (ix2 r k) = Cert.Spec.unitRow (matA V c) row k)
    (hM : ∀ (r : Fin 512) (u : Fin 1) (row : Fin 8192), row.val = 512 * (n / 16) + r.val → ∀ B : EReal,
      b (ix2 r u) ≤ B ↔ ∀ m : Fin 8192, m.val < 512 * (n % 16 + 1) → Cert.Spec.cosine (matA V c) (matB V c) row m ≤ B)
    (ho : n % 16 = 15 → o = b) : Inv V c n (o, a, b) := ⟨hA, hM, ho⟩

/-- One point keeps it: at a first point of a row from nothing, elsewhere from what the point before left. -/
theorem inv_step (c : Dev nD) (t : Fin cfg0.N) (prev : St Ideal)
    (hprev : ¬t.val % 16 = 0 → Inv V c (t.val - 1) prev) : Inv V c t.val (stepAt V c t prev) := by
  by_cases h0 : t.val % 16 = 0
  · rw [stepAt_first V c t prev h0]
    have hA : ∀ (r : Fin 512) (k : Fin 1024) (row : Fin 8192), row.val = 512 * (t.val / 16) + r.val →
        k0_pay1 (F := Ideal) (iblk V c 0 t) (ix2 r k) = Cert.Spec.unitRow (matA V c) row k := fun r k row hrow => by
      rw [pay1_apply_0, unitA V c t r k row hrow]
    refine inv_of V c _ _ _ _ ?_ ?_ (fun h => by omega)
    · intro r k row hrow
      rw [sA_first V c t h0]; exact hA r k row hrow
    · intro r u row hrow B
      rw [sM_first V c t h0, pay3_apply_0, pay2_apply_0, negInf, max_bot_left,
        best_le V c t _ r row (fun k => hA r k row hrow) B]
      constructor
      · intro h m hm; exact h m (by omega) hm
      · intro h m _ hm; exact h m hm
  · have hz : t.val ≠ 0 := fun h => h0 (by rw [h])
    obtain ⟨pA, pM, -⟩ := hprev h0
    have hdiv : (t.val - 1) / 16 = t.val / 16 := by omega
    have hmod : (t.val - 1) % 16 + 1 = t.val % 16 := by omega
    have hbound : ∀ (r : Fin 512) (u : Fin 1) (row : Fin 8192), row.val = 512 * (t.val / 16) + r.val → ∀ B : EReal,
        k0_pay3 (F := Ideal) (iblk V c 1 t) prev.2.1 prev.2.2 (ix2 r u) ≤ B ↔
          ∀ m : Fin 8192, m.val < 512 * (t.val % 16 + 1) → Cert.Spec.cosine (matA V c) (matB V c) row m ≤ B := fun r u row hrow B => by
      rw [pay3_apply_0, max_le_iff, pM r u row (by rw [hdiv]; exact hrow) B, hmod,
        best_le V c t _ r row (fun k => pA r k row (by rw [hdiv]; exact hrow)) B]
      constructor
      · rintro ⟨h1, h2⟩ m hm
        by_cases hlt : m.val < 512 * (t.val % 16)
        · exact h1 m hlt
        · exact h2 m (by omega) hm
      · intro h; exact ⟨fun m hm => h m (by omega), fun m _ hm => h m hm⟩
    by_cases h1 : t.val % 16 = 15
    · rw [stepAt_last V c t prev h0 h1]
      refine inv_of V c _ _ _ _ (fun r k row hrow => pA r k row (by rw [hdiv]; exact hrow)) ?_ (fun _ => ?_)
      · intro r u row hrow B
        rw [sM_last V c t h0 h1]; exact hbound r u row hrow B
      · rw [out_last V c t h0 h1, sM_last V c t h0 h1]
    · rw [stepAt_mid V c t prev h0 h1]
      refine inv_of V c _ _ _ _ (fun r k row hrow => pA r k row (by rw [hdiv]; exact hrow)) ?_ (fun h => absurd h h1)
      intro r u row hrow B
      rw [sM_mid V c t h0 h1]; exact hbound r u row hrow B

/-- So it holds after every point. -/
theorem inv_all (c : Dev nD) : ∀ (n : ℕ) (hn : n < cfg0.N), Inv V c n (outsAt V c n hn)
  | 0, hn => inv_step V c ⟨0, hn⟩ junkSt (fun h => absurd (Nat.zero_mod 16) h)
  | n + 1, hn => inv_step V c ⟨n + 1, hn⟩ (outsAt V c n (Nat.lt_of_succ_lt hn)) (fun _ => inv_all c n (Nat.lt_of_succ_lt hn))

/-! ## The array the region leaves -/

/-- Entry n of the output array: the best match of row n of X among the rows of Y. -/
def bestArr (c : Dev nD) : S8192x1.Idx → Elt Ideal .f32 :=
  fun i => Cert.Spec.bestMatch (matA V c) (matB V c) ⟨(i 0).val, idx2_lt0 i⟩

/-- What a writing-back point writes back is its block of `bestArr`. -/
theorem flushed_eq (c : Dev nD) (t : Fin cfg0.N) (hf : (cfg0.win 2).flush t = true) :
    (dat V c).flushed 2 t = ((cfg0.win 2).blk t).view.read (Elt Ideal) (bestArr V c) := by
  have hlast : t.val % 16 = 15 := (flush0_2 t).mp hf
  obtain ⟨-, -, -, -, e4, e5⟩ := idxFacts t
  have hinv := inv_all V c t.val t.isLt
  show (cfg0.win 2).cut (grid0.coords t) ((dat V c).after 2 t) = _
  rw [after_2, hinv.out hlast]
  funext y
  obtain ⟨r, u, rfl⟩ : ∃ (r : Fin 512) (u : Fin 1), y = ix2 r u := ⟨y 0, y 1, eq_ix2 y⟩
  rw [View.read_apply]
  have hrowlt : 512 * (t.val / 16) + r.val < 8192 := by have := t.isLt; have hN : cfg0.N = 256 := N_0; have := r.isLt; omega
  have hemb : ((((cfg0.win 2).blk t).view.emb (ix2 r u)) 0).val = 512 * (t.val / 16) + r.val := by
    show win0_2.index t (0 : Fin 2) * 512 + 1 * r.val = _; rw [e4]; omega
  show (outsAt V c t.val t.isLt).2.2 (ix2 r u) = Cert.Spec.bestMatch (matA V c) (matB V c) ⟨_, _⟩
  refine eq_of_forall_ge_iff fun B => ?_
  rw [hinv.sM r u ⟨_, _⟩ hemb B]
  unfold Cert.Spec.bestMatch
  rw [Finset.sup_le_iff]
  constructor
  · intro h m _; exact h m (by have := m.isLt; omega)
  · intro h m _; exact h m (Finset.mem_univ _)

/-- An index of the output array is in point `t`'s block iff its row is among the block's 512. -/
theorem mem_blk (t : Fin cfg0.N) (i : S8192x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v0).slice (win0_2.rect t)).set ↔ _
  rw [View.set_slice_whole, Rect.mem_set_unit]
  exact Iff.rfl

/-- The region leaves `bestArr` in its output array: the last point of the row of the grid that works on an index's block writes it back. -/
theorem final (c : Dev nD) : (dat V c).arrAt 2 cfg0.N = bestArr V c :=
  (dat V c).arrAt_eq_of_cover 2 (bestArr V c) (fun t hf => flushed_eq V c t hf) fun i => by
    have hi0 : (i 0).val < 8192 := idx2_lt0 i
    have hi1 : (i 1).val < 1 := idx2_lt1 i
    have hN : cfg0.N = 256 := N_0
    have htlt : 16 * ((i 0).val / 512) + 15 < cfg0.N := by rw [hN]; omega
    refine ⟨⟨16 * ((i 0).val / 512) + 15, htlt⟩, (flush0_2 _).mpr (by show (16 * ((i 0).val / 512) + 15) % 16 = 15; omega), ?_⟩
    obtain ⟨-, -, -, -, e4, e5⟩ := idxFacts ⟨16 * ((i 0).val / 512) + 15, htlt⟩
    rw [mem_blk]
    intro a
    match a with
    | ⟨0, _⟩ =>
      show win0_2.index _ (0 : Fin 2) * 512 ≤ (i 0).val ∧ (i 0).val < win0_2.index _ (0 : Fin 2) * 512 + 512
      rw [e4]; show (16 * ((i 0).val / 512) + 15) / 16 * 512 ≤ (i 0).val ∧ (i 0).val < (16 * ((i 0).val / 512) + 15) / 16 * 512 + 512; omega
    | ⟨1, _⟩ =>
      show win0_2.index _ (1 : Fin 2) * 1 ≤ (i 1).val ∧ (i 1).val < win0_2.index _ (1 : Fin 2) * 1 + 1
      rw [e5]; omega

end Cert.KernelIdeal.Frm0

end
-- ==== Proof.KerPieces1.lean ====
/-
  Region 1: what the stores found by the body's runs leave, read back as the body's stored values — the scaled-rows scratch after a
  first point, the running-maximum scratch after each kind of point, and the output block's buffer after a last point.
-/
import proofs.«132432_j45810121179238_2_alg».proof.Proof.FrameDataI1
import Idealize.ShloMosaic.Lib.Pipeline.Value

set_option maxRecDepth 16384

noncomputable section

namespace Cert.KernelIdeal.Frm1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem zeroOff : (![0, 0] : Fin 2 → Nat) = fun _ => 0 := funext fun a => by fin_cases a <;> rfl

/-- After a first point the scaled-rows scratch holds the first stored value of the first operand's block. -/
theorem sA_first (c : Dev nD) (t : Fin cfg1.N) (h0 : t.val % 16 = 0) :
    vA.read (Elt F) (vA.writes (Elt F) vA.junk (firstRun V c t h0).1) = k1_pay1 (iblk V c 0 t) := by
  rw [View.read_writes_eq_canon _ _ _ (coverA_first V c t h0)]
  unfold firstRun runFirst
  dsimp only
  try sl_unfold_words
  rw [View.canon_unit_zero zeroOff]
  simp only [View.readAt_eq_ld, (hs_0 t).read_unread, View.ld_unit_zero (S := S512x1024) zeroOff]

/-- After a first point the running-maximum scratch holds the third stored value over the two just stored. -/
theorem sM_first (c : Dev nD) (t : Fin cfg1.N) (h0 : t.val % 16 = 0) :
    vM.read (Elt F) (vM.writes (Elt F) vM.junk (firstRun V c t h0).2.1) = k1_pay3 (iblk V c 1 t) (k1_pay1 (iblk V c 0 t)) (k1_pay2) := by
  rw [View.read_writes_eq_canon _ _ _ (coverM_first V c t h0)]
  unfold firstRun runFirst
  dsimp only
  try sl_unfold_words
  rw [View.canon_cons_unit_zero zeroOff]
  simp only [View.readAt_eq_ld, (hs_0 t).read_unread, (hs_1 t).read_unread, View.ld_unit_zero (S := S512x1024) zeroOff,
    View.readCov_unit_zero (S := S512x1024) _ zeroOff, View.readCov_unit_zero (S := S512x1) _ zeroOff]

/-- After a middle point the running-maximum scratch holds the third stored value over what the point before left. -/
theorem sM_mid (c : Dev nD) (t : Fin cfg1.N) (h0 : ¬t.val % 16 = 0) (h1 : ¬t.val % 16 = 15) (sA : Vec F S512x1024 .bf16) (sM : Vec F S512x1 .f32) :
    vM.read (Elt F) (vM.writes (Elt F) vM.junk (midRun V c t h0 h1 sA sM).1) = k1_pay3 (iblk V c 1 t) sA sM := by
  rw [View.read_writes_eq_canon _ _ _ (coverM_mid V c t h0 h1 sA sM)]
  unfold midRun runMid
  dsimp only
  try sl_unfold_words
  rw [View.canon_unit_zero zeroOff]
  simp only [View.readAt_eq_ld, (hs_1 t).read_unread, (Memref.isWhole_whole _).read_unread, View.ld_unit_zero (S := S512x1024) zeroOff,
    View.ld_unit_zero (S := S512x1) zeroOff]

/-- After a last point the running-maximum scratch holds the same, -/
theorem sM_last (c : Dev nD) (t : Fin cfg1.N) (h0 : ¬t.val % 16 = 0) (h1 : t.val % 16 = 15) (sA : Vec F S512x1024 .bf16) (sM : Vec F S512x1 .f32) :
    vM.read (Elt F) (vM.writes (Elt F) vM.junk (lastRun V c t h0 h1 sA sM).2.1) = k1_pay3 (iblk V c 1 t) sA sM := by
  rw [View.read_writes_eq_canon _ _ _ (coverM_last V c t h0 h1 sA sM)]
  unfold lastRun runLast
  dsimp only
  try sl_unfold_words
  rw [View.canon_unit_zero zeroOff]
  simp only [View.readAt_eq_ld, (hs_1 t).read_unread, (Memref.isWhole_whole _).read_unread, View.ld_unit_zero (S := S512x1024) zeroOff,
    View.ld_unit_zero (S := S512x1) zeroOff]

/-- and the output block's buffer a copy of it. -/
theorem out_last (c : Dev nD) (t : Fin cfg1.N) (h0 : ¬t.val % 16 = 0) (h1 : t.val % 16 = 15) (sA : Vec F S512x1024 .bf16) (sM : Vec F S512x1 .f32) :
    vO.read (Elt F) (vO.writes (Elt F) vO.junk (lastRun V c t h0 h1 sA sM).1) = k1_pay3 (iblk V c 1 t) sA sM := by
  rw [View.read_writes_eq_canon _ _ _ (coverO_last V c t h0 h1 sA sM)]
  unfold lastRun runLast
  dsimp only
  try sl_unfold_words
  rw [View.canon_unit_zero zeroOff, View.readCov_unit_zero (S := S512x1) _ zeroOff]
  simp only [View.readAt_eq_ld, (hs_1 t).read_unread, (Memref.isWhole_whole _).read_unread, View.ld_unit_zero (S := S512x1024) zeroOff,
    View.ld_unit_zero (S := S512x1) zeroOff]

end Cert.KernelIdeal.Frm1

end
-- ==== Proof.KerFold1.lean ====
/-
  Region 1, over the extended reals: what the scratch buffers hold after every grid point, and the array the region leaves.

  Write X for the first operand's array and Y for the second's, as matrices of 8192 rows. The grid point t = 16·i + j works on rows
  512·i … 512·i + 511 of X and rows 512·j … 512·j + 511 of Y. After it, row r of the scaled-rows scratch is row 512·i + r of X
  scaled to unit length, and entry r of the running-maximum scratch is bounded above by exactly the bounds of the cosines of that
  row of X with the first 512·(j + 1) rows of Y. At j = 15 those are all rows of Y, the entry is the best match of the row, and the
  output block receives it; the sixteen output blocks written back tile the output array.
-/
import proofs.«132432_j45810121179238_2_alg».proof.Proof.KerPieces1
import proofs.«132432_j45810121179238_2_alg».proof.Proof.KerPay
import proofs.«132432_j45810121179238_2_alg».proof.Proof.Spec
import Idealize.ShloMosaic.Lib.Pipeline.Value

set_option maxRecDepth 16384

noncomputable section

namespace Cert.KernelIdeal.Frm1

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal.Gen Cert.KerVal

variable (V : (c : Dev nD) → (b : Ref sig .tc) → Buf (Elt Ideal) ((c : Thread nD τ).loc b))

/-- The first operand's array and the second's, as matrices. -/
def matA (c : Dev nD) : Fin 8192 → Fin 1024 → EReal := Cert.Spec.mat (V c main_arg1)
def matB (c : Dev nD) : Fin 8192 → Fin 1024 → EReal := Cert.Spec.mat (V c main_arg0)

/-- The printed index maps over the grid: point t reads block t / 16 of the first operand and block t % 16 of the second, and
    its output block is block t / 16. -/
theorem idxFacts : ∀ t : Fin cfg1.N, win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = 0 :=
  (by decide +kernel : ∀ t : Fin grid1.N, _)

theorem negInf : Ideal.ofBits .f32 0xFF800000#32 = (⊥ : EReal) := by simp [Ideal.ofBits, Ideal.ieee]

/-- The first operand's block at point t is rows 512·(t / 16) … of X. -/
theorem iblk0_apply (c : Dev nD) (t : Fin cfg1.N) (r : Fin 512) (k : Fin 1024) (row : Fin 8192) (hrow : row.val = 512 * (t.val / 16) + r.val) :
    (iblk V c 0 t : Vec Ideal S512x1024 .f32) (ix2 r k) = matA V c row k := by
  obtain ⟨e0, e1, -⟩ := idxFacts t
  unfold iblk matA Cert.Spec.mat
  rw [View.read_apply]
  show (V c main_arg1 : S8192x1024.Idx → Elt Ideal .f32) _ = (V c main_arg1 : S8192x1024.Idx → Elt Ideal .f32) _
  congr 1
  funext a
  apply Fin.ext
  match a with
  | ⟨0, _⟩ => show win1_0.index t (0 : Fin 2) * 512 + 1 * r.val = row.val; rw [e0, hrow]; omega
  | ⟨1, _⟩ => show win1_0.index t (1 : Fin 2) * 1024 + 1 * k.val = k.val; rw [e1]; omega

/-- The second operand's block at point t is rows 512·(t % 16) … of Y. -/
theorem iblk1_apply (c : Dev nD) (t : Fin cfg1.N) (q : Fin 512) (k : Fin 1024) (row : Fin 8192) (hrow : row.val = 512 * (t.val % 16) + q.val) :
    (iblk V c 1 t : Vec Ideal S512x1024 .f32) (ix2 q k) = matB V c row k := by
  obtain ⟨-, -, e2, e3, -⟩ := idxFacts t
  unfold iblk matB Cert.Spec.mat
  rw [View.read_apply]
  show (V c main_arg0 : S8192x1024.Idx → Elt Ideal .f32) _ = (V c main_arg0 : S8192x1024.Idx → Elt Ideal .f32) _
  congr 1
  funext a
  apply Fin.ext
  match a with
  | ⟨0, _⟩ => show win1_1.index t (0 : Fin 2) * 512 + 1 * q.val = row.val; rw [e2, hrow]; omega
  | ⟨1, _⟩ => show win1_1.index t (1 : Fin 2) * 1024 + 1 * k.val = k.val; rw [e3]; omega

/-- A block's scaled row is the array's scaled row. -/
theorem unitA (c : Dev nD) (t : Fin cfg1.N) (r : Fin 512) (k : Fin 1024) (row : Fin 8192) (hrow : row.val = 512 * (t.val / 16) + r.val) :
    blkUnit (iblk V c 0 t) r k = Cert.Spec.unitRow (matA V c) row k := by
  unfold Cert.KerVal.blkUnit Cert.KerVal.blkLen Cert.Spec.unitRow Cert.Spec.rowLen
  simp only [fun k' => iblk0_apply V c t r k' row hrow]
theorem unitB (c : Dev nD) (t : Fin cfg1.N) (q : Fin 512) (k : Fin 1024) (row : Fin 8192) (hrow : row.val = 512 * (t.val % 16) + q.val) :
    blkUnit (iblk V c 1 t) q k = Cert.Spec.unitRow (matB V c) row k := by
  unfold Cert.KerVal.blkUnit Cert.KerVal.blkLen Cert.Spec.unitRow Cert.Spec.rowLen
  simp only [fun k' => iblk1_apply V c t q k' row hrow]

/-- The largest inner product against the second operand's block at point t, bounded: exactly the bounds of the cosines with
    rows 512·(t % 16) … 512·(t % 16) + 511 of Y. -/
theorem best_le (c : Dev nD) (t : Fin cfg1.N) (sAv : FVec Ideal S512x1024 .bf16) (r : Fin 512) (row : Fin 8192)
    (hsA : ∀ k : Fin 1024, sAv (ix2 r k) = Cert.Spec.unitRow (matA V c) row k) (B : EReal) :
    blkBest (iblk V c 1 t) sAv r ≤ B ↔ ∀ m : Fin 8192, 512 * (t.val % 16) ≤ m.val → m.val < 512 * (t.val % 16 + 1) →
      Cert.Spec.cosine (matA V c) (matB V c) row m ≤ B := by
  have hterm : ∀ (q : Fin 512) (m : Fin 8192), m.val = 512 * (t.val % 16) + q.val →
      (∑ k : Fin 1024, sAv (ix2 r k) * blkUnit (iblk V c 1 t) q k) = Cert.Spec.cosine (matA V c) (matB V c) row m := fun q m hm => by
    unfold Cert.Spec.cosine
    exact Finset.sum_congr rfl fun k _ => by rw [hsA k, unitB V c t q k m hm]
  unfold Cert.KerVal.blkBest
  rw [Finset.fold_max_le, negInf]
  constructor
  · rintro ⟨-, h⟩ m hlo hhi
    have hq : m.val - 512 * (t.val % 16) < 512 := by omega
    rw [← hterm ⟨m.val - 512 * (t.val % 16), hq⟩ m (by show m.val = 512 * (t.val % 16) + (m.val - 512 * (t.val % 16)); omega)]
    exact h _ (Finset.mem_univ _)
  · intro h
    refine ⟨bot_le, fun q _ => ?_⟩
    have hm : 512 * (t.val % 16) + q.val < 8192 := by have := q.isLt; omega
    rw [hterm q ⟨512 * (t.val % 16) + q.val, hm⟩ rfl]
    exact h _ (by show 512 * (t.val % 16) ≤ 512 * (t.val % 16) + q.val; omega) (by show 512 * (t.val % 16) + q.val < _; have := q.isLt; omega)

/-- What a state of the three buffers must satisfy after point `n`. -/
structure Inv (c : Dev nD) (n : ℕ) (s : St Ideal) : Prop where
  sA : ∀ (r : Fin 512) (k : Fin 1024) (row : Fin 8192), row.val = 512 * (n / 16) + r.val → s.2.1 (ix2 r k) = Cert.Spec.unitRow (matA V c) row k
  sM : ∀ (r : Fin 512) (u : Fin 1) (row : Fin 8192), row.val = 512 * (n / 16) + r.val → ∀ B : EReal,
    s.2.2 (ix2 r u) ≤ B ↔ ∀ m : Fin 8192, m.val < 512 * (n % 16 + 1) → Cert.Spec.cosine (matA V c) (matB V c) row m ≤ B
  out : n % 16 = 15 → s.1 = s.2.2

/-- The three conditions on three given contents. -/
theorem inv_of (c : Dev nD) (n : ℕ) (o : Vec Ideal S512x1 .f32) (a : Vec Ideal S512x1024 .bf16) (b : Vec Ideal S512x1 .f32)
    (hA : ∀ (r : Fin 512) (k : Fin 1024) (row : Fin 8192), row.val = 512 * (n / 16) + r.val → a (ix2 r k) = Cert.Spec.unitRow (matA V c) row k)
    (hM : ∀ (r : Fin 512) (u : Fin 1) (row : Fin 8192), row.val = 512 * (n / 16) + r.val → ∀ B : EReal,
      b (ix2 r u) ≤ B ↔ ∀ m : Fin 8192, m.val < 512 * (n % 16 + 1) → Cert.Spec.cosine (matA V c) (matB V c) row m ≤ B)
    (ho : n % 16 = 15 → o = b) : Inv V c n (o, a, b) := ⟨hA, hM, ho⟩

/-- One point keeps it: at a first point of a row from nothing, elsewhere from what the point before left. -/
theorem inv_step (c : Dev nD) (t : Fin cfg1.N) (prev : St Ideal)
    (hprev : ¬t.val % 16 = 0 → Inv V c (t.val - 1) prev) : Inv V c t.val (stepAt V c t prev) := by
  by_cases h0 : t.val % 16 = 0
  · rw [stepAt_first V c t prev h0]
    have hA : ∀ (r : Fin 512) (k : Fin 1024) (row : Fin 8192), row.val = 512 * (t.val / 16) + r.val →
        k1_pay1 (F := Ideal) (iblk V c 0 t) (ix2 r k) = Cert.Spec.unitRow (matA V c) row k := fun r k row hrow => by
      rw [pay1_apply_1, unitA V c t r k row hrow]
    refine inv_of V c _ _ _ _ ?_ ?_ (fun h => by omega)
    · intro r k row hrow
      rw [sA_first V c t h0]; exact hA r k row hrow
    · intro r u row hrow B
      rw [sM_first V c t h0, pay3_apply_1, pay2_apply_1, negInf, max_bot_left,
        best_le V c t _ r row (fun k => hA r k row hrow) B]
      constructor
      · intro h m hm; exact h m (by omega) hm
      · intro h m _ hm; exact h m hm
  · have hz : t.val ≠ 0 := fun h => h0 (by rw [h])
    obtain ⟨pA, pM, -⟩ := hprev h0
    have hdiv : (t.val - 1) / 16 = t.val / 16 := by omega
    have hmod : (t.val - 1) % 16 + 1 = t.val % 16 := by omega
    have hbound : ∀ (r : Fin 512) (u : Fin 1) (row : Fin 8192), row.val = 512 * (t.val / 16) + r.val → ∀ B : EReal,
        k1_pay3 (F := Ideal) (iblk V c 1 t) prev.2.1 prev.2.2 (ix2 r u) ≤ B ↔
          ∀ m : Fin 8192, m.val < 512 * (t.val % 16 + 1) → Cert.Spec.cosine (matA V c) (matB V c) row m ≤ B := fun r u row hrow B => by
      rw [pay3_apply_1, max_le_iff, pM r u row (by rw [hdiv]; exact hrow) B, hmod,
        best_le V c t _ r row (fun k => pA r k row (by rw [hdiv]; exact hrow)) B]
      constructor
      · rintro ⟨h1, h2⟩ m hm
        by_cases hlt : m.val < 512 * (t.val % 16)
        · exact h1 m hlt
        · exact h2 m (by omega) hm
      · intro h; exact ⟨fun m hm => h m (by omega), fun m _ hm => h m hm⟩
    by_cases h1 : t.val % 16 = 15
    · rw [stepAt_last V c t prev h0 h1]
      refine inv_of V c _ _ _ _ (fun r k row hrow => pA r k row (by rw [hdiv]; exact hrow)) ?_ (fun _ => ?_)
      · intro r u row hrow B
        rw [sM_last V c t h0 h1]; exact hbound r u row hrow B
      · rw [out_last V c t h0 h1, sM_last V c t h0 h1]
    · rw [stepAt_mid V c t prev h0 h1]
      refine inv_of V c _ _ _ _ (fun r k row hrow => pA r k row (by rw [hdiv]; exact hrow)) ?_ (fun h => absurd h h1)
      intro r u row hrow B
      rw [sM_mid V c t h0 h1]; exact hbound r u row hrow B

/-- So it holds after every point. -/
theorem inv_all (c : Dev nD) : ∀ (n : ℕ) (hn : n < cfg1.N), Inv V c n (outsAt V c n hn)
  | 0, hn => inv_step V c ⟨0, hn⟩ junkSt (fun h => absurd (Nat.zero_mod 16) h)
  | n + 1, hn => inv_step V c ⟨n + 1, hn⟩ (outsAt V c n (Nat.lt_of_succ_lt hn)) (fun _ => inv_all c n (Nat.lt_of_succ_lt hn))

/-! ## The array the region leaves -/

/-- Entry n of the output array: the best match of row n of X among the rows of Y. -/
def bestArr (c : Dev nD) : S8192x1.Idx → Elt Ideal .f32 :=
  fun i => Cert.Spec.bestMatch (matA V c) (matB V c) ⟨(i 0).val, idx2_lt0 i⟩

/-- What a writing-back point writes back is its block of `bestArr`. -/
theorem flushed_eq (c : Dev nD) (t : Fin cfg1.N) (hf : (cfg1.win 2).flush t = true) :
    (dat V c).flushed 2 t = ((cfg1.win 2).blk t).view.read (Elt Ideal) (bestArr V c) := by
  have hlast : t.val % 16 = 15 := (flush1_2 t).mp hf
  obtain ⟨-, -, -, -, e4, e5⟩ := idxFacts t
  have hinv := inv_all V c t.val t.isLt
  show (cfg1.win 2).cut (grid1.coords t) ((dat V c).after 2 t) = _
  rw [after_2, hinv.out hlast]
  funext y
  obtain ⟨r, u, rfl⟩ : ∃ (r : Fin 512) (u : Fin 1), y = ix2 r u := ⟨y 0, y 1, eq_ix2 y⟩
  rw [View.read_apply]
  have hrowlt : 512 * (t.val / 16) + r.val < 8192 := by have := t.isLt; have hN : cfg1.N = 256 := N_1; have := r.isLt; omega
  have hemb : ((((cfg1.win 2).blk t).view.emb (ix2 r u)) 0).val = 512 * (t.val / 16) + r.val := by
    show win1_2.index t (0 : Fin 2) * 512 + 1 * r.val = _; rw [e4]; omega
  show (outsAt V c t.val t.isLt).2.2 (ix2 r u) = Cert.Spec.bestMatch (matA V c) (matB V c) ⟨_, _⟩
  refine eq_of_forall_ge_iff fun B => ?_
  rw [hinv.sM r u ⟨_, _⟩ hemb B]
  unfold Cert.Spec.bestMatch
  rw [Finset.sup_le_iff]
  constructor
  · intro h m _; exact h m (by have := m.isLt; omega)
  · intro h m _; exact h m (Finset.mem_univ _)

/-- An index of the output array is in point `t`'s block iff its row is among the block's 512. -/
theorem mem_blk (t : Fin cfg1.N) (i : S8192x1.Idx) :
    i ∈ ((cfg1.win 2).blk t).view.set ↔ ∀ a : Fin 2, win1_2.index t a * S512x1.size a ≤ (i a).val ∧ (i a).val < win1_2.index t a * S512x1.size a + S512x1.size a := by
  show i ∈ ((View.whole main_v1).slice (win1_2.rect t)).set ↔ _
  rw [View.set_slice_whole, Rect.mem_set_unit]
  exact Iff.rfl

/-- The region leaves `bestArr` in its output array: the last point of the row of the grid that works on an index's block writes it back. -/
theorem final (c : Dev nD) : (dat V c).arrAt 2 cfg1.N = bestArr V c :=
  (dat V c).arrAt_eq_of_cover 2 (bestArr V c) (fun t hf => flushed_eq V c t hf) fun i => by
    have hi0 : (i 0).val < 8192 := idx2_lt0 i
    have hi1 : (i 1).val < 1 := idx2_lt1 i
    have hN : cfg1.N = 256 := N_1
    have htlt : 16 * ((i 0).val / 512) + 15 < cfg1.N := by rw [hN]; omega
    refine ⟨⟨16 * ((i 0).val / 512) + 15, htlt⟩, (flush1_2 _).mpr (by show (16 * ((i 0).val / 512) + 15) % 16 = 15; omega), ?_⟩
    obtain ⟨-, -, -, -, e4, e5⟩ := idxFacts ⟨16 * ((i 0).val / 512) + 15, htlt⟩
    rw [mem_blk]
    intro a
    match a with
    | ⟨0, _⟩ =>
      show win1_2.index _ (0 : Fin 2) * 512 ≤ (i 0).val ∧ (i 0).val < win1_2.index _ (0 : Fin 2) * 512 + 512
      rw [e4]; show (16 * ((i 0).val / 512) + 15) / 16 * 512 ≤ (i 0).val ∧ (i 0).val < (16 * ((i 0).val / 512) + 15) / 16 * 512 + 512; omega
    | ⟨1, _⟩ =>
      show win1_2.index _ (1 : Fin 2) * 1 ≤ (i 1).val ∧ (i 1).val < win1_2.index _ (1 : Fin 2) * 1 + 1
      rw [e5]; omega

end Cert.KernelIdeal.Frm1

end
-- ==== Proof.KerTail.lean ====
/-
  The closing host operations, over the extended reals: each applies the normal log-density score to a column of best matches and
  sums it from zero. Applied to the two regions' output arrays they give the two totals of the specification.
-/
import proofs.«132432_j45810121179238_2_alg».proof.Proof.FrameMainI
import proofs.«132432_j45810121179238_2_alg».proof.Proof.KerFold0
import proofs.«132432_j45810121179238_2_alg».proof.Proof.KerFold1
import proofs.«132432_j45810121179238_2_alg».proof.Proof.Spec
import Idealize.ShloMosaic.Lib.IdealHost
import Idealize.ShloMosaic.Lib.StableHlo.Run
import Idealize.ShloMosaic.PureOps.Ideal.Laws

set_option maxRecDepth 16384

noncomputable section

namespace Cert.KernelIdeal.FrmMain

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal.Gen

variable (m : (ℓ : Loc nD τ sig) → Buf (Elt Ideal) ℓ)

/-- The closing operations on one column: subtract 1, divide by 0.3, multiply by -0.5 and by the quotient again, subtract the
    constant, sum every entry from zero. -/
def tailOf (v : FVec Ideal S8192x1 .f32) : FVec Ideal S_ .f32 :=
  Host.reduceAdd (F := Ideal)
    (subf (mulf (mulf (broadcastInDim S8192x1 ![] bcast_S_S8192x1 (constant (F := Ideal) S_ .f32 0xBF000000#32)) (Host.divf (F := Ideal) (subf v (broadcastInDim S8192x1 ![] bcast_S_S8192x1 (constant (F := Ideal) S_ .f32 0x3F800000#32))) (broadcastInDim S8192x1 ![] bcast_S_S8192x1 (constant (F := Ideal) S_ .f32 0x3E99999A#32)))) (Host.divf (F := Ideal) (subf v (broadcastInDim S8192x1 ![] bcast_S_S8192x1 (constant (F := Ideal) S_ .f32 0x3F800000#32))) (broadcastInDim S8192x1 ![] bcast_S_S8192x1 (constant (F := Ideal) S_ .f32 0x3E99999A#32)))) (broadcastInDim S8192x1 ![] bcast_S_S8192x1 (constant (F := Ideal) S_ .f32 0xBE91F003#32)))
    (constant (F := Ideal) S_ .f32 0x00000000#32) reducesTo_S8192x1_S_d0_1 h_S_

/-- The closing operations read: the sum over the rows of the score of the row's entry. -/
theorem tailOf_apply (v : FVec Ideal S8192x1 .f32) (j : S_.Idx) :
    tailOf v j = ∑ n : Fin 8192, Cert.Spec.score (v (ix2 n (0 : Fin 1))) := by
  unfold tailOf
  rw [hostReduceAdd_apply, Ideal.hostReduceAdd_total _ (fun b => b.elim0), sum_idx2]
  show Ideal.ofBits .f32 0x00000000#32 + _ = _
  rw [Ideal.ofBits_zero_f32, zero_add]
  refine Finset.sum_congr rfl fun n _ => ?_
  rw [Fin.sum_univ_one]
  rfl

/-- The first result is the closing operations on the first region's output array, -/
theorem W3_v11 (c : Dev nD) : W3 m c (Proc.devRef .tc main_v11) = tailOf (W2 m c (Proc.devRef .tc main_v0)) := by
  show StableHlo.after hostOps2 (W2 m c) (Proc.devRef .tc main_v11) = _
  generalize W2 m c = W
  unfold tailOf
  after_results

/-- and the second on the second region's. -/
theorem W3_v21 (c : Dev nD) : W3 m c (Proc.devRef .tc main_v21) = tailOf (W2 m c (Proc.devRef .tc main_v1)) := by
  show StableHlo.after hostOps2 (W2 m c) (Proc.devRef .tc main_v21) = _
  generalize W2 m c = W
  unfold tailOf
  after_results

/-- The first region's output array reaches the closing operations as it was left: the second region does not touch it. -/
theorem W2_v0 (c : Dev nD) : W2 m c (Proc.devRef .tc main_v0) = Frm0.bestArr (V0 m) c :=
  calc W2 m c (Proc.devRef .tc main_v0)
    _ = W1 m c (Proc.devRef .tc main_v0) := W2_of_ne m c main_v0 (by decide)
    _ = (Frm0.dat (V0 m) c).arrAt 2 cfg0.N := W1_arr m c 2
    _ = Frm0.bestArr (V0 m) c := Frm0.final (V0 m) c

theorem W2_v1 (c : Dev nD) : W2 m c (Proc.devRef .tc main_v1) = Frm1.bestArr (V1 m) c :=
  (W2_arr m c 2).trans (Frm1.final (V1 m) c)

/-- The second region is entered with the argument arrays as launched. -/
theorem V1_arg0 (c : Dev nD) : V1 m c main_arg0 = m ((c : Thread nD τ).loc main_arg0) :=
  (W1_arr m c 0).trans (((Frm0.dat (V0 m) c).arrAt_in 0 rfl _).trans (Frm0.A_eq (V0 m) c 0))
theorem V1_arg1 (c : Dev nD) : V1 m c main_arg1 = m ((c : Thread nD τ).loc main_arg1) :=
  (W1_arr m c 1).trans (((Frm0.dat (V0 m) c).arrAt_in 1 rfl _).trans (Frm0.A_eq (V0 m) c 1))

/-- The first result is the total of (ex, ey). -/
theorem res0 (c : Dev nD) : W3 m c (Proc.devRef .tc main_v11)
    = Cert.Spec.result (m ((c : Thread nD τ).loc main_arg0)) (m ((c : Thread nD τ).loc main_arg1)) := by
  rw [W3_v11, W2_v0]
  funext j
  rw [tailOf_apply]
  rfl

/-- The second result is the total of (ey, ex). -/
theorem res1 (c : Dev nD) : W3 m c (Proc.devRef .tc main_v21)
    = Cert.Spec.result (m ((c : Thread nD τ).loc main_arg1)) (m ((c : Thread nD τ).loc main_arg0)) := by
  rw [W3_v21, W2_v1]
  funext j
  rw [tailOf_apply]
  unfold Frm1.bestArr Frm1.matA Frm1.matB
  rw [V1_arg0, V1_arg1]
  rfl

/-- The idealized kernel program runs to the end with its two results at the specification's totals and its arguments unchanged. -/
theorem run_values (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11) = Cert.Spec.result (m ((c.tc : Thread nD τ).loc main_arg0)) (m ((c.tc : Thread nD τ).loc main_arg1))
      ∧ r.2.mem ((c.tc : Thread nD τ).loc main_v21) = Cert.Spec.result (m ((c.tc : Thread nD τ).loc main_arg1)) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v11 (by decide))).trans (res0 m c), (h c _ (mem_uc main_v21 (by decide))).trans (res1 m c),
      (h c _ (mem_uc main_arg0 (by decide))).trans (W3_arg0 m c), (h c _ (mem_uc main_arg1 (by decide))).trans (W3_arg1 m c)⟩) (run_all m ρ)

end Cert.KernelIdeal.FrmMain

end
-- ==== Proof.RefRows.lean ====
/-
  The reference's scaled rows and their inner products, read at an index.

  Each argument matrix is divided, entry by entry, by its row's Euclidean length clamped below by the small positive
  literal: entry (n, k) of the quotient is the specification's unit row.  The contraction of the two quotients over
  their second axes is at (n, m) the sum over k of row n of the first times row m of the second: the cosine.
-/
import proofs.«132432_j45810121179238_2_alg».proof.Proof.Gen.ReferenceIdeal.Read
import proofs.«132432_j45810121179238_2_alg».proof.Proof.Spec

noncomputable section

namespace Cert.RefSide

open Cert.ReferenceIdeal Cert.ReferenceIdeal.Gen Cert.ReferenceIdeal.Read Idealize.ShloMosaic Idealize.ShloMosaic.ValueIdx

/-- The first argument's quotient at (n, k) is the unit row's entry. -/
theorem unitRow_arg0 (x : (⟨S8192x1024, .f32⟩ : BufTy).Contents (Elt Ideal)) (n : Fin 8192) (k : Fin 1024) :
    val_main_v4 (F := Ideal) x (ix2 n k) = Cert.Spec.unitRow (Cert.Spec.mat x) n k := by
  have e : ∀ k' : Fin 1024, idx_main_call0_v1 (idx_main_call0_v2 (idx_main_v3 (ix2 n k))) k' = ix2 n k' :=
    fun k' => funext fun a => Fin.ext (by match a with | ⟨0, _⟩ => rfl | ⟨1, _⟩ => rfl)
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, e, Ideal.hostDivf_def, Ideal.maximumf_def, Ideal.hostUnary_sqrt_def, Ideal.mulf_def,
    Ideal.ofBits_def, Ideal.ofBits_zero_f32, zero_add]
  rfl

/-- The second argument's quotient at (m, k) is the unit row's entry. -/
theorem unitRow_arg1 (x : (⟨S8192x1024, .f32⟩ : BufTy).Contents (Elt Ideal)) (m : Fin 8192) (k : Fin 1024) :
    val_main_v9 (F := Ideal) x (ix2 m k) = Cert.Spec.unitRow (Cert.Spec.mat x) m k := by
  have e : ∀ k' : Fin 1024, idx_main_call1_v1 (idx_main_call1_v2 (idx_main_v8 (ix2 m k))) k' = ix2 m k' :=
    fun k' => funext fun a => Fin.ext (by match a with | ⟨0, _⟩ => rfl | ⟨1, _⟩ => rfl)
  rw [val_main_v9_apply, val_main_v8_apply, val_main_v7_apply, val_main_v5_apply, val_main_call1_v2_apply,
    val_main_call1_v1_apply, val_main_v6_apply, val_main_cst_0_apply, val_main_call1_cst_apply]
  simp only [val_main_call1_v0_apply, e, Ideal.hostDivf_def, Ideal.maximumf_def, Ideal.hostUnary_sqrt_def, Ideal.mulf_def,
    Ideal.ofBits_def, Ideal.ofBits_zero_f32, zero_add]
  rfl

/-- The contraction at (n, m) is the cosine of row n of the first argument and row m of the second. -/
theorem cosine_apply (x0 x1 : (⟨S8192x1024, .f32⟩ : BufTy).Contents (Elt Ideal)) (n m : Fin 8192) :
    val_main_v10 (F := Ideal) x0 x1 (ix2 n m) = Cert.Spec.cosine (Cert.Spec.mat x0) (Cert.Spec.mat x1) n m := by
  rw [val_main_v10_apply]
  unfold Cert.Spec.cosine
  refine Finset.sum_congr rfl fun k _ => ?_
  have el : lidx_main_v10 (ix2 n m) k = ix2 n k :=
    funext fun a => Fin.ext (by match a with | ⟨0, _⟩ => rfl | ⟨1, _⟩ => rfl)
  have er : ridx_main_v10 (ix2 n m) k = ix2 m k :=
    funext fun a => Fin.ext (by match a with | ⟨0, _⟩ => rfl | ⟨1, _⟩ => rfl)
  rw [el, er, unitRow_arg0, unitRow_arg1]

end Cert.RefSide

end
-- ==== Proof.RefMax.lean ====
/-
  The host's maximum over one axis of a matrix, read at an index.

  A one-operand reduce with a maximum body, started from minus infinity, is at every kept index the largest entry along
  the dropped axis: along the second axis of an [a, b] matrix the largest entry of row r, along the first axis the
  largest entry of column c.  A fold of max from the bottom element and a supremum over the same finite family have
  the same upper bounds, and the extended reals are a linear order, so the two are equal.
-/
import Idealize.ShloMosaic.PureOps.Ideal.Laws
import Idealize.ShloMosaic.Lib.ValueIdx

noncomputable section

namespace Cert.RefSide

open Idealize.ShloMosaic Idealize.ShloMosaic.ValueIdx

/-- The word of minus infinity is the bottom of the extended reals. -/
theorem ofBits_negInf : Ideal.ofBits .f32 0xFF800000#32 = (⊥ : EReal) := by
  simp [Ideal.ofBits, Ideal.ieee]

/-- A fold of max from the bottom element is the supremum: both are bounded by exactly the bounds of every term. -/
theorem fold_max_bot_eq_sup {ι : Type} (s : Finset ι) (f : ι → EReal) :
    s.fold max (⊥ : EReal) f = s.sup f :=
  eq_of_forall_ge_iff fun c => by
    rw [Finset.fold_max_le, Finset.sup_le_iff]
    exact ⟨fun h => h.2, fun h => ⟨bot_le, h⟩⟩

/-- Row `r` with column `k` put back is (r, k). -/
theorem lift_row {a b : Nat} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Column `c` with row `k` put back is (k, c). -/
theorem lift_col {a b : Nat} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- The host's maximum along the second axis, from minus infinity, at row `r`: the largest entry of the row. -/
theorem hostMax_rows {a b : Nat} (x : FVec Ideal ⟨2, ![a, b]⟩ .f32) (init : FVec Ideal ⟨0, ![]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel)
    (hinit : init (Shape.Idx.first hu) = (⊥ : EReal)) (r : Fin a) :
    Host.reduce FloatOps.maximumf x init h' hu (ix1 r) = Finset.univ.sup fun k : Fin b => x (ix2 r k) := by
  rw [Host.reduce_eq_fold_single FloatOps.maximumf x init h' h hu, hinit]
  have hf : (x ∘ h.lift (ix1 r)) = fun k : Fin b => x (ix2 r k) := funext fun k => congrArg x (lift_row h r k)
  refine Eq.trans (congrArg (fun f => Finset.fold max (⊥ : EReal) f (Finset.univ : Finset (Fin b))) hf) ?_
  exact fold_max_bot_eq_sup _ _

/-- The host's maximum along the first axis, from minus infinity, at column `c`: the largest entry of the column. -/
theorem hostMax_cols {a b : Nat} (x : FVec Ideal ⟨2, ![a, b]⟩ .f32) (init : FVec Ideal ⟨0, ![]⟩ .f32)
    (h' : (⟨2, ![a, b]⟩ : Shape).ReducesTo [0] (⟨1, ![b]⟩ : Shape))
    (h : (⟨2, ![a, b]⟩ : Shape).Reduces [0] (⟨1, ![b]⟩ : Shape)) (hu : 0 < (⟨0, ![]⟩ : Shape).numel)
    (hinit : init (Shape.Idx.first hu) = (⊥ : EReal)) (c : Fin b) :
    Host.reduce FloatOps.maximumf x init h' hu (ix1 c) = Finset.univ.sup fun k : Fin a => x (ix2 k c) := by
  rw [Host.reduce_eq_fold_single FloatOps.maximumf x init h' h hu, hinit]
  have hf : (x ∘ h.lift (ix1 c)) = fun k : Fin a => x (ix2 k c) := funext fun k => congrArg x (lift_col h c k)
  refine Eq.trans (congrArg (fun f => Finset.fold max (⊥ : EReal) f (Finset.univ : Finset (Fin a))) hf) ?_
  exact fold_max_bot_eq_sup _ _

/-- A rank-one index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.RefSide

end
-- ==== Proof.RefBest.lean ====
/-
  The reference's best matches, their scores and the two totals.

  The maximum of the cosine matrix along its second axis is, at row n, the largest cosine of row n of the first
  argument against the rows of the second; along its first axis it is, at column m, the largest cosine of row m of the
  second argument against the rows of the first, because the product of two extended reals does not depend on the order
  of its factors.  The score of a best match is the programs' own chain of literal words, and each total is zero plus
  the sum of the scores over the 8192 rows.
-/
import proofs.«132432_j45810121179238_2_alg».proof.Proof.RefRows
import proofs.«132432_j45810121179238_2_alg».proof.Proof.RefMax

noncomputable section

namespace Cert.RefSide

open Cert.ReferenceIdeal Cert.ReferenceIdeal.Gen Cert.ReferenceIdeal.Read Idealize.ShloMosaic Idealize.ShloMosaic.ValueIdx

/-- The cosine does not depend on which matrix is named first. -/
theorem cosine_comm (X Y : Fin 8192 → Fin 1024 → EReal) (n m : Fin 8192) :
    Cert.Spec.cosine X Y n m = Cert.Spec.cosine Y X m n :=
  Finset.sum_congr rfl fun _ _ => mul_comm _ _

/-- The maximum along the second axis at row n: the best match of row n of the first argument. -/
theorem best_rows (x0 x1 : (⟨S8192x1024, .f32⟩ : BufTy).Contents (Elt Ideal)) (n : Fin 8192) :
    val_main_v11 (F := Ideal) x0 x1 (ix1 n) = Cert.Spec.bestMatch (Cert.Spec.mat x0) (Cert.Spec.mat x1) n := by
  unfold val_main_v11
  refine (hostMax_rows (val_main_v10 (F := Ideal) x0 x1) (val_main_cst_1 (F := Ideal)) reducesTo_S8192x8192_S8192_d1
    (by decide) h_S_ ((val_main_cst_1_apply _).trans ofBits_negInf) n).trans ?_
  unfold Cert.Spec.bestMatch
  exact congrArg (Finset.sup Finset.univ) (funext fun m => cosine_apply x0 x1 n m)

/-- The maximum along the first axis at column m: the best match of row m of the second argument. -/
theorem best_cols (x0 x1 : (⟨S8192x1024, .f32⟩ : BufTy).Contents (Elt Ideal)) (m : Fin 8192) :
    val_main_v22 (F := Ideal) x0 x1 (ix1 m) = Cert.Spec.bestMatch (Cert.Spec.mat x1) (Cert.Spec.mat x0) m := by
  unfold val_main_v22
  refine (hostMax_cols (val_main_v10 (F := Ideal) x0 x1) (val_main_cst_7 (F := Ideal)) reducesTo_S8192x8192_S8192_d0
    (by decide) h_S_ ((val_main_cst_7_apply _).trans ofBits_negInf) m).trans ?_
  unfold Cert.Spec.bestMatch
  exact congrArg (Finset.sup Finset.univ)
    (funext fun n => (cosine_apply x0 x1 n m).trans (cosine_comm (Cert.Spec.mat x0) (Cert.Spec.mat x1) n m))

/-- The first chain of pointwise operations is the score of the row maximum. -/
theorem score_rows (x0 x1 : (⟨S8192x1024, .f32⟩ : BufTy).Contents (Elt Ideal)) (i : S8192.Idx) :
    val_main_v20 (F := Ideal) x0 x1 i = Cert.Spec.score (val_main_v11 (F := Ideal) x0 x1 i) := by
  rw [val_main_v20_apply, val_main_v18_apply, val_main_v17_apply, val_main_v15_apply, val_main_v13_apply,
    val_main_v19_apply, val_main_v16_apply, val_main_v14_apply, val_main_v12_apply, val_main_cst_5_apply,
    val_main_cst_4_apply, val_main_cst_3_apply, val_main_cst_2_apply]
  rfl

/-- The second chain of pointwise operations is the score of the column maximum. -/
theorem score_cols (x0 x1 : (⟨S8192x1024, .f32⟩ : BufTy).Contents (Elt Ideal)) (i : S8192.Idx) :
    val_main_v31 (F := Ideal) x0 x1 i = Cert.Spec.score (val_main_v22 (F := Ideal) x0 x1 i) := by
  rw [val_main_v31_apply, val_main_v29_apply, val_main_v28_apply, val_main_v26_apply, val_main_v24_apply,
    val_main_v30_apply, val_main_v27_apply, val_main_v25_apply, val_main_v23_apply, val_main_cst_11_apply,
    val_main_cst_10_apply, val_main_cst_9_apply, val_main_cst_8_apply]
  rfl

/-- The first result: the total of the first argument against the second. -/
theorem total_rows (x0 x1 : (⟨S8192x1024, .f32⟩ : BufTy).Contents (Elt Ideal)) (i : S_.Idx) :
    val_main_v21 (F := Ideal) x0 x1 i = Cert.Spec.total (Cert.Spec.mat x0) (Cert.Spec.mat x1) := by
  rw [val_main_v21_apply, val_main_cst_6_apply, Ideal.ofBits_def, Ideal.ofBits_zero_f32, zero_add, sum_idx1]
  unfold Cert.Spec.total
  exact Finset.sum_congr rfl fun n _ => (score_rows x0 x1 (ix1 n)).trans (congrArg Cert.Spec.score (best_rows x0 x1 n))

/-- The second result: the total of the second argument against the first. -/
theorem total_cols (x0 x1 : (⟨S8192x1024, .f32⟩ : BufTy).Contents (Elt Ideal)) (i : S_.Idx) :
    val_main_v32 (F := Ideal) x0 x1 i = Cert.Spec.total (Cert.Spec.mat x1) (Cert.Spec.mat x0) := by
  rw [val_main_v32_apply, val_main_cst_12_apply, Ideal.ofBits_def, Ideal.ofBits_zero_f32, zero_add, sum_idx1]
  unfold Cert.Spec.total
  exact Finset.sum_congr rfl fun m _ => (score_cols x0 x1 (ix1 m)).trans (congrArg Cert.Spec.score (best_cols x0 x1 m))

end Cert.RefSide

end
-- ==== Proof.RefSide.lean ====
/-
  The reference's run, with its two results named by the specification.

  Every execution of the reference ends with its first result at the total of the first argument's rows against the
  second argument's, its second result at the total of the second argument's rows against the first's, and both
  arguments as they were.
-/
import proofs.«132432_j45810121179238_2_alg».proof.Defs
import proofs.«132432_j45810121179238_2_alg».proof.Proof.RefBest

noncomputable section

namespace Cert.RefSide

open Idealize.ShloMosaic Idealize.ShloMosaic.TcCoe Idealize.SL.Sem

/-- The reference runs to the end, faults nowhere and leaves its arguments unchanged. -/
theorem frame [Cert.ReferenceIdeal.Facts] [Cert.Pre_finite_inputs.Facts] : Cert.frame_ReferenceIdeal := fun m ρ _ =>
  (θ_run Cert.ReferenceIdeal.defs _ _).mono (fun _ h c => (h c).2.2) (Cert.ReferenceIdeal.Value.run (F := Ideal) m ρ)

/-- The reference's run: the two results are the specification's totals, the arguments are unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v21)
            = Cert.Spec.result (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_v32)
            = Cert.Spec.result (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) :=
  (θ_run Cert.ReferenceIdeal.defs _ _).mono
    (fun _ h c =>
      ⟨(h c).1.trans ((Cert.ReferenceIdeal.Read.val_main_v21_eq _ _).trans (funext fun i => total_rows _ _ i)),
       (h c).2.1.trans ((Cert.ReferenceIdeal.Read.val_main_v32_eq _ _).trans (funext fun i => total_cols _ _ i)),
       (h c).2.2.1, (h c).2.2.2⟩)
    (Cert.ReferenceIdeal.Value.run (F := Ideal) m' ρ')

end Cert.RefSide

end
-- ==== Proof.lean ====
/-
  The certificate's five claims assembled.

  Both programs compute, for ex and ey of 8192 rows of 1024 entries, the pair of totals of the specification (Proof/Spec.lean): the sum
  over the rows of ex of the normal log-density score of the row's best cosine match among the rows of ey, and the same with the two
  arrays exchanged. The kernel program reaches them in two pipelined regions, each walking a 16 × 16 grid of 512-row blocks with the
  scaled rows of the current block of its first operand and a running row maximum carried in scratch buffers from point to point,
  followed by a stretch of host operations; the reference by one whole matrix product and two maxima. Over the extended reals the two
  agree with no finiteness assumption: a maximum taken block by block from minus infinity and a maximum taken at once have the same
  upper bounds, and the second total's cosines differ only by the order of the two factors of each product.

  The three frames: each kernel program is run as its three segments with the regions' scratch contents tracked by the regions'
  invariants (Proof/FrameMain*.lean); the reference's frame is its run with the results dropped. The idealization rewrote nothing.
-/
import proofs.«132432_j45810121179238_2_alg».proof.Defs
import proofs.«132432_j45810121179238_2_alg».proof.Proof.Gen.Kernel
import proofs.«132432_j45810121179238_2_alg».proof.Proof.Gen.KernelIdeal
import proofs.«132432_j45810121179238_2_alg».proof.Proof.Gen.ReferenceIdeal
import proofs.«132432_j45810121179238_2_alg».proof.Proof.Gen.Pre_finite_inputs
import proofs.«132432_j45810121179238_2_alg».proof.Proof.FrameMainB
import proofs.«132432_j45810121179238_2_alg».proof.Proof.FrameMainI
import proofs.«132432_j45810121179238_2_alg».proof.Proof.KerTail
import proofs.«132432_j45810121179238_2_alg».proof.Proof.RefSide
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel := fun m ρ _ => Cert.Kernel.FrmMain.frame (F := Bits) m ρ

/-- So does the idealized kernel program. -/
theorem frame_ki : Cert.frame_KernelIdeal := fun m ρ _ => Cert.KernelIdeal.FrmMain.frame (F := Ideal) m ρ

/-- The idealization rewrote no operation. -/
theorem preserves : Cert.preserves_Kernel_KernelIdeal := trivial

/-- Over the extended reals both programs end with the specification's two totals of arguments that agree. -/
theorem algebraic : Cert.algebraic_KernelIdeal_ReferenceIdeal := by
  intro m ρ m' ρ' _ hagree
  refine ⟨_, _, Cert.KernelIdeal.FrmMain.run_values m ρ, ?_⟩
  refine (θ_run Cert.ReferenceIdeal.defs _ _).mono (fun _ h c => ?_) (Cert.RefSide.run m' ρ')
  obtain ⟨h0, h1, h2, h3⟩ := h c
  refine ⟨h0.trans ?_, h1.trans ?_, h2, h3⟩
  · rw [(hagree c).1, (hagree c).2]
  · rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, Cert.RefSide.frame, preserves, algebraic⟩

end Cert.Proof

end
